-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S256x256 : Shape := ⟨2, ![256, 256]⟩
abbrev S256 : Shape := ⟨1, ![256]⟩
abbrev S768x256 : Shape := ⟨2, ![768, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S768x256 : S_.BroadcastsInDim S768x256 (![] : Fin 0 → Fin S768x256.rank)
  reducesTo_S768x256_S_d0_1 : S768x256.ReducesTo [0, 1] S_

variable [Facts]

def fn_part1 {F : FTy → Type} [FloatOps F] (main_arg4 : FVec F S256 .f32) (main_arg5 : FVec F S768x256 .f32) (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S768x256 .f32 := Host.absf main_arg5
  let main_cst_8 : FVec F S_ .f32 := constant S_ .f32 0x7F800000#32
  let main_v25 : FVec F S768x256 .f32 := broadcastInDim S768x256 ![] bcast_S_S768x256 main_cst_8
  let main_v26 : IVec S768x256 1 := cmpf .olt main_v24 main_v25
  let main_c_9 : IVec S_ 1 := constantI S_ 1 1#1
  let main_v27 : IVec S_ 1 := (fun x v => Host.reduce IntOp.andi x v reducesTo_S768x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S8192x256 .f32) (main_arg1 : FVec F S256x256 .f32) (main_arg2 : FVec F S256 .f32) (main_arg3 : FVec F S256x256 .f32) (main_arg4 : FVec F S256 .f32) (main_arg5 : FVec F S768x256 .f32) (main_arg6 : FVec F S256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S8192x256 : Shape := ⟨2, ![8192, 256]⟩
abbrev S256x256 : Shape := ⟨2, ![256, 256]⟩
abbrev S256 : Shape := ⟨1, ![256]⟩
abbrev S768x256 : Shape := ⟨2, ![768, 256]⟩
abbrev S1024x256 : Shape := ⟨2, ![1024, 256]⟩
abbrev S1x256 : Shape := ⟨2, ![1, 256]⟩
abbrev S512x256 : Shape := ⟨2, ![512, 256]⟩
abbrev S1024x512 : Shape := ⟨2, ![1024, 512]⟩

abbrev nBuf : Space → Nat
  | .hbm => 10
  | .vmem => 25
  | .smem => 0
  | _ => 0

abbrev bufTy : (tb : Table) → Fin (tcTables nBuf tb) → BufTy
  | .hbm, ⟨0, _⟩ => ⟨S8192x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S768x256, .f32⟩
  | .hbm, ⟨6, _⟩ => ⟨S256, .f32⟩
  | .hbm, ⟨7, _⟩ => ⟨S8192x256, .bf16⟩
  | .hbm, ⟨8, _⟩ => ⟨S8192x256, .bf16⟩
  | .hbm, ⟨9, _⟩ => ⟨S8192x256, .f32⟩
  | .local _ .vmem, ⟨0, _⟩ => ⟨S1024x256, .f32⟩
  | .local _ .vmem, ⟨1, _⟩ => ⟨S1024x256, .f32⟩
  | .local _ .vmem, ⟨2, _⟩ => ⟨S256x256, .f32⟩
  | .local _ .vmem, ⟨3, _⟩ => ⟨S256, .f32⟩
  | .local _ .vmem, ⟨4, _⟩ => ⟨S256x256, .f32⟩
  | .local _ .vmem, ⟨5, _⟩ => ⟨S256, .f32⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S1024x256, .bf16⟩
  | .local _ .vmem, ⟨14, _⟩ => ⟨S8192x256, .bf16⟩
  | .local _ .vmem, ⟨15, _⟩ => ⟨S8192x256, .bf16⟩
  | .local _ .vmem, ⟨16, _⟩ => ⟨S8192x256, .f32⟩
  | .local _ .vmem, ⟨17, _⟩ => ⟨S1024x256, .f32⟩
  | .local _ .vmem, ⟨18, _⟩ => ⟨S1024x256, .f32⟩
  | .local _ .vmem, ⟨19, _⟩ => ⟨S768x256, .f32⟩
  | .local _ .vmem, ⟨20, _⟩ => ⟨S256, .f32⟩
  | .local _ .vmem, ⟨21, _⟩ => ⟨S1024x256, .f32⟩
  | .local _ .vmem, ⟨22, _⟩ => ⟨S1024x256, .f32⟩
  | .local _ .vmem, ⟨23, _⟩ => ⟨S1024x256, .f32⟩
  | .local _ .vmem, ⟨24, _⟩ => ⟨S1024x256, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg8_1 : Ref sig .tc := ⟨.vmem, 22, rfl⟩
abbrev cc1_scratch0 : Ref sig .tc := ⟨.vmem, 23, rfl⟩
abbrev cc1_scratch1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18
abbrev cc1_sem6_0 : DmaSem sig := 19
abbrev cc1_sem7_0 : DmaSem sig := 20
abbrev cc1_sem8_0 : DmaSem sig := 21
abbrev cc1_sem8_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![8], ![false]⟩

@[reducible] def k1_t1_loop : Scf.Loop 32 :=
  let c0_i32 : BitVec 32 := 0#32
  let c16_i32 : BitVec 32 := 16#32
  let v12 : BitVec 32 := Scalar.addi c0_i32 c16_i32
  let c1_i32 : BitVec 32 := 1#32
  ⟨c0_i32, v12, c1_i32⟩
def k1_mult1 (k1_t1 : Fin k1_t1_loop.trips) : BitVec 32 :=
  let c0_i32_27 : BitVec 32 := 0#32
  let c0_i32 : BitVec 32 := 0#32
  let c1_i32 : BitVec 32 := 1#32
  let arg12 : BitVec 32 := Scf.iv c0_i32 c1_i32 k1_t1
  let c1_i32_26 : BitVec 32 := 1#32
  let v37 : BitVec 32 := Scalar.muli arg12 c1_i32_26
  let v38 : BitVec 32 := Scalar.addi c0_i32_27 v37
  let c512_i32 : BitVec 32 := 512#32
  let v39 : BitVec 32 := Scalar.muli v38 c512_i32
  v39
def k1_off1 (k1_t1 : Fin k1_t1_loop.trips) : Fin 2 → Nat :=
  let c0_i32_27 : BitVec 32 := 0#32
  let c0_i32 : BitVec 32 := 0#32
  let c1_i32 : BitVec 32 := 1#32
  let arg12 : BitVec 32 := Scf.iv c0_i32 c1_i32 k1_t1
  let c1_i32_26 : BitVec 32 := 1#32
  let v37 : BitVec 32 := Scalar.muli arg12 c1_i32_26
  let v38 : BitVec 32 := Scalar.addi c0_i32_27 v37
  let c512_i32 : BitVec 32 := 512#32
  let v39 : BitVec 32 := Scalar.muli v38 c512_i32
  let v40 : BitVec 32 := v39
  let v41 : Index := Scalar.indexCast v40
  let c0_28 : Index := 0#32
  ![v41.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8192x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8192x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8192x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S768x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1024x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  packedbf16_S1024x256_S1024x256_0_0 : (Rect.unit (s := S1024x256) ![0, 0] S1024x256.size inb_S1024x256_S1024x256_0_0).PackedRows (EltTy.packing .bf16)
  shapeCasts_S1024x256_S1024x256 : S1024x256.ShapeCasts S1024x256
  h_S512x256 : 0 < S512x256.numel
  shapeCasts_S512x256_S512x256 : S512x256.ShapeCasts S512x256
  inb_S768x256_S256x256_0_0 : ∀ a, (![0, 0] : Fin 2 → Nat) a + S256x256.size a ≤ S768x256.size a
  inb_S768x256_S256x256_256_0 : ∀ a, (![256, 0] : Fin 2 → Nat) a + S256x256.size a ≤ S768x256.size a
  inb_S768x256_S256x256_512_0 : ∀ a, (![512, 0] : Fin 2 → Nat) a + S256x256.size a ≤ S768x256.size a
  dot_S1024x256_S256x256_S1024x256_1_0_0_1_n_n_wf : DotDims.WF S1024x256 S256x256 S1024x256 [1] [0] [0] [1] [] []
  dot_S1024x256_S512x256_S1024x512_1_1_0_0_n_n_wf : DotDims.WF S1024x256 S512x256 S1024x512 [1] [1] [0] [0] [] []
  dot_S1024x512_S512x256_S1024x256_1_0_0_1_n_n_wf : DotDims.WF S1024x512 S512x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S8192x256.size a
  hwx0_5 : ∀ i : grid0.Coords, EltTy.bits .bf16 = 32 ∨ (Rect.block (s := S8192x256) S1024x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x256.size a ≤ S8192x256.size a
  hwx0_6 : ∀ i : grid0.Coords, EltTy.bits .bf16 = 32 ∨ (Rect.block (s := S8192x256) S1024x256.size (cc0_transform_6 i) (hinb0_6 i)).WholeWords (EltTy.packing .bf16)
  hrank1 : 0 < grid1.rank
  k1_t1_ok : k1_t1_loop.OK
  k1_mult1_dvd : ∀ k1_t1 : Fin k1_t1_loop.trips, 512 ∣ (k1_mult1 k1_t1).toNat
  k1_off1_inb : ∀ k1_t1 : Fin k1_t1_loop.trips, ∀ a, (k1_off1 k1_t1) a + S512x256.size a ≤ S8192x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .bf16 = 32 ∨ (Rect.block (s := S8192x256) S1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S8192x256.size a
  hwx1_1 : ∀ i : grid1.Coords, EltTy.bits .bf16 = 32 ∨ (Rect.block (s := S8192x256) S1024x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x256.size a ≤ S8192x256.size a
  hwx1_2 : ∀ i : grid1.Coords, EltTy.bits .bf16 = 32 ∨ (Rect.block (s := S8192x256) S8192x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8192x256.size a ≤ S8192x256.size a
  hwx1_3 : ∀ i : grid1.Coords, EltTy.bits .bf16 = 32 ∨ (Rect.block (s := S8192x256) S8192x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S8192x256.size a ≤ S8192x256.size a
  hwx1_4 : ∀ i : grid1.Coords, EltTy.bits .f32 = 32 ∨ (Rect.block (s := S8192x256) S8192x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x256.size a ≤ S8192x256.size a
  hwx1_5 : ∀ i : grid1.Coords, EltTy.bits .f32 = 32 ∨ (Rect.block (s := S8192x256) S1024x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S768x256.size a ≤ S768x256.size a
  hwx1_6 : ∀ i : grid1.Coords, EltTy.bits .f32 = 32 ∨ (Rect.block (s := S768x256) S768x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256.size a ≤ S256.size a
  hwx1_7 : ∀ i : grid1.Coords, EltTy.bits .f32 = 32 ∨ (Rect.block (s := S256) S256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1024x256.size a ≤ S8192x256.size a
  hwx1_8 : ∀ i : grid1.Coords, EltTy.bits .f32 = 32 ∨ (Rect.block (s := S8192x256) S1024x256.size (cc1_transform_8 i) (hinb1_8 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S512x256_S1024x512_1_1_0_0_n_n : DotDims S1024x256 S512x256 S1024x512 where
  lhsContracting := [1]
  rhsContracting := [1]
  lhsNonContracting := [0]
  rhsNonContracting := [0]
  lhsBatch := []
  rhsBatch := []
  wf := dot_S1024x256_S512x256_S1024x512_1_1_0_0_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S1024x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S1024x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v0_0) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_0) S8192x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0_1) S8192x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg0) S8192x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg0) S1024x256.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_arg5) S768x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg6) S256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v1) S1024x256.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S8192x256 : Shape := ⟨2, ![8192, 256]⟩
abbrev S256x256 : Shape := ⟨2, ![256, 256]⟩
abbrev S256 : Shape := ⟨1, ![256]⟩
abbrev S768x256 : Shape := ⟨2, ![768, 256]⟩
abbrev S1x256 : Shape := ⟨2, ![1, 256]⟩
abbrev S_ : Shape := ⟨0, ![]⟩
abbrev S256x8192 : Shape := ⟨2, ![256, 8192]⟩
abbrev S8192x8192 : Shape := ⟨2, ![8192, 8192]⟩
abbrev S8192x768 : Shape := ⟨2, ![8192, 768]⟩

abbrev nBuf : Space → Nat
  | .hbm => 41
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S768x256, .f32⟩
  | .hbm, ⟨6, _⟩ => ⟨S256, .f32⟩
  | .hbm, ⟨7, _⟩ => ⟨S8192x256, .f32⟩
  | .hbm, ⟨8, _⟩ => ⟨S1x256, .f32⟩
  | .hbm, ⟨9, _⟩ => ⟨S8192x256, .f32⟩
  | .hbm, ⟨10, _⟩ => ⟨S8192x256, .f32⟩
  | .hbm, ⟨11, _⟩ => ⟨S_, .f32⟩
  | .hbm, ⟨12, _⟩ => ⟨S8192x256, .f32⟩
  | .hbm, ⟨13, _⟩ => ⟨S8192x256, .f32⟩
  | .hbm, ⟨14, _⟩ => ⟨S256x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x256, .f32⟩
  | .hbm, ⟨20, _⟩ => ⟨S1x256, .f32⟩
  | .hbm, ⟨21, _⟩ => ⟨S8192x256, .f32⟩
  | .hbm, ⟨22, _⟩ => ⟨S8192x256, .f32⟩
  | .hbm, ⟨23, _⟩ => ⟨S_, .f32⟩
  | .hbm, ⟨24, _⟩ => ⟨S8192x256, .f32⟩
  | .hbm, ⟨25, _⟩ => ⟨S8192x256, .f32⟩
  | .hbm, ⟨26, _⟩ => ⟨S256x8192, .f32⟩
  | .hbm, ⟨27, _⟩ => ⟨S8192x8192, .f32⟩
  | .hbm, ⟨28, _⟩ => ⟨S_, .f32⟩
  | .hbm, ⟨29, _⟩ => ⟨S8192x8192, .f32⟩
  | .hbm, ⟨30, _⟩ => ⟨S8192x8192, .f32⟩
  | .hbm, ⟨31, _⟩ => ⟨S8192x256, .f32⟩
  | .hbm, ⟨32, _⟩ => ⟨S8192x256, .f32⟩
  | .hbm, ⟨33, _⟩ => ⟨S8192x768, .f32⟩
  | .hbm, ⟨34, _⟩ => ⟨S8192x256, .f32⟩
  | .hbm, ⟨35, _⟩ => ⟨S1x256, .f32⟩
  | .hbm, ⟨36, _⟩ => ⟨S8192x256, .f32⟩
  | .hbm, ⟨37, _⟩ => ⟨S8192x256, .f32⟩
  | .hbm, ⟨38, _⟩ => ⟨S_, .f32⟩
  | .hbm, ⟨39, _⟩ => ⟨S8192x256, .f32⟩
  | .hbm, ⟨40, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call1_cst : Ref sig .tc := ⟨.hbm, 23, rfl⟩
abbrev main_call1_v0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_call2_cst : Ref sig .tc := ⟨.hbm, 38, rfl⟩
abbrev main_call2_v0 : Ref sig .tc := ⟨.hbm, 39, rfl⟩
abbrev main_v25 : Ref sig .tc := ⟨.hbm, 40, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  transposes_S8192x256_S256x8192_1_0 : S8192x256.Transposes [1, 0] S256x8192
  bcast_S_S8192x8192 : S_.BroadcastsInDim S8192x8192 (![] : Fin 0 → Fin S8192x8192.rank)
  concatenates_S8192x256_S8192x256_S8192x256_S8192x768_d1 : Shape.Concatenates [S8192x256, S8192x256, S8192x256] S8192x768 1
  dot_S8192x256_S256x256_S8192x256_1_0_0_1_n_n_wf : DotDims.WF S8192x256 S256x256 S8192x256 [1] [0] [0] [1] [] []
  dot_S8192x256_S256x8192_S8192x8192_1_0_0_1_n_n_wf : DotDims.WF S8192x256 S256x8192 S8192x8192 [1] [0] [0] [1] [] []
  dot_S8192x8192_S8192x256_S8192x256_1_0_0_1_n_n_wf : DotDims.WF S8192x8192 S8192x256 S8192x256 [1] [0] [0] [1] [] []
  dot_S8192x768_S768x256_S8192x256_1_0_0_1_n_n_wf : DotDims.WF S8192x768 S768x256 S8192x256 [1] [0] [0] [1] [] []

variable [Facts₀]

def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S8192x768_S768x256_S8192x256_1_0_0_1_n_n : DotDims S8192x768 S768x256 S8192x256 where
  lhsContracting := [1]
  rhsContracting := [0]
  lhsNonContracting := [0]
  rhsNonContracting := [1]
  lhsBatch := []
  rhsBatch := []
  wf := dot_S8192x768_S768x256_S8192x256_1_0_0_1_n_n_wf

class Facts : Prop extends Facts₀ where

variable [Facts]
-- ==== Proof.KDefs.lean ====
/-
  The proof data of the two kernel regions, stated once for both of them to be proved against.

  Region 0 (the projection kernel): at grid point t the body reads a 1024x256 block x of the edge features, the two
  weight matrices and the two bias vectors, and leaves in its two output blocks relu(x·W₁ + b₁) and relu(x·W₂ + b₂).
  Region 1 (the message-passing kernel): at grid point t the body reads the q-th 1024-row blocks of e1, e2 and of the
  edge features, the whole of e1, e2 and of the edge features, the output weights and bias; it clears two accumulators,
  adds to each, for each of the sixteen 512-row slabs k, (e_q · e_kᵀ) · (x_k · 2⁻⁸), and leaves in its output block
  relu(x_q·W⁰ + acc₁·W¹ + acc₂·W² + b).
-/
import proofs.«142857_j12214886990224_2_alg».proof.Proof.Gen.Kernel.Launch
import proofs.«142857_j12214886990224_2_alg».proof.Proof.Gen.Kernel.Skeleton
import proofs.«142857_j12214886990224_2_alg».proof.Proof.Gen.Kernel.Points
import Idealize.ShloMosaic.Lib.Pipeline.FrameBody
import Idealize.ShloMosaic.Lib.Pipeline.Frame

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)
open Cert.Kernel Cert.Kernel.Gen

variable {F : FTy → Type} [FloatOps F]

/-- The TensorCore's buffer contents when a region is entered. -/
abbrev Entry (F : FTy → Type) : Type := (c : Dev nD) → (b : Ref sig .tc) → Buf (Elt F) ((c : Thread nD τ).loc b)

variable (V : Entry F)

/-! ## Region 0 -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 0's proof data: the arrays as the region finds them; each input window's buffer keeps its block; output
    window 5 is left at relu(x·W₁ + b₁) and output window 6 at relu(x·W₂ + b₂), both of the point's input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay2 (iblk0 V c 0 t) (iblk0 V c 1 t) (iblk0 V c 2 t)
    | ⟨6, _⟩ => k0_pay3 (iblk0 V c 0 t) (iblk0 V c 3 t) (iblk0 V c 4 t)
  Φ _ := Pipeline.ΦA spec0 c
  q _ := fullShare
  owed _ := 0

/-! ## Region 1 -/

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The 512-row slab of an 8192-row array that trip `k` of the body's loop reads. -/
abbrev slab (k : Fin k1_t1_loop.trips) : Rect S8192x256 := Rect.unit (s := S8192x256) (k1_off1 k) S512x256.size (k1_off1_inb k)
/-- The three 256-row slices of the output weights. -/
abbrev wrows0 : Rect S768x256 := Rect.unit (s := S768x256) ![0, 0] S256x256.size inb_S768x256_S256x256_0_0
abbrev wrows1 : Rect S768x256 := Rect.unit (s := S768x256) ![256, 0] S256x256.size inb_S768x256_S256x256_256_0
abbrev wrows2 : Rect S768x256 := Rect.unit (s := S768x256) ![512, 0] S256x256.size inb_S768x256_S256x256_512_0

/-- The first accumulator before trip `k`: zero, then one slab's contribution per trip. -/
def accA (e1q : Vec F S1024x256 .bf16) (e1k : Vec F S8192x256 .bf16) (xk : Vec F S8192x256 .f32) : ℕ → Vec F S1024x256 .f32
  | 0 => k1_pay2
  | k + 1 => if h : k < k1_t1_loop.trips then k1_pay5 e1q (View.ld e1k (slab ⟨k, h⟩)) (View.ld xk (slab ⟨k, h⟩)) (accA e1q e1k xk k) else accA e1q e1k xk k

/-- The second accumulator before trip `k`. -/
def accB (e2q : Vec F S1024x256 .bf16) (e2k : Vec F S8192x256 .bf16) (xk : Vec F S8192x256 .f32) : ℕ → Vec F S1024x256 .f32
  | 0 => k1_pay3
  | k + 1 => if h : k < k1_t1_loop.trips then k1_pay6 e2q (View.ld e2k (slab ⟨k, h⟩)) (View.ld xk (slab ⟨k, h⟩)) (accB e2q e2k xk k) else accB e2q e2k xk k

/-- What region 1's body leaves in its output block, of the point's eight input blocks. -/
def out1_8 (e1q e2q : Vec F S1024x256 .bf16) (e1k e2k : Vec F S8192x256 .bf16) (xk : Vec F S8192x256 .f32) (xq : Vec F S1024x256 .f32)
    (wout : Vec F S768x256 .f32) (bout : Vec F S256 .f32) : Vec F S1024x256 .f32 :=
  k1_pay1 (k1_pay7 (accA e1q e1k xk k1_t1_loop.trips)) (k1_pay8 (accB e2q e2k xk k1_t1_loop.trips)) bout
    (k1_pay9 (View.ld wout wrows1)) (k1_pay10 (View.ld wout wrows2)) (k1_pay11 xq (View.ld wout wrows0))
    (constant S1024x256 .f32 0x00000000#32)

/-- Region 1's proof data. Three arrays are each read through two windows (e1 through windows 0 and 2, e2 through
    1 and 3, the edge features through 4 and 5): each such window holds one half of the array's share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q w := match w with
    | ⟨0, _⟩ => fullShare.left
    | ⟨1, _⟩ => fullShare.left
    | ⟨2, _⟩ => fullShare.right
    | ⟨3, _⟩ => fullShare.right
    | ⟨4, _⟩ => fullShare.left
    | ⟨5, _⟩ => fullShare.right
    | _ => fullShare
  owed _ := 0

theorem A_eq0 (c : Dev nD) (w : Fin cfg0.W) : (dat0 V c).A w = V c (Pipeline.arrRef spec0 w) := by dsimp only [dat0]
theorem A_eq1 (c : Dev nD) (w : Fin cfg1.W) : (dat1 V c).A w = V c (Pipeline.arrRef spec1 w) := by dsimp only [dat1]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = k0_pay2 (iblk0 V c 0 t) (iblk0 V c 1 t) (iblk0 V c 2 t) := by dsimp only [dat0]
theorem after0_6 (c : Dev nD) (t : Fin cfg0.N) : (dat0 V c).after 6 t = k0_pay3 (iblk0 V c 0 t) (iblk0 V c 3 t) (iblk0 V c 4 t) := by dsimp only [dat0]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t
    = out1_8 (iblk1 V c 0 t) (iblk1 V c 1 t) (iblk1 V c 2 t) (iblk1 V c 3 t) (iblk1 V c 4 t) (iblk1 V c 5 t) (iblk1 V c 6 t) (iblk1 V c 7 t) := by dsimp only [dat1]

end Cert.Kernel.Hand

end
-- ==== Proof.KRunDefs.lean ====
/-
  The buffer contents at the boundaries of the two kernel regions of the program, and each region's proof data at
  the contents its region is entered from.

  The program is the projection kernel followed by the message-passing kernel, with no host operation between them.
  The first region writes its two output arrays (the projected features e1 and e2) and nothing else; the second
  region reads them, reads three of the arguments, and writes the result array and nothing else.
-/
import proofs.«142857_j12214886990224_2_alg».proof.Proof.KDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m ((c : Dev nD), b)

/-- The TensorCore's buffers when region 0 is entered: the launch contents. -/
def entry0 : Entry F := fun c b => m ((c : Thread nD τ).loc b)

/-- At region 0's exit: its arrays at what the pipeline leaves (the inputs as entered, each output's write-backs
    folded), every other buffer as entered. -/
def W1 (c : Dev nD) : Valuation τ sig (Elt F) :=
  Pipeline.withArrays spec0 c (W0 m c) fun w => (dat0 (entry0 m) c).arrAt w cfg0.N

theorem W1_arr (c : Dev nD) (w : Fin cfg0.W) :
    W1 m c (Proc.devRef .tc (Pipeline.arrRef spec0 w)) = (dat0 (entry0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb

/-- The TensorCore's buffers when region 1 is entered: what region 0 leaves. -/
def entry1 : Entry F := fun c b => W1 m c b

/-- At region 0's exit each of its arrays holds what the pipeline leaves and every other buffer what it held at entry. -/
theorem hF0 (c : Dev nD) (w : Fin cfg0.W) : (dat0 (entry0 m) c).arrAt w cfg0.N = entry1 m c (Pipeline.arrRef spec0 w) :=
  (W1_arr m c w).symm
theorem hrest0 (c : Dev nD) : ∀ b, b ∉ Finset.univ.image (Pipeline.arrRef spec0) → entry1 m c b = entry0 m c b :=
  fun b hb => W1_of_ne m c b fun w e => hb (Finset.mem_image.mpr ⟨w, Finset.mem_univ _, e⟩)

theorem entry1_main_v0_0 (c : Dev nD) : entry1 m c main_v0_0 = (dat0 (entry0 m) c).arrAt 5 cfg0.N := W1_arr m c 5
theorem entry1_main_v0_1 (c : Dev nD) : entry1 m c main_v0_1 = (dat0 (entry0 m) c).arrAt 6 cfg0.N := W1_arr m c 6
theorem entry1_main_arg0 (c : Dev nD) : entry1 m c main_arg0 = m ((c : Thread nD τ).loc main_arg0) :=
  (W1_arr m c 0).trans (((dat0 (entry0 m) c).arrAt_in 0 rfl _).trans (A_eq0 (entry0 m) c 0))
theorem entry1_main_arg1 (c : Dev nD) : entry1 m c main_arg1 = m ((c : Thread nD τ).loc main_arg1) :=
  (W1_arr m c 1).trans (((dat0 (entry0 m) c).arrAt_in 1 rfl _).trans (A_eq0 (entry0 m) c 1))
theorem entry1_main_arg2 (c : Dev nD) : entry1 m c main_arg2 = m ((c : Thread nD τ).loc main_arg2) :=
  (W1_arr m c 2).trans (((dat0 (entry0 m) c).arrAt_in 2 rfl _).trans (A_eq0 (entry0 m) c 2))
theorem entry1_main_arg3 (c : Dev nD) : entry1 m c main_arg3 = m ((c : Thread nD τ).loc main_arg3) :=
  (W1_arr m c 3).trans (((dat0 (entry0 m) c).arrAt_in 3 rfl _).trans (A_eq0 (entry0 m) c 3))
theorem entry1_main_arg4 (c : Dev nD) : entry1 m c main_arg4 = m ((c : Thread nD τ).loc main_arg4) :=
  (W1_arr m c 4).trans (((dat0 (entry0 m) c).arrAt_in 4 rfl _).trans (A_eq0 (entry0 m) c 4))
theorem entry1_main_arg5 (c : Dev nD) : entry1 m c main_arg5 = m ((c : Thread nD τ).loc main_arg5) :=
  W1_of_ne m c main_arg5 (by decide)
theorem entry1_main_arg6 (c : Dev nD) : entry1 m c main_arg6 = m ((c : Thread nD τ).loc main_arg6) :=
  W1_of_ne m c main_arg6 (by decide)

/-- At region 1's exit: the result array at what the pipeline's write-backs leave, every other buffer as entered
    (the region's other arrays are read only). -/
def W2 (c : Dev nD) : Valuation τ sig (Elt F) :=
  Function.update (W1 m c) (Proc.devRef .tc main_v1) ((dat1 (entry1 m) c).arrAt 8 cfg1.N)

theorem W2_main_v1 (c : Dev nD) : W2 m c (Proc.devRef .tc main_v1) = (dat1 (entry1 m) c).arrAt 8 cfg1.N := by
  unfold W2; exact Function.update_self ..
theorem W2_of_ne (c : Dev nD) (b : Ref sig .tc) (hb : b ≠ main_v1) : W2 m c (Proc.devRef .tc b) = W1 m c (Proc.devRef .tc b) := by
  unfold W2; exact Function.update_of_ne (StableHlo.devRef_ne_of_ne hb) ..

/-! ## The proof data family -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (entry0 m) c
  | ⟨1, _⟩ => fun c => dat1 (entry1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through both regions: the core's generator register at some state and its
    tallies of what it owes, at nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the tallies: every unscoped buffer at the last boundary's contents, the generator
    register at some state. -/
abbrev Tₙ (c : Dev nD) : sProp 𝕄 := iprop(StableHlo.held (c : Thread nD τ) (Pipeline.ucRefs τ sig) (W2 m c) ∗ ∃ r, prngReg c r)

end Cert.Kernel.Hand

end
-- ==== Proof.KBody0.lean ====
/-
  Region 0's body obligation: at every grid point the projection kernel, called on the windows' staging buffers holding the point's input blocks, leaves the two output buffers at relu(x·W₁ + b₁) and relu(x·W₂ + b₂).
-/
import proofs.«142857_j12214886990224_2_alg».proof.Proof.KDefs
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Each input window's staging buffer holds its block at every point -/

/-- Input window 0's current staging buffer holds its block at every point, fetched there or not: where it is not
    fetched its block index has not moved, and the body leaves the block in place. -/
theorem before0_0 (V : Entry F) (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- Input window 1's current staging buffer holds its block at every point, fetched there or not: where it is not
    fetched its block index has not moved, and the body leaves the block in place. -/
theorem before0_1 (V : Entry F) (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- Input window 2's current staging buffer holds its block at every point, fetched there or not: where it is not
    fetched its block index has not moved, and the body leaves the block in place. -/
theorem before0_2 (V : Entry F) (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- Input window 3's current staging buffer holds its block at every point, fetched there or not: where it is not
    fetched its block index has not moved, and the body leaves the block in place. -/
theorem before0_3 (V : Entry F) (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-- Input window 4's current staging buffer holds its block at every point, fetched there or not: where it is not
    fetched its block index has not moved, and the body leaves the block in place. -/
theorem before0_4 (V : Entry F) (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-- The zero offsets of a rank-2 and of a rank-1 rectangle, as constant functions. -/
theorem zero2 : (![0, 0] : Fin 2 → Nat) = fun _ => 0 := funext fun a => by fin_cases a <;> rfl
theorem zero1 : (![0] : Fin 1 → Nat) = fun _ => 0 := funext fun a => by fin_cases a; rfl

/-- One store through the whole-block rectangle leaves its payload, whatever the buffer held. -/
theorem read_store_whole {κ : Kind} {sp : Space} (v : View sig κ sp S1024x256 .bf16) (f : v.ty.Contents (Elt F)) (p : S1024x256.Idx → Elt F .bf16) :
    v.read (Elt F) (v.writes (Elt F) f [⟨Rect.unit (s := S1024x256) ![0, 0] S1024x256.size inb_S1024x256_S1024x256_0_0, p⟩]) = p :=
  (View.read_writes_eq_canon _ _ _ (fun y => ⟨_, List.mem_singleton_self _, View.mem_set_unit_zero zero2 inb_S1024x256_S1024x256_0_0 y⟩)).trans
    (View.canon_unit_zero zero2 _ p)

/-! ## The body's triple -/

set_option maxHeartbeats 1000000 in
/-- The projection kernel on whole staging memrefs, the five inputs' at contents x, W₁, b₁, W₂, b₂ and the two outputs' at
    anything, runs to the continuation holding the inputs' as they were and the outputs' at relu(x·W₁ + b₁) and
    relu(x·W₂ + b₂): every load reads a whole buffer and every store overwrites a whole buffer. -/
theorem sound_kernel0 (c : Dev nD) (E : Set ℕ) (i : grid0.Coords)
    (arg1 : Memref sig .tc .vmem S1024x256 .f32) (harg1 : arg1.IsWhole) (arg2 : Memref sig .tc .vmem S256x256 .f32) (harg2 : arg2.IsWhole)
    (arg3 : Memref sig .tc .vmem S256 .f32) (harg3 : arg3.IsWhole) (arg4 : Memref sig .tc .vmem S256x256 .f32) (harg4 : arg4.IsWhole)
    (arg5 : Memref sig .tc .vmem S256 .f32) (harg5 : arg5.IsWhole) (arg6 : Memref sig .tc .vmem S1024x256 .bf16) (harg6 : arg6.IsWhole)
    (arg7 : Memref sig .tc .vmem S1024x256 .bf16) (harg7 : arg7.IsWhole)
    (x0 : Vec F S1024x256 .f32) (x1 : Vec F S256x256 .f32) (x2 : Vec F S256 .f32) (x3 : Vec F S256x256 .f32) (x4 : Vec F S256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay2 x0 x1 x2) ∗ owns (c : Thread nD τ) arg7 fullShare (k0_pay3 x0 x3 x4)) -∗ K ⟨⟩))
      ⊢ wp frame (wpE (defs₀ (F := F)) Variants.none c none) E (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (read_store_whole _ _ _).trans ?_
    simp only [View.readAt_eq_ld, View.ld_unit_zero (S := S1024x256) zero2, View.ld_unit_zero (S := S256x256) zero2,
      View.ld_unit_zero (S := S256) zero1]
  · iexists _; isplitr
    swap; · iexact H6
    ipureintro
    refine (read_store_whole _ _ _).trans ?_
    simp only [View.readAt_eq_ld, View.ld_unit_zero (S := S1024x256) zero2, View.ld_unit_zero (S := S256x256) zero2,
      View.ld_unit_zero (S := S256) zero1]

/-! ## The body obligation, at a generic point -/

/-- What the body is called with at point `t`: the invariant, what the core owes, and each window's current staging
    buffer at what the pipeline left in it, -/
def bodyPre0 (V : Entry F) (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns: each buffer at what the proof data says the body leaves. -/
def bodyPost0 (V : Entry F) (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in
/-- The body at any point: the inputs' buffers hold their blocks, so the kernel's triple applies; the invariant and what
    the core owes pass through unread. -/
theorem sound_body0 (V : Entry F) (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation for region 0, at every point. -/
theorem body_obligation0 (V : Entry F) (c : Dev nD) : BodyObligation (dat0 (F := F) V c) (defs₀ (F := F)) Variants.none () Set.univ := fun t => by
  rw [bigSep_W0, bigSep_W0]
  exact sound_body0 V c t

end Cert.Kernel.Hand

end
-- ==== Proof.KReg0.lean ====
/-
  The projection kernel's region as a segment of the program's run: entered from every unscoped buffer at the launch
  contents, left with its two output arrays at what the pipeline's write-backs leave and every other buffer as entered.
-/
import proofs.«142857_j12214886990224_2_alg».proof.Proof.KRunDefs
import proofs.«142857_j12214886990224_2_alg».proof.Proof.KBody0

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- REGION 0 over the thread state: entered from every unscoped buffer at the launch contents, left at `W1`. Its
    arrays split out of the unscoped buffers and put back at the exit contents; the generator register into the
    region's invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (entry0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entry0 m c) fun _ => rfl
    rw [show (unscopedBufs c (entry0 m c) : sProp 𝕄) = StableHlo.held (c : Thread nD τ) (Pipeline.ucRefs τ sig) (W0 m c)
      from Pipeline.unscopedBufs_held c (W0 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry0 m c) (entry1 m c) ((pdats m 0 c).arrAt · cfg0.N) (hF0 m c) (hrest0 m c)
    rw [show (unscopedBufs c (entry1 m c) : sProp 𝕄) = StableHlo.held (c : Thread nD τ) (Pipeline.ucRefs τ sig) (W1 m c)
      from Pipeline.unscopedBufs_held c (W1 m c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KBody1pre.lean ====
/-
  Region 1's body obligation, from the message-passing kernel's triple: at every grid point each input window's staging buffer
  holds the point's block, so the kernel called on them leaves the output buffer at the closed form of the eight input blocks.
-/
import proofs.«142857_j12214886990224_2_alg».proof.Proof.KDefs
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Each input window's staging buffer holds its block at every point -/

/-- Input window 0's current staging buffer holds its block at every point, fetched there or not: where it is not
    fetched its block index has not moved, and the body leaves the block in place. -/
theorem before1_0 (V : Entry F) (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- Input window 1's current staging buffer holds its block at every point, fetched there or not: where it is not
    fetched its block index has not moved, and the body leaves the block in place. -/
theorem before1_1 (V : Entry F) (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- Input window 2's current staging buffer holds its block at every point, fetched there or not: where it is not
    fetched its block index has not moved, and the body leaves the block in place. -/
theorem before1_2 (V : Entry F) (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- Input window 3's current staging buffer holds its block at every point, fetched there or not: where it is not
    fetched its block index has not moved, and the body leaves the block in place. -/
theorem before1_3 (V : Entry F) (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- Input window 4's current staging buffer holds its block at every point, fetched there or not: where it is not
    fetched its block index has not moved, and the body leaves the block in place. -/
theorem before1_4 (V : Entry F) (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-- Input window 5's current staging buffer holds its block at every point, fetched there or not: where it is not
    fetched its block index has not moved, and the body leaves the block in place. -/
theorem before1_5 (V : Entry F) (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

/-- Input window 6's current staging buffer holds its block at every point, fetched there or not: where it is not
    fetched its block index has not moved, and the body leaves the block in place. -/
theorem before1_6 (V : Entry F) (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)

/-- Input window 7's current staging buffer holds its block at every point, fetched there or not: where it is not
    fetched its block index has not moved, and the body leaves the block in place. -/
theorem before1_7 (V : Entry F) (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)

/-- The message-passing kernel's triple: on whole staging memrefs, the eight inputs' at contents x₀ … x₇ and the output's at
    anything, with the region's invariant (which holds the two accumulators), it runs to the continuation holding the
    invariant again, the inputs' as they were, and the output's at the closed form of the eight inputs. -/
def SoundKernel1 (F : FTy → Type) [FloatOps F] : Prop :=
  ∀ (c : Dev nD) (E : Set ℕ) (i : grid1.Coords)
    (arg1 : Memref sig .tc .vmem S1024x256 .bf16) (harg1 : arg1.IsWhole) (arg2 : Memref sig .tc .vmem S1024x256 .bf16) (harg2 : arg2.IsWhole)
    (arg3 : Memref sig .tc .vmem S8192x256 .bf16) (harg3 : arg3.IsWhole) (arg4 : Memref sig .tc .vmem S8192x256 .bf16) (harg4 : arg4.IsWhole)
    (arg5 : Memref sig .tc .vmem S8192x256 .f32) (harg5 : arg5.IsWhole) (arg6 : Memref sig .tc .vmem S1024x256 .f32) (harg6 : arg6.IsWhole)
    (arg7 : Memref sig .tc .vmem S768x256 .f32) (harg7 : arg7.IsWhole) (arg8 : Memref sig .tc .vmem S256 .f32) (harg8 : arg8.IsWhole)
    (arg9 : Memref sig .tc .vmem S1024x256 .f32) (harg9 : arg9.IsWhole)
    (x0 : Vec F S1024x256 .bf16) (x1 : Vec F S1024x256 .bf16) (x2 : Vec F S8192x256 .bf16) (x3 : Vec F S8192x256 .bf16) (x4 : Vec F S8192x256 .f32) (x5 : Vec F S1024x256 .f32) (x6 : Vec F S768x256 .f32) (x7 : Vec F S256 .f32)
    (K : PUnit → sProp (MT nD τ sig Unit (Elt F) ℕ (UR sig nD τ) ℕ)),
    iprop(Pipeline.ΦA spec1 c
        ∗ owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d)
        ∗ (iprop(Pipeline.ΦA spec1 c
            ∗ owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out1_8 x0 x1 x2 x3 x4 x5 x6 x7)) -∗ K ⟨⟩))
      ⊢ wp frame (wpE (defs₀ (F := F)) Variants.none c none) E
          (cc1__mp_kernel i arg1 harg1 arg2 harg2 arg3 harg3 arg4 harg4 arg5 harg5 arg6 harg6 arg7 harg7 arg8 harg8 arg9 harg9 (Memref.whole cc1_scratch0) (Memref.isWhole_whole _) (Memref.whole cc1_scratch1) (Memref.isWhole_whole _)) K

/-! ## The body obligation, at a generic point -/

/-- What the body is called with at point `t`: the invariant, what the core owes, and each window's current staging
    buffer at what the pipeline left in it, -/
def bodyPre1 (V : Entry F) (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns: each buffer at what the proof data says the body leaves. -/
def bodyPost1 (V : Entry F) (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

set_option maxHeartbeats 1000000 in
/-- The body at any point, from the kernel's triple: the inputs' buffers hold their blocks, so the triple applies; the
    invariant goes through the kernel and comes back, and what the core owes passes through unread. -/
theorem sound_body1_of (hk : SoundKernel1 F) (V : Entry F) (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    show (dat1 V c).Φ t.castSucc = Pipeline.ΦA spec1 c from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (hk c Set.univ _ _ _ _ _ _ _ _ _ _ _ _ _ _ _ _ _ _ _ (iblk1 V c 0 t) (iblk1 V c 1 t) (iblk1 V c 2 t) (iblk1 V c 3 t)
    (iblk1 V c 4 t) (iblk1 V c 5 t) (iblk1 V c 6 t) (iblk1 V c 7 t) _)
  isplitl [HΦ]; · iexact HΦ
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨HΦ, H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation for region 1, at every point, from the kernel's triple. -/
theorem body_obligation1_of (hk : SoundKernel1 F) (V : Entry F) (c : Dev nD) :
    BodyObligation (dat1 (F := F) V c) (defs₀ (F := F)) Variants.none () Set.univ := fun t => by
  rw [bigSep_W1, bigSep_W1]
  exact sound_body1_of hk V c t

end Cert.Kernel.Hand

end
-- ==== Proof.KBody1a.lean ====
/-
  Region 1's body, the pure facts its run cites: the two accumulators' recursion one trip at a time, and what a load or a
  store through the zero-offset rectangle of a buffer's own sizes reads or leaves (the buffer's contents; the payload).
-/
import proofs.«142857_j12214886990224_2_alg».proof.Proof.KDefs
import Idealize.ShloMosaic.Lib.Pipeline.FrameBody
import Idealize.ShloMosaic.Lib.Pipeline.Value

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The accumulators' recursion, one trip at a time -/

theorem accA_zero (e1q : Vec F S1024x256 .bf16) (e1k : Vec F S8192x256 .bf16) (xk : Vec F S8192x256 .f32) :
    accA e1q e1k xk 0 = k1_pay2 := rfl

theorem accA_succ (e1q : Vec F S1024x256 .bf16) (e1k : Vec F S8192x256 .bf16) (xk : Vec F S8192x256 .f32) (k : Fin k1_t1_loop.trips) :
    accA e1q e1k xk (k.val + 1) = k1_pay5 e1q (View.ld e1k (slab k)) (View.ld xk (slab k)) (accA e1q e1k xk k.val) := by
  rw [accA, dif_pos k.isLt]

theorem accB_zero (e2q : Vec F S1024x256 .bf16) (e2k : Vec F S8192x256 .bf16) (xk : Vec F S8192x256 .f32) :
    accB e2q e2k xk 0 = k1_pay3 := rfl

theorem accB_succ (e2q : Vec F S1024x256 .bf16) (e2k : Vec F S8192x256 .bf16) (xk : Vec F S8192x256 .f32) (k : Fin k1_t1_loop.trips) :
    accB e2q e2k xk (k.val + 1) = k1_pay6 e2q (View.ld e2k (slab k)) (View.ld xk (slab k)) (accB e2q e2k xk k.val) := by
  rw [accB, dif_pos k.isLt]

/-! ## Whole-block accesses: through the zero-offset rectangle of the buffer's own sizes -/

/-- The zero-offset rectangle of a 1024x256 buffer's own sizes. -/
abbrev rAll : Rect S1024x256 := Rect.unit (s := S1024x256) ![0, 0] S1024x256.size inb_S1024x256_S1024x256_0_0

theorem zeroOff2 : (![0, 0] : Fin S1024x256.rank → Nat) = fun _ => 0 := by
  funext a; fin_cases a <;> rfl

theorem zeroOff1 : (![0] : Fin S256.rank → Nat) = fun _ => 0 := by
  funext a; fin_cases a; rfl

/-- A load through it reads the contents. -/
theorem readAt_rAll {e : EltTy} (m : Memref sig .tc .vmem S1024x256 e) (f : BufTy.Contents (Elt F) m.view.ty) :
    View.readAt (Elt F) m.view (rAll).toLoadRect f = m.view.read (Elt F) f := by
  rw [View.readAt_eq_ld m.view f rAll]
  exact View.ld_unit_zero zeroOff2 inb_S1024x256_S1024x256_0_0 _

/-- One store through it leaves its payload, whatever was there. -/
theorem read_write_rAll {e : EltTy} (m : Memref sig .tc .vmem S1024x256 e) (f : BufTy.Contents (Elt F) m.view.ty) (w : S1024x256.Idx → Elt F e) :
    m.view.read (Elt F) (m.view.writes (Elt F) f [(⟨rAll, w⟩ : View.Piece (Elt F) S1024x256 e)]) = w := by
  have hc : ∀ y : S1024x256.Idx, ∃ p ∈ ([(⟨rAll, w⟩ : View.Piece (Elt F) S1024x256 e)] : List (View.Piece (Elt F) S1024x256 e)), y ∈ p.1.set :=
    fun y => ⟨_, List.mem_singleton_self _, View.mem_set_unit_zero zeroOff2 inb_S1024x256_S1024x256_0_0 y⟩
  rw [View.read_writes_eq_canon m.view f _ hc]
  exact View.canon_unit_zero zeroOff2 inb_S1024x256_S1024x256_0_0 w

/-- A load of the whole bias vector reads the contents. -/
theorem readAt_bias (m : Memref sig .tc .vmem S256 .f32) (f : BufTy.Contents (Elt F) m.view.ty) :
    View.readAt (Elt F) m.view (Rect.unit (s := S256) ![0] S256.size inb_S256_S256_0).toLoadRect f = m.view.read (Elt F) f := by
  rw [View.readAt_eq_ld m.view f (Rect.unit (s := S256) ![0] S256.size inb_S256_S256_0)]
  exact View.ld_unit_zero zeroOff1 inb_S256_S256_0 _

end Cert.Kernel.Hand

end
-- ==== Proof.KBody1b.lean ====
/-
  Region 1's body, first half: the message-passing kernel's accumulation. The two accumulators are cleared; each of the
  sixteen trips of the loop adds to each, for its 512-row slab k, (e_q · e_kᵀ) · (x_k · 2⁻⁸); then the output weights'
  three slices, the bias and the point's block of the edge features are read. The loop is taken by its invariant: before
  trip k the first accumulator holds the sum over the slabs before k, and so the second.
-/
import proofs.«142857_j12214886990224_2_alg».proof.Proof.KBody1a
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The loop -/

/-- The loop's invariant before trip `k`: the three whole arrays as they were, the first accumulator at the sum over the
    slabs before `k`, and so the second. -/
def loopI (c : Dev nD) (arg3 : Memref sig .tc .vmem S8192x256 .bf16) (arg4 : Memref sig .tc .vmem S8192x256 .bf16)
    (arg5 : Memref sig .tc .vmem S8192x256 .f32) (arg10 arg11 : Memref sig .tc .vmem S1024x256 .f32)
    (f3 : BufTy.Contents (Elt F) arg3.view.ty) (f4 : BufTy.Contents (Elt F) arg4.view.ty) (f5 : BufTy.Contents (Elt F) arg5.view.ty)
    (v8 v10 : Vec F S1024x256 .bf16) (k : Nat) (_ : Unit) : sProp 𝕄 :=
  iprop((arg3.view.loc (c : Thread nD τ) ↦[arg3.view.set]{fullShare} f3) ∗ (arg4.view.loc (c : Thread nD τ) ↦[arg4.view.set]{fullShare} f4)
    ∗ (arg5.view.loc (c : Thread nD τ) ↦[arg5.view.set]{fullShare} f5)
    ∗ owns (c : Thread nD τ) arg10 fullShare (accA v8 (arg3.view.read (Elt F) f3) (arg5.view.read (Elt F) f5) k)
    ∗ owns (c : Thread nD τ) arg11 fullShare (accB v10 (arg4.view.read (Elt F) f4) (arg5.view.read (Elt F) f5) k))

/-! ## The first half's triple -/

set_option maxHeartbeats 1000000 in
/-- The accumulation on whole memrefs, the eight inputs' at contents `f1` … `f8` and the accumulators' at anything, runs to
    the continuation at the values the second half reads: the two accumulators after the sixteenth trip rounded, the
    bias, the output weights' three slices rounded, and the edge-feature block's product with the first slice. -/
theorem sound_part1 (c : Dev nD) (E : Set ℕ) (i : grid1.Coords)
    (arg1 : Memref sig .tc .vmem S1024x256 .bf16) (harg1 : arg1.IsWhole) (arg2 : Memref sig .tc .vmem S1024x256 .bf16) (harg2 : arg2.IsWhole)
    (arg3 : Memref sig .tc .vmem S8192x256 .bf16) (harg3 : arg3.IsWhole) (arg4 : Memref sig .tc .vmem S8192x256 .bf16) (harg4 : arg4.IsWhole)
    (arg5 : Memref sig .tc .vmem S8192x256 .f32) (harg5 : arg5.IsWhole) (arg6 : Memref sig .tc .vmem S1024x256 .f32) (harg6 : arg6.IsWhole)
    (arg7 : Memref sig .tc .vmem S768x256 .f32) (harg7 : arg7.IsWhole) (arg8 : Memref sig .tc .vmem S256 .f32) (harg8 : arg8.IsWhole)
    (arg9 : Memref sig .tc .vmem S1024x256 .f32) (harg9 : arg9.IsWhole) (arg10 : Memref sig .tc .vmem S1024x256 .f32) (harg10 : arg10.IsWhole)
    (arg11 : Memref sig .tc .vmem S1024x256 .f32) (harg11 : arg11.IsWhole)
    (f1 : BufTy.Contents (Elt F) arg1.view.ty) (f2 : BufTy.Contents (Elt F) arg2.view.ty) (f3 : BufTy.Contents (Elt F) arg3.view.ty)
    (f4 : BufTy.Contents (Elt F) arg4.view.ty) (f5 : BufTy.Contents (Elt F) arg5.view.ty) (f6 : BufTy.Contents (Elt F) arg6.view.ty)
    (f7 : BufTy.Contents (Elt F) arg7.view.ty) (f8 : BufTy.Contents (Elt F) arg8.view.ty)
    (f10 : BufTy.Contents (Elt F) arg10.view.ty) (f11 : BufTy.Contents (Elt F) arg11.view.ty)
    (K : (Σ' (v16 : FVec F S1024x256 .bf16) (v18 : FVec F S1024x256 .bf16) (v19 : Vec F S256 .f32) (v23 : FVec F S256x256 .bf16) (v25 : FVec F S256x256 .bf16) (v26 : FVec F S1024x256 .f32), FVec F S1024x256 .f32) → sProp 𝕄) :
    iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg10.view.loc (c : Thread nD τ) ↦[arg10.view.set]{fullShare} f10) ∗ (arg11.view.loc (c : Thread nD τ) ↦[arg11.view.set]{fullShare} f11)
        ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8)
            ∗ (∃ d, owns (c : Thread nD τ) arg10 fullShare d) ∗ (∃ d, owns (c : Thread nD τ) arg11 fullShare d))
          -∗ K ⟨k1_pay7 (accA (arg1.view.read (Elt F) f1) (arg3.view.read (Elt F) f3) (arg5.view.read (Elt F) f5) k1_t1_loop.trips),
                k1_pay8 (accB (arg2.view.read (Elt F) f2) (arg4.view.read (Elt F) f4) (arg5.view.read (Elt F) f5) k1_t1_loop.trips),
                arg8.view.read (Elt F) f8, k1_pay9 (View.ld (arg7.view.read (Elt F) f7) wrows1), k1_pay10 (View.ld (arg7.view.read (Elt F) f7) wrows2),
                k1_pay11 (arg6.view.read (Elt F) f6) (View.ld (arg7.view.read (Elt F) f7) wrows0), constant S1024x256 .f32 0x00000000#32⟩))
      ⊢ wp frame (wpE (defs₀ (F := F)) Variants.none c none) E (k1_part1 i arg1 harg1 arg2 harg2 arg3 harg3 arg4 harg4 arg5 harg5 arg6 harg6 arg7 harg7 arg8 harg8 arg9 harg9 arg10 harg10 arg11 harg11) K := by
  simp only [k1_part1_eq_skeleton]; unfold k1_part1_skel
  iintro ⟨H1, H2, H3, H4, H5, H6, H7, H8, H10, H11, Hk⟩
  sl_exec
  sl_for (loopI c arg3 arg4 arg5 arg10 arg11 f3 f4 f5 (View.readAt (Elt F) arg1.view (rAll).toLoadRect f1) (View.readAt (Elt F) arg2.view (rAll).toLoadRect f2)) $$ [H3 H4 H5 H10 H11]
  case region =>
    intro k a
    unfold loopI owns
    iintro ⟨H3, H4, H5, ⟨%g10, %h10, H10⟩, ⟨%g11, %h11, H11⟩⟩
    sl_exec
    sl_step
    isplitl [H3]; · iexact H3
    isplitl [H4]; · iexact H4
    isplitl [H5]; · iexact H5
    isplitl [H10]
    · iexists _; isplitr
      swap; · iexact H10
      ipureintro
      refine (read_write_rAll arg10 g10 _).trans ?_
      rw [accA_succ, readAt_rAll arg10 g10, h10]
      rfl
    iexists _; isplitr
    swap; · iexact H11
    ipureintro
    refine (read_write_rAll arg11 g11 _).trans ?_
    rw [accB_succ, readAt_rAll arg11 g11, h11]
    rfl
  · unfold loopI owns
    isplitl [H3]; · iexact H3
    isplitl [H4]; · iexact H4
    isplitl [H5]; · iexact H5
    isplitl [H10]
    · iexists _; isplitr
      swap; · iexact H10
      ipureintro
      exact (read_write_rAll arg10 _ _).trans (accA_zero _ _ _).symm
    iexists _; isplitr
    swap; · iexact H11
    ipureintro
    exact (read_write_rAll arg11 _ _).trans (accB_zero _ _ _).symm
  iintro %a HI
  unfold loopI owns
  icases HI with ⟨H3, H4, H5, ⟨%g10, %h10, H10⟩, ⟨%g11, %h11, H11⟩⟩
  sl_exec
  sl_step
  have h10' : arg10.view.read (Elt F) g10
      = accA (arg1.view.read (Elt F) f1) (arg3.view.read (Elt F) f3) (arg5.view.read (Elt F) f5) k1_t1_loop.trips :=
    h10.trans (congrArg (fun v => accA v (arg3.view.read (Elt F) f3) (arg5.view.read (Elt F) f5) k1_t1_loop.trips) (readAt_rAll arg1 f1))
  have h11' : arg11.view.read (Elt F) g11
      = accB (arg2.view.read (Elt F) f2) (arg4.view.read (Elt F) f4) (arg5.view.read (Elt F) f5) k1_t1_loop.trips :=
    h11.trans (congrArg (fun v => accB v (arg4.view.read (Elt F) f4) (arg5.view.read (Elt F) f5) k1_t1_loop.trips) (readAt_rAll arg2 f2))
  rw [(readAt_rAll arg10 g10).trans h10', (readAt_rAll arg11 g11).trans h11', readAt_bias arg8 f8, readAt_rAll arg6 f6,
    View.readAt_eq_ld arg7.view f7 wrows0, View.readAt_eq_ld arg7.view f7 wrows1, View.readAt_eq_ld arg7.view f7 wrows2]
  sl_unfold_run_names
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H10]
  · iexists _; iexists g10; isplitr; · ipureintro; rfl
    iexact H10
  iexists _; iexists g11; isplitr; · ipureintro; rfl
  iexact H11

end Cert.Kernel.Hand

end
-- ==== Proof.KBody1c.lean ====
/-
  Region 1's body, second half and whole: after the accumulation the kernel stores into its output block
  relu(x_q·W⁰ + acc₁·W¹ + acc₂·W² + b). The two accumulators are scratch of the kernel's own, which the region's invariant
  holds at any contents: the body clears them before it reads them, and they go back at whatever they end with.
-/
import proofs.«142857_j12214886990224_2_alg».proof.Proof.KBody1b

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The invariant, the two accumulators taken out as memrefs -/

/-- The class's invariant of region 1 with the two scratch accumulators as whole memrefs owned at some contents. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f)
          ∗ (∃ d, owns (c : Thread nD τ) (Memref.whole cc1_scratch0) fullShare d) ∗ (∃ d, owns (c : Thread nD τ) (Memref.whole cc1_scratch1) fullShare d))
        ∗ (∃ r, prngReg c r)) := by
  unfold Pipeline.ΦA; rw [scopedRest1_eq]; simp only [owns_whole]; try rfl

/-! ## The body's triple -/

set_option maxHeartbeats 1000000 in
/-- The kernel body on whole memrefs, the eight inputs' at read contents and the output's and the two accumulators' at
    anything, runs to the continuation holding the inputs' as they were, the output's at `out1_8` of the inputs' and the
    accumulators' at something. -/
theorem sound_kernel1_scratch (c : Dev nD) (E : Set ℕ) (i : grid1.Coords)
    (arg1 : Memref sig .tc .vmem S1024x256 .bf16) (harg1 : arg1.IsWhole) (arg2 : Memref sig .tc .vmem S1024x256 .bf16) (harg2 : arg2.IsWhole)
    (arg3 : Memref sig .tc .vmem S8192x256 .bf16) (harg3 : arg3.IsWhole) (arg4 : Memref sig .tc .vmem S8192x256 .bf16) (harg4 : arg4.IsWhole)
    (arg5 : Memref sig .tc .vmem S8192x256 .f32) (harg5 : arg5.IsWhole) (arg6 : Memref sig .tc .vmem S1024x256 .f32) (harg6 : arg6.IsWhole)
    (arg7 : Memref sig .tc .vmem S768x256 .f32) (harg7 : arg7.IsWhole) (arg8 : Memref sig .tc .vmem S256 .f32) (harg8 : arg8.IsWhole)
    (arg9 : Memref sig .tc .vmem S1024x256 .f32) (harg9 : arg9.IsWhole) (arg10 : Memref sig .tc .vmem S1024x256 .f32) (harg10 : arg10.IsWhole)
    (arg11 : Memref sig .tc .vmem S1024x256 .f32) (harg11 : arg11.IsWhole)
    (x1 x2 : Vec F S1024x256 .bf16) (x3 x4 : Vec F S8192x256 .bf16) (x5 : Vec F S8192x256 .f32) (x6 : Vec F S1024x256 .f32)
    (x7 : Vec F S768x256 .f32) (x8 : Vec F S256 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
            ∗ owns (c : Thread nD τ) arg9 fullShare (out1_8 x1 x2 x3 x4 x5 x6 x7 x8)
            ∗ (∃ d, owns (c : Thread nD τ) arg10 fullShare d) ∗ (∃ d, owns (c : Thread nD τ) arg11 fullShare d)) -∗ K ⟨⟩))
      ⊢ wp frame (wpE (defs₀ (F := F)) Variants.none c none) E (cc1__mp_kernel i arg1 harg1 arg2 harg2 arg3 harg3 arg4 harg4 arg5 harg5 arg6 harg6 arg7 harg7 arg8 harg8 arg9 harg9 arg10 harg10 arg11 harg11) K := by
  simp only [cc1__mp_kernel_eq_skeleton]; unfold cc1__mp_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf1 hf2 hf3 hf4 hf5 hf6 hf7 hf8
  rw [wp_bind]
  iapply (sound_part1 c E i arg1 harg1 arg2 harg2 arg3 harg3 arg4 harg4 arg5 harg5 arg6 harg6 arg7 harg7 arg8 harg8 arg9 harg9 arg10 harg10 arg11 harg11 f1 f2 f3 f4 f5 f6 f7 f8 f10 f11 _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H10]; · iexact H10
  isplitl [H11]; · iexact H11
  iintro ⟨H1, H2, H3, H4, H5, H6, H7, H8, HA, HB⟩
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  isplitl [H9]
  · iexists _; isplitr
    swap; · iexact H9
    ipureintro
    exact (read_write_rAll arg9 f9 _).trans rfl
  isplitl [HA]; · iexact HA
  iexact HB

end Cert.Kernel.Hand

end
-- ==== Proof.KBody1.lean ====
/-
  Region 1's body obligation: at every grid point the message-passing kernel, called on the windows' staging buffers holding the point's input blocks and on its two scratch accumulators, leaves the output buffer at relu(x_q·W⁰ + acc₁·W¹ + acc₂·W² + b).
-/
import proofs.«142857_j12214886990224_2_alg».proof.Proof.KBody1pre
import proofs.«142857_j12214886990224_2_alg».proof.Proof.KBody1c

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The kernel's triple with the region's invariant: the invariant lends the two scratch accumulators, which the body
    clears before it reads them, and takes them back at whatever they end with; the rest of it passes through unread. -/
theorem sound_kernel1 : SoundKernel1 F := by
  intro c E i arg1 harg1 arg2 harg2 arg3 harg3 arg4 harg4 arg5 harg5 arg6 harg6 arg7 harg7 arg8 harg8 arg9 harg9 x0 x1 x2 x3 x4 x5 x6 x7 K
  rw [PhiA1_eq]
  iintro ⟨⟨⟨S0, S1, S2, S3, S4, S5, S6, S7, S8, S9, HA, HB⟩, Hr⟩, H1, H2, H3, H4, H5, H6, H7, H8, H9, Hk⟩
  iapply (sound_kernel1_scratch c E i arg1 harg1 arg2 harg2 arg3 harg3 arg4 harg4 arg5 harg5 arg6 harg6 arg7 harg7 arg8 harg8 arg9 harg9 (Memref.whole cc1_scratch0) (Memref.isWhole_whole _) (Memref.whole cc1_scratch1) (Memref.isWhole_whole _) x0 x1 x2 x3 x4 x5 x6 x7 K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HA]; · iexact HA
  isplitl [HB]; · iexact HB
  iintro ⟨H1, H2, H3, H4, H5, H6, H7, H8, H9, HA, HB⟩
  iapply Hk
  isplitl [S0 S1 S2 S3 S4 S5 S6 S7 S8 S9 HA HB Hr]
  · isplitr [Hr]
    swap; · iexact Hr
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [HA]; · iexact HA
    iexact HB
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation for region 1, at every point. -/
theorem body_obligation1 (V : Entry F) (c : Dev nD) : BodyObligation (dat1 (F := F) V c) (defs₀ (F := F)) Variants.none () Set.univ :=
  body_obligation1_of sound_kernel1 V c

end Cert.Kernel.Hand

end
-- ==== Proof.KReg1.lean ====
/-
  The message-passing kernel's region as a segment of the program's run: entered from every unscoped buffer at what the
  projection kernel's region leaves, left with the result array at what the pipeline's write-backs leave and every
  other buffer as entered.

  Three of the region's arrays (the two projected feature arrays and the edge features) are each read through two
  windows. Each such array's buffer, held whole at entry, is split into two halves of its share, one per window; at the
  exit both halves hold the entry contents (an input window's array is never written) and are joined again.
-/
import proofs.«142857_j12214886990224_2_alg».proof.Proof.KRunDefs
import proofs.«142857_j12214886990224_2_alg».proof.Proof.KBody1

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

variable (V : Entry F)

/-- Region 1's nine windows' arrays one by one, each a whole buffer at its window's share. -/
theorem arrays1_eq (c : Dev nD) (G : (w : Fin cfg1.W) → Buf (Elt F) ((cfg1.win w).arr.view.loc (c.tc : Thread nD τ))) :
    ((dat1 V c).arrays G : sProp 𝕄)
      = iprop((((c : Thread nD τ).loc main_v0_0) ↦{fullShare.left} G 0) ∗ (((c : Thread nD τ).loc main_v0_1) ↦{fullShare.left} G 1)
        ∗ (((c : Thread nD τ).loc main_v0_0) ↦{fullShare.right} G 2) ∗ (((c : Thread nD τ).loc main_v0_1) ↦{fullShare.right} G 3)
        ∗ (((c : Thread nD τ).loc main_arg0) ↦{fullShare.left} G 4) ∗ (((c : Thread nD τ).loc main_arg0) ↦{fullShare.right} G 5)
        ∗ (((c : Thread nD τ).loc main_arg5) ↦{fullShare} G 6) ∗ (((c : Thread nD τ).loc main_arg6) ↦{fullShare} G 7)
        ∗ (((c : Thread nD τ).loc main_v1) ↦{fullShare} G 8)) := by
  unfold Dat.arrays
  rw [bigSep_congr (Ψ := fun w : Fin cfg1.W => (((c : Thread nD τ).loc (Pipeline.arrRef spec1 w)) ↦{(dat1 V c).share w} G w : sProp 𝕄))
    fun w _ => by rw [(arr_whole1 w).set_eq_univ]]
  rw [bigSep_W1]
  rfl

/-- The six distinct buffers behind region 1's nine windows, one by one, each whole at the full share. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_v0_0) ↦{fullShare} V' main_v0_0) ∗ (((c : Thread nD τ).loc main_v0_1) ↦{fullShare} V' main_v0_1)
        ∗ (((c : Thread nD τ).loc main_arg0) ↦{fullShare} V' main_arg0) ∗ (((c : Thread nD τ).loc main_arg5) ↦{fullShare} V' main_arg5)
        ∗ (((c : Thread nD τ).loc main_arg6) ↦{fullShare} V' main_arg6) ∗ (((c : Thread nD τ).loc main_v1) ↦{fullShare} V' main_v1)) := by
  unfold Pipeline.arrBufs
  exact bigSep_eq_bigSepL_of_eq [main_v0_0, main_v0_1, main_arg0, main_arg5, main_arg6, main_v1] (by decide) (by decide) _

/-- ENTRY: the six buffers, each whole at the entry contents, make the nine windows' arrays at the proof data's
    shares — a buffer behind two windows split in the two halves of its share. -/
theorem split1 (c : Dev nD) :
    (Pipeline.arrBufs (Ix := Unit) (Name := ℕ) (U := UR sig nD τ) (Lvl := ℕ) spec1 c (V c) : sProp 𝕄)
      ⊢ (dat1 V c).arrays ((dat1 V c).arrAt · 0) := by
  rw [arrBufs1_eq, arrays1_eq]
  iintro ⟨H0, H1, H4, H6, H7, H8⟩
  ihave H0 := (pointsTo_share (PosShare.mem_left_op_right fullShare)).1 $$ H0
  icases H0 with ⟨H0l, H0r⟩
  ihave H1 := (pointsTo_share (PosShare.mem_left_op_right fullShare)).1 $$ H1
  icases H1 with ⟨H1l, H1r⟩
  ihave H4 := (pointsTo_share (PosShare.mem_left_op_right fullShare)).1 $$ H4
  icases H4 with ⟨H4l, H4r⟩
  isplitl [H0l]; · iexact H0l
  isplitl [H1l]; · iexact H1l
  isplitl [H0r]; · iexact H0r
  isplitl [H1r]; · iexact H1r
  isplitl [H4l]; · iexact H4l
  isplitl [H4r]; · iexact H4r
  isplitl [H6]; · iexact H6
  isplitl [H7]; · iexact H7
  iexact H8

/-- EXIT: the nine windows' arrays at what the pipeline leaves make the six buffers, each whole, at any contents that
    has the result array at its final contents and agrees with the entry contents elsewhere: an input window's array is
    never written, so the two halves of a shared buffer hold the same contents and join. -/
theorem join1 (c : Dev nD) (V' : (b : Ref sig .tc) → Buf (Elt F) ((c : Thread nD τ).loc b))
    (hout : V' main_v1 = (dat1 V c).arrAt 8 cfg1.N) (hin : ∀ b, b ≠ main_v1 → V' b = V c b) :
    (dat1 V c).arrays ((dat1 V c).arrAt · cfg1.N)
      ⊢ (Pipeline.arrBufs (Ix := Unit) (Name := ℕ) (U := UR sig nD τ) (Lvl := ℕ) spec1 c V' : sProp 𝕄) := by
  rw [arrBufs1_eq, arrays1_eq, hout,
    hin main_v0_0 (by decide), hin main_v0_1 (by decide), hin main_arg0 (by decide), hin main_arg5 (by decide), hin main_arg6 (by decide),
    (dat1 V c).arrAt_in 0 rfl, (dat1 V c).arrAt_in 1 rfl, (dat1 V c).arrAt_in 2 rfl, (dat1 V c).arrAt_in 3 rfl,
    (dat1 V c).arrAt_in 4 rfl, (dat1 V c).arrAt_in 5 rfl, (dat1 V c).arrAt_in 6 rfl, (dat1 V c).arrAt_in 7 rfl]
  refine (show (iprop((((c : Thread nD τ).loc main_v0_0) ↦{fullShare.left} V c main_v0_0) ∗ (((c : Thread nD τ).loc main_v0_1) ↦{fullShare.left} V c main_v0_1)
        ∗ (((c : Thread nD τ).loc main_v0_0) ↦{fullShare.right} V c main_v0_0) ∗ (((c : Thread nD τ).loc main_v0_1) ↦{fullShare.right} V c main_v0_1)
        ∗ (((c : Thread nD τ).loc main_arg0) ↦{fullShare.left} V c main_arg0) ∗ (((c : Thread nD τ).loc main_arg0) ↦{fullShare.right} V c main_arg0)
        ∗ (((c : Thread nD τ).loc main_arg5) ↦{fullShare} V c main_arg5) ∗ (((c : Thread nD τ).loc main_arg6) ↦{fullShare} V c main_arg6)
        ∗ (((c : Thread nD τ).loc main_v1) ↦{fullShare} (dat1 V c).arrAt 8 cfg1.N)) : sProp 𝕄) ⊢ _ from ?_)
  iintro ⟨H0l, H1l, H0r, H1r, H4l, H4r, H6, H7, H8⟩
  ihave H0 := (pointsTo_share (PosShare.mem_left_op_right fullShare)).2 $$ [H0l H0r]
  · isplitl [H0l] <;> iassumption
  ihave H1 := (pointsTo_share (PosShare.mem_left_op_right fullShare)).2 $$ [H1l H1r]
  · isplitl [H1l] <;> iassumption
  ihave H4 := (pointsTo_share (PosShare.mem_left_op_right fullShare)).2 $$ [H4l H4r]
  · isplitl [H4l] <;> iassumption
  isplitl [H0]; · iexact H0
  isplitl [H1]; · iexact H1
  isplitl [H4]; · iexact H4
  isplitl [H6]; · iexact H6
  isplitl [H7]; · iexact H7
  iexact H8

/-- The unscoped buffers that are no array of region 1 hold at its exit what they held at its entry. -/
theorem rest1_eq (c : Dev nD) :
    (Pipeline.unscopedRest (Ix := Unit) (Name := ℕ) (U := UR sig nD τ) (Lvl := ℕ) spec1 c (entry1 m c) : sProp 𝕄)
      = Pipeline.unscopedRest spec1 c (fun b => W2 m c b) := by
  unfold Pipeline.unscopedRest
  exact bigSep_congr fun b hb => congrArg (fun f => (((c : Thread nD τ).loc b) ↦{fullShare} f : sProp 𝕄))
    (W2_of_ne m c b fun e => (Finset.mem_sdiff.mp hb).2 (Finset.mem_image.mpr ⟨8, Finset.mem_univ _, e ▸ rfl⟩)).symm

set_option backward.isDefEq.respectTransparency.types false in
/-- REGION 1 over the thread state: entered from every unscoped buffer at `W1`, left at `W2`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (entry1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hub : (StableHlo.held (c : Thread nD τ) (Pipeline.ucRefs τ sig) (W1 m c) : sProp 𝕄)
        = iprop(Pipeline.arrBufs spec1 c (entry1 m c) ∗ Pipeline.unscopedRest spec1 c (entry1 m c)) :=
      (Pipeline.unscopedBufs_held c (W1 m c)).symm.trans
        (Pipeline.unscopedBufs_split₀ (cfgs) 1 winFacts₀1.arr_unscoped c (entry1 m c))
    have hsplit := split1 (entry1 m) c
    iintro ⟨⟨Hub, Hp, HO⟩, -, -⟩
    ihave H := (Entails.of_eq hub) $$ Hub
    icases H with ⟨Hb, Hrest⟩
    ihave Ha := hsplit $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hub : (StableHlo.held (c : Thread nD τ) (Pipeline.ucRefs τ sig) (W2 m c) : sProp 𝕄)
        = iprop(Pipeline.arrBufs spec1 c (fun b => W2 m c b) ∗ Pipeline.unscopedRest spec1 c (entry1 m c)) := by
      rw [rest1_eq m c]
      exact (Pipeline.unscopedBufs_held c (W2 m c)).symm.trans
        (Pipeline.unscopedBufs_split₀ (cfgs) 1 winFacts₀1.arr_unscoped c (fun b => W2 m c b))
    have hjoin := join1 (entry1 m) c (fun b => W2 m c b) (W2_main_v1 m c) (fun b hb => W2_of_ne m c b hb)
    iintro ⟨Ha, HO, HY, Hrest⟩
    imodintro
    isplitl [Ha Hrest HY]
    · isplitl [Ha Hrest]
      · iapply (Entails.of_eq hub.symm)
        isplitl [Ha]
        · iapply hjoin; iexact Ha
        iexact Hrest
      iexact HY
    unfold Pipeline.Dat.owesAt Pipeline.owesWithin
    icases HO with ⟨%W, -, HO⟩; iexists W; iexact HO

end Cert.Kernel.Hand

end
-- ==== Proof.KRun.lean ====
/-
  The run of the program: the projection kernel's region, then the message-passing kernel's region, from the launch to
  the return. Every weakly fair execution terminates, nothing faulting; the result array ends at what the second
  region's write-backs leave, of the contents the first region leaves; every argument array ends as launched.
-/
import proofs.«142857_j12214886990224_2_alg».proof.Proof.KReg0
import proofs.«142857_j12214886990224_2_alg».proof.Proof.KReg1

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-- The program's two segments in order: a region per kernel call, no host operation between them. -/
abbrev segs : List (Pipeline.Seg (pcfgs (F := F)) adm (pdats m) () defs₀ 𝒱₀ L lv) :=
  [ .region (reg0 m), .region (reg1 m) ]

/-- The program is the run of the two segments. -/
theorem main_run (c : Dev nD) : main (F := F) c = Pipeline.Seg.run (segs m) := (main_chain c).trans (by chain_rfl)

/-! ### The arguments end as launched: neither region writes one -/

theorem W2_main_arg0 (c : Dev nD) : W2 m c (Proc.devRef .tc main_arg0) = m ((c : Thread nD τ).loc main_arg0) :=
  (W2_of_ne m c main_arg0 (by decide)).trans (entry1_main_arg0 m c)
theorem W2_main_arg1 (c : Dev nD) : W2 m c (Proc.devRef .tc main_arg1) = m ((c : Thread nD τ).loc main_arg1) :=
  (W2_of_ne m c main_arg1 (by decide)).trans (entry1_main_arg1 m c)
theorem W2_main_arg2 (c : Dev nD) : W2 m c (Proc.devRef .tc main_arg2) = m ((c : Thread nD τ).loc main_arg2) :=
  (W2_of_ne m c main_arg2 (by decide)).trans (entry1_main_arg2 m c)
theorem W2_main_arg3 (c : Dev nD) : W2 m c (Proc.devRef .tc main_arg3) = m ((c : Thread nD τ).loc main_arg3) :=
  (W2_of_ne m c main_arg3 (by decide)).trans (entry1_main_arg3 m c)
theorem W2_main_arg4 (c : Dev nD) : W2 m c (Proc.devRef .tc main_arg4) = m ((c : Thread nD τ).loc main_arg4) :=
  (W2_of_ne m c main_arg4 (by decide)).trans (entry1_main_arg4 m c)
theorem W2_main_arg5 (c : Dev nD) : W2 m c (Proc.devRef .tc main_arg5) = m ((c : Thread nD τ).loc main_arg5) :=
  (W2_of_ne m c main_arg5 (by decide)).trans (entry1_main_arg5 m c)
theorem W2_main_arg6 (c : Dev nD) : W2 m c (Proc.devRef .tc main_arg6) = m ((c : Thread nD τ).loc main_arg6) :=
  (W2_of_ne m c main_arg6 (by decide)).trans (entry1_main_arg6 m c)

set_option backward.isDefEq.respectTransparency.types false in
/-- THE RUN: from any memory with zero counters, every weakly fair execution of the program on the TensorCores
    terminates, nothing faulting, and every final state has the result array at what region 1's write-backs leave and
    the argument arrays as launched. -/
theorem run_main : θ_run defs (onTc (τ := τ) (main (F := F))) ⟨m, fun _ => 0, ρ⟩ (fun r => ∀ c : Dev nD,
      r.2.mem ((c.tc : Thread nD τ).loc main_v1) = (dat1 (entry1 m) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_uc main_v1 (by decide))).trans (W2_main_v1 m c),
       (h c _ (mem_uc main_arg0 (by decide))).trans (W2_main_arg0 m c),
       (h c _ (mem_uc main_arg1 (by decide))).trans (W2_main_arg1 m c),
       (h c _ (mem_uc main_arg2 (by decide))).trans (W2_main_arg2 m c),
       (h c _ (mem_uc main_arg3 (by decide))).trans (W2_main_arg3 m c),
       (h c _ (mem_uc main_arg4 (by decide))).trans (W2_main_arg4 m c),
       (h c _ (mem_uc main_arg5 (by decide))).trans (W2_main_arg5 m c),
       (h c _ (mem_uc main_arg6 (by decide))).trans (W2_main_arg6 m c)⟩)

end Cert.Kernel.Hand

end
-- ==== Proof.KIDefs.lean ====
/-
  The proof data of the two kernel regions, stated once for both of them to be proved against.

  Region 0 (the projection kernel): at grid point t the body reads a 1024x256 block x of the edge features, the two
  weight matrices and the two bias vectors, and leaves in its two output blocks relu(x·W₁ + b₁) and relu(x·W₂ + b₂).
  Region 1 (the message-passing kernel): at grid point t the body reads the q-th 1024-row blocks of e1, e2 and of the
  edge features, the whole of e1, e2 and of the edge features, the output weights and bias; it clears two accumulators,
  adds to each, for each of the sixteen 512-row slabs k, (e_q · e_kᵀ) · (x_k · 2⁻⁸), and leaves in its output block
  relu(x_q·W⁰ + acc₁·W¹ + acc₂·W² + b).
-/
import proofs.«142857_j12214886990224_2_alg».proof.Proof.Gen.KernelIdeal.Launch
import proofs.«142857_j12214886990224_2_alg».proof.Proof.Gen.KernelIdeal.Skeleton
import proofs.«142857_j12214886990224_2_alg».proof.Proof.Gen.KernelIdeal.Points
import Idealize.ShloMosaic.Lib.Pipeline.FrameBody
import Idealize.ShloMosaic.Lib.Pipeline.Frame

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)
open Cert.KernelIdeal Cert.KernelIdeal.Gen

variable {F : FTy → Type} [FloatOps F]

/-- The TensorCore's buffer contents when a region is entered. -/
abbrev Entry (F : FTy → Type) : Type := (c : Dev nD) → (b : Ref sig .tc) → Buf (Elt F) ((c : Thread nD τ).loc b)

variable (V : Entry F)

/-! ## Region 0 -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 0's proof data: the arrays as the region finds them; each input window's buffer keeps its block; output
    window 5 is left at relu(x·W₁ + b₁) and output window 6 at relu(x·W₂ + b₂), both of the point's input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => k0_pay2 (iblk0 V c 0 t) (iblk0 V c 1 t) (iblk0 V c 2 t)
    | ⟨6, _⟩ => k0_pay3 (iblk0 V c 0 t) (iblk0 V c 3 t) (iblk0 V c 4 t)
  Φ _ := Pipeline.ΦA spec0 c
  q _ := fullShare
  owed _ := 0

/-! ## Region 1 -/

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The 512-row slab of an 8192-row array that trip `k` of the body's loop reads. -/
abbrev slab (k : Fin k1_t1_loop.trips) : Rect S8192x256 := Rect.unit (s := S8192x256) (k1_off1 k) S512x256.size (k1_off1_inb k)
/-- The three 256-row slices of the output weights. -/
abbrev wrows0 : Rect S768x256 := Rect.unit (s := S768x256) ![0, 0] S256x256.size inb_S768x256_S256x256_0_0
abbrev wrows1 : Rect S768x256 := Rect.unit (s := S768x256) ![256, 0] S256x256.size inb_S768x256_S256x256_256_0
abbrev wrows2 : Rect S768x256 := Rect.unit (s := S768x256) ![512, 0] S256x256.size inb_S768x256_S256x256_512_0

/-- The first accumulator before trip `k`: zero, then one slab's contribution per trip. -/
def accA (e1q : Vec F S1024x256 .bf16) (e1k : Vec F S8192x256 .bf16) (xk : Vec F S8192x256 .f32) : ℕ → Vec F S1024x256 .f32
  | 0 => k1_pay2
  | k + 1 => if h : k < k1_t1_loop.trips then k1_pay5 e1q (View.ld e1k (slab ⟨k, h⟩)) (View.ld xk (slab ⟨k, h⟩)) (accA e1q e1k xk k) else accA e1q e1k xk k

/-- The second accumulator before trip `k`. -/
def accB (e2q : Vec F S1024x256 .bf16) (e2k : Vec F S8192x256 .bf16) (xk : Vec F S8192x256 .f32) : ℕ → Vec F S1024x256 .f32
  | 0 => k1_pay3
  | k + 1 => if h : k < k1_t1_loop.trips then k1_pay6 e2q (View.ld e2k (slab ⟨k, h⟩)) (View.ld xk (slab ⟨k, h⟩)) (accB e2q e2k xk k) else accB e2q e2k xk k

/-- What region 1's body leaves in its output block, of the point's eight input blocks. -/
def out1_8 (e1q e2q : Vec F S1024x256 .bf16) (e1k e2k : Vec F S8192x256 .bf16) (xk : Vec F S8192x256 .f32) (xq : Vec F S1024x256 .f32)
    (wout : Vec F S768x256 .f32) (bout : Vec F S256 .f32) : Vec F S1024x256 .f32 :=
  k1_pay1 (k1_pay7 (accA e1q e1k xk k1_t1_loop.trips)) (k1_pay8 (accB e2q e2k xk k1_t1_loop.trips)) bout
    (k1_pay9 (View.ld wout wrows1)) (k1_pay10 (View.ld wout wrows2)) (k1_pay11 xq (View.ld wout wrows0))
    (constant S1024x256 .f32 0x00000000#32)

/-- Region 1's proof data. Three arrays are each read through two windows (e1 through windows 0 and 2, e2 through
    1 and 3, the edge features through 4 and 5): each such window holds one half of the array's share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q w := match w with
    | ⟨0, _⟩ => fullShare.left
    | ⟨1, _⟩ => fullShare.left
    | ⟨2, _⟩ => fullShare.right
    | ⟨3, _⟩ => fullShare.right
    | ⟨4, _⟩ => fullShare.left
    | ⟨5, _⟩ => fullShare.right
    | _ => fullShare
  owed _ := 0

theorem A_eq0 (c : Dev nD) (w : Fin cfg0.W) : (dat0 V c).A w = V c (Pipeline.arrRef spec0 w) := by dsimp only [dat0]
theorem A_eq1 (c : Dev nD) (w : Fin cfg1.W) : (dat1 V c).A w = V c (Pipeline.arrRef spec1 w) := by dsimp only [dat1]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = k0_pay2 (iblk0 V c 0 t) (iblk0 V c 1 t) (iblk0 V c 2 t) := by dsimp only [dat0]
theorem after0_6 (c : Dev nD) (t : Fin cfg0.N) : (dat0 V c).after 6 t = k0_pay3 (iblk0 V c 0 t) (iblk0 V c 3 t) (iblk0 V c 4 t) := by dsimp only [dat0]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t
    = out1_8 (iblk1 V c 0 t) (iblk1 V c 1 t) (iblk1 V c 2 t) (iblk1 V c 3 t) (iblk1 V c 4 t) (iblk1 V c 5 t) (iblk1 V c 6 t) (iblk1 V c 7 t) := by dsimp only [dat1]

end Cert.KernelIdeal.Hand

end
-- ==== Proof.KIRunDefs.lean ====
/-
  The buffer contents at the boundaries of the two kernel regions of the program, and each region's proof data at
  the contents its region is entered from.

  The program is the projection kernel followed by the message-passing kernel, with no host operation between them.
  The first region writes its two output arrays (the projected features e1 and e2) and nothing else; the second
  region reads them, reads three of the arguments, and writes the result array and nothing else.
-/
import proofs.«142857_j12214886990224_2_alg».proof.Proof.KIDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m ((c : Dev nD), b)

/-- The TensorCore's buffers when region 0 is entered: the launch contents. -/
def entry0 : Entry F := fun c b => m ((c : Thread nD τ).loc b)

/-- At region 0's exit: its arrays at what the pipeline leaves (the inputs as entered, each output's write-backs
    folded), every other buffer as entered. -/
def W1 (c : Dev nD) : Valuation τ sig (Elt F) :=
  Pipeline.withArrays spec0 c (W0 m c) fun w => (dat0 (entry0 m) c).arrAt w cfg0.N

theorem W1_arr (c : Dev nD) (w : Fin cfg0.W) :
    W1 m c (Proc.devRef .tc (Pipeline.arrRef spec0 w)) = (dat0 (entry0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb

/-- The TensorCore's buffers when region 1 is entered: what region 0 leaves. -/
def entry1 : Entry F := fun c b => W1 m c b

/-- At region 0's exit each of its arrays holds what the pipeline leaves and every other buffer what it held at entry. -/
theorem hF0 (c : Dev nD) (w : Fin cfg0.W) : (dat0 (entry0 m) c).arrAt w cfg0.N = entry1 m c (Pipeline.arrRef spec0 w) :=
  (W1_arr m c w).symm
theorem hrest0 (c : Dev nD) : ∀ b, b ∉ Finset.univ.image (Pipeline.arrRef spec0) → entry1 m c b = entry0 m c b :=
  fun b hb => W1_of_ne m c b fun w e => hb (Finset.mem_image.mpr ⟨w, Finset.mem_univ _, e⟩)

theorem entry1_main_v0_0 (c : Dev nD) : entry1 m c main_v0_0 = (dat0 (entry0 m) c).arrAt 5 cfg0.N := W1_arr m c 5
theorem entry1_main_v0_1 (c : Dev nD) : entry1 m c main_v0_1 = (dat0 (entry0 m) c).arrAt 6 cfg0.N := W1_arr m c 6
theorem entry1_main_arg0 (c : Dev nD) : entry1 m c main_arg0 = m ((c : Thread nD τ).loc main_arg0) :=
  (W1_arr m c 0).trans (((dat0 (entry0 m) c).arrAt_in 0 rfl _).trans (A_eq0 (entry0 m) c 0))
theorem entry1_main_arg1 (c : Dev nD) : entry1 m c main_arg1 = m ((c : Thread nD τ).loc main_arg1) :=
  (W1_arr m c 1).trans (((dat0 (entry0 m) c).arrAt_in 1 rfl _).trans (A_eq0 (entry0 m) c 1))
theorem entry1_main_arg2 (c : Dev nD) : entry1 m c main_arg2 = m ((c : Thread nD τ).loc main_arg2) :=
  (W1_arr m c 2).trans (((dat0 (entry0 m) c).arrAt_in 2 rfl _).trans (A_eq0 (entry0 m) c 2))
theorem entry1_main_arg3 (c : Dev nD) : entry1 m c main_arg3 = m ((c : Thread nD τ).loc main_arg3) :=
  (W1_arr m c 3).trans (((dat0 (entry0 m) c).arrAt_in 3 rfl _).trans (A_eq0 (entry0 m) c 3))
theorem entry1_main_arg4 (c : Dev nD) : entry1 m c main_arg4 = m ((c : Thread nD τ).loc main_arg4) :=
  (W1_arr m c 4).trans (((dat0 (entry0 m) c).arrAt_in 4 rfl _).trans (A_eq0 (entry0 m) c 4))
theorem entry1_main_arg5 (c : Dev nD) : entry1 m c main_arg5 = m ((c : Thread nD τ).loc main_arg5) :=
  W1_of_ne m c main_arg5 (by decide)
theorem entry1_main_arg6 (c : Dev nD) : entry1 m c main_arg6 = m ((c : Thread nD τ).loc main_arg6) :=
  W1_of_ne m c main_arg6 (by decide)

/-- At region 1's exit: the result array at what the pipeline's write-backs leave, every other buffer as entered
    (the region's other arrays are read only). -/
def W2 (c : Dev nD) : Valuation τ sig (Elt F) :=
  Function.update (W1 m c) (Proc.devRef .tc main_v1) ((dat1 (entry1 m) c).arrAt 8 cfg1.N)

theorem W2_main_v1 (c : Dev nD) : W2 m c (Proc.devRef .tc main_v1) = (dat1 (entry1 m) c).arrAt 8 cfg1.N := by
  unfold W2; exact Function.update_self ..
theorem W2_of_ne (c : Dev nD) (b : Ref sig .tc) (hb : b ≠ main_v1) : W2 m c (Proc.devRef .tc b) = W1 m c (Proc.devRef .tc b) := by
  unfold W2; exact Function.update_of_ne (StableHlo.devRef_ne_of_ne hb) ..

/-! ## The proof data family -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (entry0 m) c
  | ⟨1, _⟩ => fun c => dat1 (entry1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through both regions: the core's generator register at some state and its
    tallies of what it owes, at nothing. -/
abbrev R (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the tallies: every unscoped buffer at the last boundary's contents, the generator
    register at some state. -/
abbrev Tₙ (c : Dev nD) : sProp 𝕄 := iprop(StableHlo.held (c : Thread nD τ) (Pipeline.ucRefs τ sig) (W2 m c) ∗ ∃ r, prngReg c r)

end Cert.KernelIdeal.Hand

end
-- ==== Proof.KIBody0.lean ====
/-
  Region 0's body obligation: at every grid point the projection kernel, called on the windows' staging buffers holding the point's input blocks, leaves the two output buffers at relu(x·W₁ + b₁) and relu(x·W₂ + b₂).
-/
import proofs.«142857_j12214886990224_2_alg».proof.Proof.KIDefs
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Each input window's staging buffer holds its block at every point -/

/-- Input window 0's current staging buffer holds its block at every point, fetched there or not: where it is not
    fetched its block index has not moved, and the body leaves the block in place. -/
theorem before0_0 (V : Entry F) (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- Input window 1's current staging buffer holds its block at every point, fetched there or not: where it is not
    fetched its block index has not moved, and the body leaves the block in place. -/
theorem before0_1 (V : Entry F) (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-- Input window 2's current staging buffer holds its block at every point, fetched there or not: where it is not
    fetched its block index has not moved, and the body leaves the block in place. -/
theorem before0_2 (V : Entry F) (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- Input window 3's current staging buffer holds its block at every point, fetched there or not: where it is not
    fetched its block index has not moved, and the body leaves the block in place. -/
theorem before0_3 (V : Entry F) (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)

/-- Input window 4's current staging buffer holds its block at every point, fetched there or not: where it is not
    fetched its block index has not moved, and the body leaves the block in place. -/
theorem before0_4 (V : Entry F) (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)

/-- The zero offsets of a rank-2 and of a rank-1 rectangle, as constant functions. -/
theorem zero2 : (![0, 0] : Fin 2 → Nat) = fun _ => 0 := funext fun a => by fin_cases a <;> rfl
theorem zero1 : (![0] : Fin 1 → Nat) = fun _ => 0 := funext fun a => by fin_cases a; rfl

/-- One store through the whole-block rectangle leaves its payload, whatever the buffer held. -/
theorem read_store_whole {κ : Kind} {sp : Space} (v : View sig κ sp S1024x256 .bf16) (f : v.ty.Contents (Elt F)) (p : S1024x256.Idx → Elt F .bf16) :
    v.read (Elt F) (v.writes (Elt F) f [⟨Rect.unit (s := S1024x256) ![0, 0] S1024x256.size inb_S1024x256_S1024x256_0_0, p⟩]) = p :=
  (View.read_writes_eq_canon _ _ _ (fun y => ⟨_, List.mem_singleton_self _, View.mem_set_unit_zero zero2 inb_S1024x256_S1024x256_0_0 y⟩)).trans
    (View.canon_unit_zero zero2 _ p)

/-! ## The body's triple -/

set_option maxHeartbeats 1000000 in
/-- The projection kernel on whole staging memrefs, the five inputs' at contents x, W₁, b₁, W₂, b₂ and the two outputs' at
    anything, runs to the continuation holding the inputs' as they were and the outputs' at relu(x·W₁ + b₁) and
    relu(x·W₂ + b₂): every load reads a whole buffer and every store overwrites a whole buffer. -/
theorem sound_kernel0 (c : Dev nD) (E : Set ℕ) (i : grid0.Coords)
    (arg1 : Memref sig .tc .vmem S1024x256 .f32) (harg1 : arg1.IsWhole) (arg2 : Memref sig .tc .vmem S256x256 .f32) (harg2 : arg2.IsWhole)
    (arg3 : Memref sig .tc .vmem S256 .f32) (harg3 : arg3.IsWhole) (arg4 : Memref sig .tc .vmem S256x256 .f32) (harg4 : arg4.IsWhole)
    (arg5 : Memref sig .tc .vmem S256 .f32) (harg5 : arg5.IsWhole) (arg6 : Memref sig .tc .vmem S1024x256 .bf16) (harg6 : arg6.IsWhole)
    (arg7 : Memref sig .tc .vmem S1024x256 .bf16) (harg7 : arg7.IsWhole)
    (x0 : Vec F S1024x256 .f32) (x1 : Vec F S256x256 .f32) (x2 : Vec F S256 .f32) (x3 : Vec F S256x256 .f32) (x4 : Vec F S256 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay2 x0 x1 x2) ∗ owns (c : Thread nD τ) arg7 fullShare (k0_pay3 x0 x3 x4)) -∗ K ⟨⟩))
      ⊢ wp frame (wpE (defs₀ (F := F)) Variants.none c none) E (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (read_store_whole _ _ _).trans ?_
    simp only [View.readAt_eq_ld, View.ld_unit_zero (S := S1024x256) zero2, View.ld_unit_zero (S := S256x256) zero2,
      View.ld_unit_zero (S := S256) zero1]
  · iexists _; isplitr
    swap; · iexact H6
    ipureintro
    refine (read_store_whole _ _ _).trans ?_
    simp only [View.readAt_eq_ld, View.ld_unit_zero (S := S1024x256) zero2, View.ld_unit_zero (S := S256x256) zero2,
      View.ld_unit_zero (S := S256) zero1]

/-! ## The body obligation, at a generic point -/

/-- What the body is called with at point `t`: the invariant, what the core owes, and each window's current staging
    buffer at what the pipeline left in it, -/
def bodyPre0 (V : Entry F) (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns: each buffer at what the proof data says the body leaves. -/
def bodyPost0 (V : Entry F) (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in
/-- The body at any point: the inputs' buffers hold their blocks, so the kernel's triple applies; the invariant and what
    the core owes pass through unread. -/
theorem sound_body0 (V : Entry F) (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation for region 0, at every point. -/
theorem body_obligation0 (V : Entry F) (c : Dev nD) : BodyObligation (dat0 (F := F) V c) (defs₀ (F := F)) Variants.none () Set.univ := fun t => by
  rw [bigSep_W0, bigSep_W0]
  exact sound_body0 V c t

end Cert.KernelIdeal.Hand

end
-- ==== Proof.KIReg0.lean ====
/-
  The projection kernel's region as a segment of the program's run: entered from every unscoped buffer at the launch
  contents, left with its two output arrays at what the pipeline's write-backs leave and every other buffer as entered.
-/
import proofs.«142857_j12214886990224_2_alg».proof.Proof.KIRunDefs
import proofs.«142857_j12214886990224_2_alg».proof.Proof.KIBody0

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- REGION 0 over the thread state: entered from every unscoped buffer at the launch contents, left at `W1`. Its
    arrays split out of the unscoped buffers and put back at the exit contents; the generator register into the
    region's invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (entry0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entry0 m c) fun _ => rfl
    rw [show (unscopedBufs c (entry0 m c) : sProp 𝕄) = StableHlo.held (c : Thread nD τ) (Pipeline.ucRefs τ sig) (W0 m c)
      from Pipeline.unscopedBufs_held c (W0 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry0 m c) (entry1 m c) ((pdats m 0 c).arrAt · cfg0.N) (hF0 m c) (hrest0 m c)
    rw [show (unscopedBufs c (entry1 m c) : sProp 𝕄) = StableHlo.held (c : Thread nD τ) (Pipeline.ucRefs τ sig) (W1 m c)
      from Pipeline.unscopedBufs_held c (W1 m c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KIBody1pre.lean ====
/-
  Region 1's body obligation, from the message-passing kernel's triple: at every grid point each input window's staging buffer
  holds the point's block, so the kernel called on them leaves the output buffer at the closed form of the eight input blocks.
-/
import proofs.«142857_j12214886990224_2_alg».proof.Proof.KIDefs
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Each input window's staging buffer holds its block at every point -/

/-- Input window 0's current staging buffer holds its block at every point, fetched there or not: where it is not
    fetched its block index has not moved, and the body leaves the block in place. -/
theorem before1_0 (V : Entry F) (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- Input window 1's current staging buffer holds its block at every point, fetched there or not: where it is not
    fetched its block index has not moved, and the body leaves the block in place. -/
theorem before1_1 (V : Entry F) (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- Input window 2's current staging buffer holds its block at every point, fetched there or not: where it is not
    fetched its block index has not moved, and the body leaves the block in place. -/
theorem before1_2 (V : Entry F) (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- Input window 3's current staging buffer holds its block at every point, fetched there or not: where it is not
    fetched its block index has not moved, and the body leaves the block in place. -/
theorem before1_3 (V : Entry F) (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- Input window 4's current staging buffer holds its block at every point, fetched there or not: where it is not
    fetched its block index has not moved, and the body leaves the block in place. -/
theorem before1_4 (V : Entry F) (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-- Input window 5's current staging buffer holds its block at every point, fetched there or not: where it is not
    fetched its block index has not moved, and the body leaves the block in place. -/
theorem before1_5 (V : Entry F) (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

/-- Input window 6's current staging buffer holds its block at every point, fetched there or not: where it is not
    fetched its block index has not moved, and the body leaves the block in place. -/
theorem before1_6 (V : Entry F) (c : Dev nD) (t : Fin cfg1.N) (d) : (dat1 V c).before 6 t d = iblk1 V c 6 t :=
  ((dat1 V c).before_in_eq_fetched 6 rfl (fun _ => rfl) (fun _ _ _ => rfl)
    (fun t => by rw [after1_6]; unfold Dat.blockOf iblk1; rw [A_eq1]; try rfl) t d).trans
    (by unfold Dat.fetched Dat.blockOf iblk1; rw [A_eq1]; try rfl)

/-- Input window 7's current staging buffer holds its block at every point, fetched there or not: where it is not
    fetched its block index has not moved, and the body leaves the block in place. -/
theorem before1_7 (V : Entry F) (c : Dev nD) (t : Fin cfg1.N) (d) : (dat1 V c).before 7 t d = iblk1 V c 7 t :=
  ((dat1 V c).before_in_eq_fetched 7 rfl (fun _ => rfl) (fun _ _ _ => rfl)
    (fun t => by rw [after1_7]; unfold Dat.blockOf iblk1; rw [A_eq1]; try rfl) t d).trans
    (by unfold Dat.fetched Dat.blockOf iblk1; rw [A_eq1]; try rfl)

/-- The message-passing kernel's triple: on whole staging memrefs, the eight inputs' at contents x₀ … x₇ and the output's at
    anything, with the region's invariant (which holds the two accumulators), it runs to the continuation holding the
    invariant again, the inputs' as they were, and the output's at the closed form of the eight inputs. -/
def SoundKernel1 (F : FTy → Type) [FloatOps F] : Prop :=
  ∀ (c : Dev nD) (E : Set ℕ) (i : grid1.Coords)
    (arg1 : Memref sig .tc .vmem S1024x256 .bf16) (harg1 : arg1.IsWhole) (arg2 : Memref sig .tc .vmem S1024x256 .bf16) (harg2 : arg2.IsWhole)
    (arg3 : Memref sig .tc .vmem S8192x256 .bf16) (harg3 : arg3.IsWhole) (arg4 : Memref sig .tc .vmem S8192x256 .bf16) (harg4 : arg4.IsWhole)
    (arg5 : Memref sig .tc .vmem S8192x256 .f32) (harg5 : arg5.IsWhole) (arg6 : Memref sig .tc .vmem S1024x256 .f32) (harg6 : arg6.IsWhole)
    (arg7 : Memref sig .tc .vmem S768x256 .f32) (harg7 : arg7.IsWhole) (arg8 : Memref sig .tc .vmem S256 .f32) (harg8 : arg8.IsWhole)
    (arg9 : Memref sig .tc .vmem S1024x256 .f32) (harg9 : arg9.IsWhole)
    (x0 : Vec F S1024x256 .bf16) (x1 : Vec F S1024x256 .bf16) (x2 : Vec F S8192x256 .bf16) (x3 : Vec F S8192x256 .bf16) (x4 : Vec F S8192x256 .f32) (x5 : Vec F S1024x256 .f32) (x6 : Vec F S768x256 .f32) (x7 : Vec F S256 .f32)
    (K : PUnit → sProp (MT nD τ sig Unit (Elt F) ℕ (UR sig nD τ) ℕ)),
    iprop(Pipeline.ΦA spec1 c
        ∗ owns (c : Thread nD τ) arg1 fullShare x0 ∗ owns (c : Thread nD τ) arg2 fullShare x1 ∗ owns (c : Thread nD τ) arg3 fullShare x2 ∗ owns (c : Thread nD τ) arg4 fullShare x3
        ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d)
        ∗ (iprop(Pipeline.ΦA spec1 c
            ∗ owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out1_8 x0 x1 x2 x3 x4 x5 x6 x7)) -∗ K ⟨⟩))
      ⊢ wp frame (wpE (defs₀ (F := F)) Variants.none c none) E
          (cc1__mp_kernel i arg1 harg1 arg2 harg2 arg3 harg3 arg4 harg4 arg5 harg5 arg6 harg6 arg7 harg7 arg8 harg8 arg9 harg9 (Memref.whole cc1_scratch0) (Memref.isWhole_whole _) (Memref.whole cc1_scratch1) (Memref.isWhole_whole _)) K

/-! ## The body obligation, at a generic point -/

/-- What the body is called with at point `t`: the invariant, what the core owes, and each window's current staging
    buffer at what the pipeline left in it, -/
def bodyPre1 (V : Entry F) (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns: each buffer at what the proof data says the body leaves. -/
def bodyPost1 (V : Entry F) (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

set_option maxHeartbeats 1000000 in
/-- The body at any point, from the kernel's triple: the inputs' buffers hold their blocks, so the triple applies; the
    invariant goes through the kernel and comes back, and what the core owes passes through unread. -/
theorem sound_body1_of (hk : SoundKernel1 F) (V : Entry F) (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    show (dat1 V c).Φ t.castSucc = Pipeline.ΦA spec1 c from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (hk c Set.univ _ _ _ _ _ _ _ _ _ _ _ _ _ _ _ _ _ _ _ (iblk1 V c 0 t) (iblk1 V c 1 t) (iblk1 V c 2 t) (iblk1 V c 3 t)
    (iblk1 V c 4 t) (iblk1 V c 5 t) (iblk1 V c 6 t) (iblk1 V c 7 t) _)
  isplitl [HΦ]; · iexact HΦ
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨HΦ, H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation for region 1, at every point, from the kernel's triple. -/
theorem body_obligation1_of (hk : SoundKernel1 F) (V : Entry F) (c : Dev nD) :
    BodyObligation (dat1 (F := F) V c) (defs₀ (F := F)) Variants.none () Set.univ := fun t => by
  rw [bigSep_W1, bigSep_W1]
  exact sound_body1_of hk V c t

end Cert.KernelIdeal.Hand

end
-- ==== Proof.KIBody1a.lean ====
/-
  Region 1's body, the pure facts its run cites: the two accumulators' recursion one trip at a time, and what a load or a
  store through the zero-offset rectangle of a buffer's own sizes reads or leaves (the buffer's contents; the payload).
-/
import proofs.«142857_j12214886990224_2_alg».proof.Proof.KIDefs
import Idealize.ShloMosaic.Lib.Pipeline.FrameBody
import Idealize.ShloMosaic.Lib.Pipeline.Value

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The accumulators' recursion, one trip at a time -/

theorem accA_zero (e1q : Vec F S1024x256 .bf16) (e1k : Vec F S8192x256 .bf16) (xk : Vec F S8192x256 .f32) :
    accA e1q e1k xk 0 = k1_pay2 := rfl

theorem accA_succ (e1q : Vec F S1024x256 .bf16) (e1k : Vec F S8192x256 .bf16) (xk : Vec F S8192x256 .f32) (k : Fin k1_t1_loop.trips) :
    accA e1q e1k xk (k.val + 1) = k1_pay5 e1q (View.ld e1k (slab k)) (View.ld xk (slab k)) (accA e1q e1k xk k.val) := by
  rw [accA, dif_pos k.isLt]

theorem accB_zero (e2q : Vec F S1024x256 .bf16) (e2k : Vec F S8192x256 .bf16) (xk : Vec F S8192x256 .f32) :
    accB e2q e2k xk 0 = k1_pay3 := rfl

theorem accB_succ (e2q : Vec F S1024x256 .bf16) (e2k : Vec F S8192x256 .bf16) (xk : Vec F S8192x256 .f32) (k : Fin k1_t1_loop.trips) :
    accB e2q e2k xk (k.val + 1) = k1_pay6 e2q (View.ld e2k (slab k)) (View.ld xk (slab k)) (accB e2q e2k xk k.val) := by
  rw [accB, dif_pos k.isLt]

/-! ## Whole-block accesses: through the zero-offset rectangle of the buffer's own sizes -/

/-- The zero-offset rectangle of a 1024x256 buffer's own sizes. -/
abbrev rAll : Rect S1024x256 := Rect.unit (s := S1024x256) ![0, 0] S1024x256.size inb_S1024x256_S1024x256_0_0

theorem zeroOff2 : (![0, 0] : Fin S1024x256.rank → Nat) = fun _ => 0 := by
  funext a; fin_cases a <;> rfl

theorem zeroOff1 : (![0] : Fin S256.rank → Nat) = fun _ => 0 := by
  funext a; fin_cases a; rfl

/-- A load through it reads the contents. -/
theorem readAt_rAll {e : EltTy} (m : Memref sig .tc .vmem S1024x256 e) (f : BufTy.Contents (Elt F) m.view.ty) :
    View.readAt (Elt F) m.view (rAll).toLoadRect f = m.view.read (Elt F) f := by
  rw [View.readAt_eq_ld m.view f rAll]
  exact View.ld_unit_zero zeroOff2 inb_S1024x256_S1024x256_0_0 _

/-- One store through it leaves its payload, whatever was there. -/
theorem read_write_rAll {e : EltTy} (m : Memref sig .tc .vmem S1024x256 e) (f : BufTy.Contents (Elt F) m.view.ty) (w : S1024x256.Idx → Elt F e) :
    m.view.read (Elt F) (m.view.writes (Elt F) f [(⟨rAll, w⟩ : View.Piece (Elt F) S1024x256 e)]) = w := by
  have hc : ∀ y : S1024x256.Idx, ∃ p ∈ ([(⟨rAll, w⟩ : View.Piece (Elt F) S1024x256 e)] : List (View.Piece (Elt F) S1024x256 e)), y ∈ p.1.set :=
    fun y => ⟨_, List.mem_singleton_self _, View.mem_set_unit_zero zeroOff2 inb_S1024x256_S1024x256_0_0 y⟩
  rw [View.read_writes_eq_canon m.view f _ hc]
  exact View.canon_unit_zero zeroOff2 inb_S1024x256_S1024x256_0_0 w

/-- A load of the whole bias vector reads the contents. -/
theorem readAt_bias (m : Memref sig .tc .vmem S256 .f32) (f : BufTy.Contents (Elt F) m.view.ty) :
    View.readAt (Elt F) m.view (Rect.unit (s := S256) ![0] S256.size inb_S256_S256_0).toLoadRect f = m.view.read (Elt F) f := by
  rw [View.readAt_eq_ld m.view f (Rect.unit (s := S256) ![0] S256.size inb_S256_S256_0)]
  exact View.ld_unit_zero zeroOff1 inb_S256_S256_0 _

end Cert.KernelIdeal.Hand

end
-- ==== Proof.KIBody1b.lean ====
/-
  Region 1's body, first half: the message-passing kernel's accumulation. The two accumulators are cleared; each of the
  sixteen trips of the loop adds to each, for its 512-row slab k, (e_q · e_kᵀ) · (x_k · 2⁻⁸); then the output weights'
  three slices, the bias and the point's block of the edge features are read. The loop is taken by its invariant: before
  trip k the first accumulator holds the sum over the slabs before k, and so the second.
-/
import proofs.«142857_j12214886990224_2_alg».proof.Proof.KIBody1a
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The loop -/

/-- The loop's invariant before trip `k`: the three whole arrays as they were, the first accumulator at the sum over the
    slabs before `k`, and so the second. -/
def loopI (c : Dev nD) (arg3 : Memref sig .tc .vmem S8192x256 .bf16) (arg4 : Memref sig .tc .vmem S8192x256 .bf16)
    (arg5 : Memref sig .tc .vmem S8192x256 .f32) (arg10 arg11 : Memref sig .tc .vmem S1024x256 .f32)
    (f3 : BufTy.Contents (Elt F) arg3.view.ty) (f4 : BufTy.Contents (Elt F) arg4.view.ty) (f5 : BufTy.Contents (Elt F) arg5.view.ty)
    (v8 v10 : Vec F S1024x256 .bf16) (k : Nat) (_ : Unit) : sProp 𝕄 :=
  iprop((arg3.view.loc (c : Thread nD τ) ↦[arg3.view.set]{fullShare} f3) ∗ (arg4.view.loc (c : Thread nD τ) ↦[arg4.view.set]{fullShare} f4)
    ∗ (arg5.view.loc (c : Thread nD τ) ↦[arg5.view.set]{fullShare} f5)
    ∗ owns (c : Thread nD τ) arg10 fullShare (accA v8 (arg3.view.read (Elt F) f3) (arg5.view.read (Elt F) f5) k)
    ∗ owns (c : Thread nD τ) arg11 fullShare (accB v10 (arg4.view.read (Elt F) f4) (arg5.view.read (Elt F) f5) k))

/-! ## The first half's triple -/

set_option maxHeartbeats 1000000 in
/-- The accumulation on whole memrefs, the eight inputs' at contents `f1` … `f8` and the accumulators' at anything, runs to
    the continuation at the values the second half reads: the two accumulators after the sixteenth trip rounded, the
    bias, the output weights' three slices rounded, and the edge-feature block's product with the first slice. -/
theorem sound_part1 (c : Dev nD) (E : Set ℕ) (i : grid1.Coords)
    (arg1 : Memref sig .tc .vmem S1024x256 .bf16) (harg1 : arg1.IsWhole) (arg2 : Memref sig .tc .vmem S1024x256 .bf16) (harg2 : arg2.IsWhole)
    (arg3 : Memref sig .tc .vmem S8192x256 .bf16) (harg3 : arg3.IsWhole) (arg4 : Memref sig .tc .vmem S8192x256 .bf16) (harg4 : arg4.IsWhole)
    (arg5 : Memref sig .tc .vmem S8192x256 .f32) (harg5 : arg5.IsWhole) (arg6 : Memref sig .tc .vmem S1024x256 .f32) (harg6 : arg6.IsWhole)
    (arg7 : Memref sig .tc .vmem S768x256 .f32) (harg7 : arg7.IsWhole) (arg8 : Memref sig .tc .vmem S256 .f32) (harg8 : arg8.IsWhole)
    (arg9 : Memref sig .tc .vmem S1024x256 .f32) (harg9 : arg9.IsWhole) (arg10 : Memref sig .tc .vmem S1024x256 .f32) (harg10 : arg10.IsWhole)
    (arg11 : Memref sig .tc .vmem S1024x256 .f32) (harg11 : arg11.IsWhole)
    (f1 : BufTy.Contents (Elt F) arg1.view.ty) (f2 : BufTy.Contents (Elt F) arg2.view.ty) (f3 : BufTy.Contents (Elt F) arg3.view.ty)
    (f4 : BufTy.Contents (Elt F) arg4.view.ty) (f5 : BufTy.Contents (Elt F) arg5.view.ty) (f6 : BufTy.Contents (Elt F) arg6.view.ty)
    (f7 : BufTy.Contents (Elt F) arg7.view.ty) (f8 : BufTy.Contents (Elt F) arg8.view.ty)
    (f10 : BufTy.Contents (Elt F) arg10.view.ty) (f11 : BufTy.Contents (Elt F) arg11.view.ty)
    (K : (Σ' (v16 : FVec F S1024x256 .bf16) (v18 : FVec F S1024x256 .bf16) (v19 : Vec F S256 .f32) (v23 : FVec F S256x256 .bf16) (v25 : FVec F S256x256 .bf16) (v26 : FVec F S1024x256 .f32), FVec F S1024x256 .f32) → sProp 𝕄) :
    iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg10.view.loc (c : Thread nD τ) ↦[arg10.view.set]{fullShare} f10) ∗ (arg11.view.loc (c : Thread nD τ) ↦[arg11.view.set]{fullShare} f11)
        ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8)
            ∗ (∃ d, owns (c : Thread nD τ) arg10 fullShare d) ∗ (∃ d, owns (c : Thread nD τ) arg11 fullShare d))
          -∗ K ⟨k1_pay7 (accA (arg1.view.read (Elt F) f1) (arg3.view.read (Elt F) f3) (arg5.view.read (Elt F) f5) k1_t1_loop.trips),
                k1_pay8 (accB (arg2.view.read (Elt F) f2) (arg4.view.read (Elt F) f4) (arg5.view.read (Elt F) f5) k1_t1_loop.trips),
                arg8.view.read (Elt F) f8, k1_pay9 (View.ld (arg7.view.read (Elt F) f7) wrows1), k1_pay10 (View.ld (arg7.view.read (Elt F) f7) wrows2),
                k1_pay11 (arg6.view.read (Elt F) f6) (View.ld (arg7.view.read (Elt F) f7) wrows0), constant S1024x256 .f32 0x00000000#32⟩))
      ⊢ wp frame (wpE (defs₀ (F := F)) Variants.none c none) E (k1_part1 i arg1 harg1 arg2 harg2 arg3 harg3 arg4 harg4 arg5 harg5 arg6 harg6 arg7 harg7 arg8 harg8 arg9 harg9 arg10 harg10 arg11 harg11) K := by
  simp only [k1_part1_eq_skeleton]; unfold k1_part1_skel
  iintro ⟨H1, H2, H3, H4, H5, H6, H7, H8, H10, H11, Hk⟩
  sl_exec
  sl_for (loopI c arg3 arg4 arg5 arg10 arg11 f3 f4 f5 (View.readAt (Elt F) arg1.view (rAll).toLoadRect f1) (View.readAt (Elt F) arg2.view (rAll).toLoadRect f2)) $$ [H3 H4 H5 H10 H11]
  case region =>
    intro k a
    unfold loopI owns
    iintro ⟨H3, H4, H5, ⟨%g10, %h10, H10⟩, ⟨%g11, %h11, H11⟩⟩
    sl_exec
    sl_step
    isplitl [H3]; · iexact H3
    isplitl [H4]; · iexact H4
    isplitl [H5]; · iexact H5
    isplitl [H10]
    · iexists _; isplitr
      swap; · iexact H10
      ipureintro
      refine (read_write_rAll arg10 g10 _).trans ?_
      rw [accA_succ, readAt_rAll arg10 g10, h10]
      rfl
    iexists _; isplitr
    swap; · iexact H11
    ipureintro
    refine (read_write_rAll arg11 g11 _).trans ?_
    rw [accB_succ, readAt_rAll arg11 g11, h11]
    rfl
  · unfold loopI owns
    isplitl [H3]; · iexact H3
    isplitl [H4]; · iexact H4
    isplitl [H5]; · iexact H5
    isplitl [H10]
    · iexists _; isplitr
      swap; · iexact H10
      ipureintro
      exact (read_write_rAll arg10 _ _).trans (accA_zero _ _ _).symm
    iexists _; isplitr
    swap; · iexact H11
    ipureintro
    exact (read_write_rAll arg11 _ _).trans (accB_zero _ _ _).symm
  iintro %a HI
  unfold loopI owns
  icases HI with ⟨H3, H4, H5, ⟨%g10, %h10, H10⟩, ⟨%g11, %h11, H11⟩⟩
  sl_exec
  sl_step
  have h10' : arg10.view.read (Elt F) g10
      = accA (arg1.view.read (Elt F) f1) (arg3.view.read (Elt F) f3) (arg5.view.read (Elt F) f5) k1_t1_loop.trips :=
    h10.trans (congrArg (fun v => accA v (arg3.view.read (Elt F) f3) (arg5.view.read (Elt F) f5) k1_t1_loop.trips) (readAt_rAll arg1 f1))
  have h11' : arg11.view.read (Elt F) g11
      = accB (arg2.view.read (Elt F) f2) (arg4.view.read (Elt F) f4) (arg5.view.read (Elt F) f5) k1_t1_loop.trips :=
    h11.trans (congrArg (fun v => accB v (arg4.view.read (Elt F) f4) (arg5.view.read (Elt F) f5) k1_t1_loop.trips) (readAt_rAll arg2 f2))
  rw [(readAt_rAll arg10 g10).trans h10', (readAt_rAll arg11 g11).trans h11', readAt_bias arg8 f8, readAt_rAll arg6 f6,
    View.readAt_eq_ld arg7.view f7 wrows0, View.readAt_eq_ld arg7.view f7 wrows1, View.readAt_eq_ld arg7.view f7 wrows2]
  sl_unfold_run_names
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H10]
  · iexists _; iexists g10; isplitr; · ipureintro; rfl
    iexact H10
  iexists _; iexists g11; isplitr; · ipureintro; rfl
  iexact H11

end Cert.KernelIdeal.Hand

end
-- ==== Proof.KIBody1c.lean ====
/-
  Region 1's body, second half and whole: after the accumulation the kernel stores into its output block
  relu(x_q·W⁰ + acc₁·W¹ + acc₂·W² + b). The two accumulators are scratch of the kernel's own, which the region's invariant
  holds at any contents: the body clears them before it reads them, and they go back at whatever they end with.
-/
import proofs.«142857_j12214886990224_2_alg».proof.Proof.KIBody1b

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The invariant, the two accumulators taken out as memrefs -/

/-- The class's invariant of region 1 with the two scratch accumulators as whole memrefs owned at some contents. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f)
          ∗ (∃ d, owns (c : Thread nD τ) (Memref.whole cc1_scratch0) fullShare d) ∗ (∃ d, owns (c : Thread nD τ) (Memref.whole cc1_scratch1) fullShare d))
        ∗ (∃ r, prngReg c r)) := by
  unfold Pipeline.ΦA; rw [scopedRest1_eq]; simp only [owns_whole]; try rfl

/-! ## The body's triple -/

set_option maxHeartbeats 1000000 in
/-- The kernel body on whole memrefs, the eight inputs' at read contents and the output's and the two accumulators' at
    anything, runs to the continuation holding the inputs' as they were, the output's at `out1_8` of the inputs' and the
    accumulators' at something. -/
theorem sound_kernel1_scratch (c : Dev nD) (E : Set ℕ) (i : grid1.Coords)
    (arg1 : Memref sig .tc .vmem S1024x256 .bf16) (harg1 : arg1.IsWhole) (arg2 : Memref sig .tc .vmem S1024x256 .bf16) (harg2 : arg2.IsWhole)
    (arg3 : Memref sig .tc .vmem S8192x256 .bf16) (harg3 : arg3.IsWhole) (arg4 : Memref sig .tc .vmem S8192x256 .bf16) (harg4 : arg4.IsWhole)
    (arg5 : Memref sig .tc .vmem S8192x256 .f32) (harg5 : arg5.IsWhole) (arg6 : Memref sig .tc .vmem S1024x256 .f32) (harg6 : arg6.IsWhole)
    (arg7 : Memref sig .tc .vmem S768x256 .f32) (harg7 : arg7.IsWhole) (arg8 : Memref sig .tc .vmem S256 .f32) (harg8 : arg8.IsWhole)
    (arg9 : Memref sig .tc .vmem S1024x256 .f32) (harg9 : arg9.IsWhole) (arg10 : Memref sig .tc .vmem S1024x256 .f32) (harg10 : arg10.IsWhole)
    (arg11 : Memref sig .tc .vmem S1024x256 .f32) (harg11 : arg11.IsWhole)
    (x1 x2 : Vec F S1024x256 .bf16) (x3 x4 : Vec F S8192x256 .bf16) (x5 : Vec F S8192x256 .f32) (x6 : Vec F S1024x256 .f32)
    (x7 : Vec F S768x256 .f32) (x8 : Vec F S256 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8
            ∗ owns (c : Thread nD τ) arg9 fullShare (out1_8 x1 x2 x3 x4 x5 x6 x7 x8)
            ∗ (∃ d, owns (c : Thread nD τ) arg10 fullShare d) ∗ (∃ d, owns (c : Thread nD τ) arg11 fullShare d)) -∗ K ⟨⟩))
      ⊢ wp frame (wpE (defs₀ (F := F)) Variants.none c none) E (cc1__mp_kernel i arg1 harg1 arg2 harg2 arg3 harg3 arg4 harg4 arg5 harg5 arg6 harg6 arg7 harg7 arg8 harg8 arg9 harg9 arg10 harg10 arg11 harg11) K := by
  simp only [cc1__mp_kernel_eq_skeleton]; unfold cc1__mp_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf1 hf2 hf3 hf4 hf5 hf6 hf7 hf8
  rw [wp_bind]
  iapply (sound_part1 c E i arg1 harg1 arg2 harg2 arg3 harg3 arg4 harg4 arg5 harg5 arg6 harg6 arg7 harg7 arg8 harg8 arg9 harg9 arg10 harg10 arg11 harg11 f1 f2 f3 f4 f5 f6 f7 f8 f10 f11 _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H10]; · iexact H10
  isplitl [H11]; · iexact H11
  iintro ⟨H1, H2, H3, H4, H5, H6, H7, H8, HA, HB⟩
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  isplitl [H9]
  · iexists _; isplitr
    swap; · iexact H9
    ipureintro
    exact (read_write_rAll arg9 f9 _).trans rfl
  isplitl [HA]; · iexact HA
  iexact HB

end Cert.KernelIdeal.Hand

end
-- ==== Proof.KIBody1.lean ====
/-
  Region 1's body obligation: at every grid point the message-passing kernel, called on the windows' staging buffers holding the point's input blocks and on its two scratch accumulators, leaves the output buffer at relu(x_q·W⁰ + acc₁·W¹ + acc₂·W² + b).
-/
import proofs.«142857_j12214886990224_2_alg».proof.Proof.KIBody1pre
import proofs.«142857_j12214886990224_2_alg».proof.Proof.KIBody1c

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The kernel's triple with the region's invariant: the invariant lends the two scratch accumulators, which the body
    clears before it reads them, and takes them back at whatever they end with; the rest of it passes through unread. -/
theorem sound_kernel1 : SoundKernel1 F := by
  intro c E i arg1 harg1 arg2 harg2 arg3 harg3 arg4 harg4 arg5 harg5 arg6 harg6 arg7 harg7 arg8 harg8 arg9 harg9 x0 x1 x2 x3 x4 x5 x6 x7 K
  rw [PhiA1_eq]
  iintro ⟨⟨⟨S0, S1, S2, S3, S4, S5, S6, S7, S8, S9, HA, HB⟩, Hr⟩, H1, H2, H3, H4, H5, H6, H7, H8, H9, Hk⟩
  iapply (sound_kernel1_scratch c E i arg1 harg1 arg2 harg2 arg3 harg3 arg4 harg4 arg5 harg5 arg6 harg6 arg7 harg7 arg8 harg8 arg9 harg9 (Memref.whole cc1_scratch0) (Memref.isWhole_whole _) (Memref.whole cc1_scratch1) (Memref.isWhole_whole _) x0 x1 x2 x3 x4 x5 x6 x7 K)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HA]; · iexact HA
  isplitl [HB]; · iexact HB
  iintro ⟨H1, H2, H3, H4, H5, H6, H7, H8, H9, HA, HB⟩
  iapply Hk
  isplitl [S0 S1 S2 S3 S4 S5 S6 S7 S8 S9 HA HB Hr]
  · isplitr [Hr]
    swap; · iexact Hr
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [HA]; · iexact HA
    iexact HB
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation for region 1, at every point. -/
theorem body_obligation1 (V : Entry F) (c : Dev nD) : BodyObligation (dat1 (F := F) V c) (defs₀ (F := F)) Variants.none () Set.univ :=
  body_obligation1_of sound_kernel1 V c

end Cert.KernelIdeal.Hand

end
-- ==== Proof.KIReg1.lean ====
/-
  The message-passing kernel's region as a segment of the program's run: entered from every unscoped buffer at what the
  projection kernel's region leaves, left with the result array at what the pipeline's write-backs leave and every
  other buffer as entered.

  Three of the region's arrays (the two projected feature arrays and the edge features) are each read through two
  windows. Each such array's buffer, held whole at entry, is split into two halves of its share, one per window; at the
  exit both halves hold the entry contents (an input window's array is never written) and are joined again.
-/
import proofs.«142857_j12214886990224_2_alg».proof.Proof.KIRunDefs
import proofs.«142857_j12214886990224_2_alg».proof.Proof.KIBody1

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

variable (V : Entry F)

/-- Region 1's nine windows' arrays one by one, each a whole buffer at its window's share. -/
theorem arrays1_eq (c : Dev nD) (G : (w : Fin cfg1.W) → Buf (Elt F) ((cfg1.win w).arr.view.loc (c.tc : Thread nD τ))) :
    ((dat1 V c).arrays G : sProp 𝕄)
      = iprop((((c : Thread nD τ).loc main_v0_0) ↦{fullShare.left} G 0) ∗ (((c : Thread nD τ).loc main_v0_1) ↦{fullShare.left} G 1)
        ∗ (((c : Thread nD τ).loc main_v0_0) ↦{fullShare.right} G 2) ∗ (((c : Thread nD τ).loc main_v0_1) ↦{fullShare.right} G 3)
        ∗ (((c : Thread nD τ).loc main_arg0) ↦{fullShare.left} G 4) ∗ (((c : Thread nD τ).loc main_arg0) ↦{fullShare.right} G 5)
        ∗ (((c : Thread nD τ).loc main_arg5) ↦{fullShare} G 6) ∗ (((c : Thread nD τ).loc main_arg6) ↦{fullShare} G 7)
        ∗ (((c : Thread nD τ).loc main_v1) ↦{fullShare} G 8)) := by
  unfold Dat.arrays
  rw [bigSep_congr (Ψ := fun w : Fin cfg1.W => (((c : Thread nD τ).loc (Pipeline.arrRef spec1 w)) ↦{(dat1 V c).share w} G w : sProp 𝕄))
    fun w _ => by rw [(arr_whole1 w).set_eq_univ]]
  rw [bigSep_W1]
  rfl

/-- The six distinct buffers behind region 1's nine windows, one by one, each whole at the full share. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_v0_0) ↦{fullShare} V' main_v0_0) ∗ (((c : Thread nD τ).loc main_v0_1) ↦{fullShare} V' main_v0_1)
        ∗ (((c : Thread nD τ).loc main_arg0) ↦{fullShare} V' main_arg0) ∗ (((c : Thread nD τ).loc main_arg5) ↦{fullShare} V' main_arg5)
        ∗ (((c : Thread nD τ).loc main_arg6) ↦{fullShare} V' main_arg6) ∗ (((c : Thread nD τ).loc main_v1) ↦{fullShare} V' main_v1)) := by
  unfold Pipeline.arrBufs
  exact bigSep_eq_bigSepL_of_eq [main_v0_0, main_v0_1, main_arg0, main_arg5, main_arg6, main_v1] (by decide) (by decide) _

/-- ENTRY: the six buffers, each whole at the entry contents, make the nine windows' arrays at the proof data's
    shares — a buffer behind two windows split in the two halves of its share. -/
theorem split1 (c : Dev nD) :
    (Pipeline.arrBufs (Ix := Unit) (Name := ℕ) (U := UR sig nD τ) (Lvl := ℕ) spec1 c (V c) : sProp 𝕄)
      ⊢ (dat1 V c).arrays ((dat1 V c).arrAt · 0) := by
  rw [arrBufs1_eq, arrays1_eq]
  iintro ⟨H0, H1, H4, H6, H7, H8⟩
  ihave H0 := (pointsTo_share (PosShare.mem_left_op_right fullShare)).1 $$ H0
  icases H0 with ⟨H0l, H0r⟩
  ihave H1 := (pointsTo_share (PosShare.mem_left_op_right fullShare)).1 $$ H1
  icases H1 with ⟨H1l, H1r⟩
  ihave H4 := (pointsTo_share (PosShare.mem_left_op_right fullShare)).1 $$ H4
  icases H4 with ⟨H4l, H4r⟩
  isplitl [H0l]; · iexact H0l
  isplitl [H1l]; · iexact H1l
  isplitl [H0r]; · iexact H0r
  isplitl [H1r]; · iexact H1r
  isplitl [H4l]; · iexact H4l
  isplitl [H4r]; · iexact H4r
  isplitl [H6]; · iexact H6
  isplitl [H7]; · iexact H7
  iexact H8

/-- EXIT: the nine windows' arrays at what the pipeline leaves make the six buffers, each whole, at any contents that
    has the result array at its final contents and agrees with the entry contents elsewhere: an input window's array is
    never written, so the two halves of a shared buffer hold the same contents and join. -/
theorem join1 (c : Dev nD) (V' : (b : Ref sig .tc) → Buf (Elt F) ((c : Thread nD τ).loc b))
    (hout : V' main_v1 = (dat1 V c).arrAt 8 cfg1.N) (hin : ∀ b, b ≠ main_v1 → V' b = V c b) :
    (dat1 V c).arrays ((dat1 V c).arrAt · cfg1.N)
      ⊢ (Pipeline.arrBufs (Ix := Unit) (Name := ℕ) (U := UR sig nD τ) (Lvl := ℕ) spec1 c V' : sProp 𝕄) := by
  rw [arrBufs1_eq, arrays1_eq, hout,
    hin main_v0_0 (by decide), hin main_v0_1 (by decide), hin main_arg0 (by decide), hin main_arg5 (by decide), hin main_arg6 (by decide),
    (dat1 V c).arrAt_in 0 rfl, (dat1 V c).arrAt_in 1 rfl, (dat1 V c).arrAt_in 2 rfl, (dat1 V c).arrAt_in 3 rfl,
    (dat1 V c).arrAt_in 4 rfl, (dat1 V c).arrAt_in 5 rfl, (dat1 V c).arrAt_in 6 rfl, (dat1 V c).arrAt_in 7 rfl]
  refine (show (iprop((((c : Thread nD τ).loc main_v0_0) ↦{fullShare.left} V c main_v0_0) ∗ (((c : Thread nD τ).loc main_v0_1) ↦{fullShare.left} V c main_v0_1)
        ∗ (((c : Thread nD τ).loc main_v0_0) ↦{fullShare.right} V c main_v0_0) ∗ (((c : Thread nD τ).loc main_v0_1) ↦{fullShare.right} V c main_v0_1)
        ∗ (((c : Thread nD τ).loc main_arg0) ↦{fullShare.left} V c main_arg0) ∗ (((c : Thread nD τ).loc main_arg0) ↦{fullShare.right} V c main_arg0)
        ∗ (((c : Thread nD τ).loc main_arg5) ↦{fullShare} V c main_arg5) ∗ (((c : Thread nD τ).loc main_arg6) ↦{fullShare} V c main_arg6)
        ∗ (((c : Thread nD τ).loc main_v1) ↦{fullShare} (dat1 V c).arrAt 8 cfg1.N)) : sProp 𝕄) ⊢ _ from ?_)
  iintro ⟨H0l, H1l, H0r, H1r, H4l, H4r, H6, H7, H8⟩
  ihave H0 := (pointsTo_share (PosShare.mem_left_op_right fullShare)).2 $$ [H0l H0r]
  · isplitl [H0l] <;> iassumption
  ihave H1 := (pointsTo_share (PosShare.mem_left_op_right fullShare)).2 $$ [H1l H1r]
  · isplitl [H1l] <;> iassumption
  ihave H4 := (pointsTo_share (PosShare.mem_left_op_right fullShare)).2 $$ [H4l H4r]
  · isplitl [H4l] <;> iassumption
  isplitl [H0]; · iexact H0
  isplitl [H1]; · iexact H1
  isplitl [H4]; · iexact H4
  isplitl [H6]; · iexact H6
  isplitl [H7]; · iexact H7
  iexact H8

/-- The unscoped buffers that are no array of region 1 hold at its exit what they held at its entry. -/
theorem rest1_eq (c : Dev nD) :
    (Pipeline.unscopedRest (Ix := Unit) (Name := ℕ) (U := UR sig nD τ) (Lvl := ℕ) spec1 c (entry1 m c) : sProp 𝕄)
      = Pipeline.unscopedRest spec1 c (fun b => W2 m c b) := by
  unfold Pipeline.unscopedRest
  exact bigSep_congr fun b hb => congrArg (fun f => (((c : Thread nD τ).loc b) ↦{fullShare} f : sProp 𝕄))
    (W2_of_ne m c b fun e => (Finset.mem_sdiff.mp hb).2 (Finset.mem_image.mpr ⟨8, Finset.mem_univ _, e ▸ rfl⟩)).symm

set_option backward.isDefEq.respectTransparency.types false in
/-- REGION 1 over the thread state: entered from every unscoped buffer at `W1`, left at `W2`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (entry1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hub : (StableHlo.held (c : Thread nD τ) (Pipeline.ucRefs τ sig) (W1 m c) : sProp 𝕄)
        = iprop(Pipeline.arrBufs spec1 c (entry1 m c) ∗ Pipeline.unscopedRest spec1 c (entry1 m c)) :=
      (Pipeline.unscopedBufs_held c (W1 m c)).symm.trans
        (Pipeline.unscopedBufs_split₀ (cfgs) 1 winFacts₀1.arr_unscoped c (entry1 m c))
    have hsplit := split1 (entry1 m) c
    iintro ⟨⟨Hub, Hp, HO⟩, -, -⟩
    ihave H := (Entails.of_eq hub) $$ Hub
    icases H with ⟨Hb, Hrest⟩
    ihave Ha := hsplit $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hub : (StableHlo.held (c : Thread nD τ) (Pipeline.ucRefs τ sig) (W2 m c) : sProp 𝕄)
        = iprop(Pipeline.arrBufs spec1 c (fun b => W2 m c b) ∗ Pipeline.unscopedRest spec1 c (entry1 m c)) := by
      rw [rest1_eq m c]
      exact (Pipeline.unscopedBufs_held c (W2 m c)).symm.trans
        (Pipeline.unscopedBufs_split₀ (cfgs) 1 winFacts₀1.arr_unscoped c (fun b => W2 m c b))
    have hjoin := join1 (entry1 m) c (fun b => W2 m c b) (W2_main_v1 m c) (fun b hb => W2_of_ne m c b hb)
    iintro ⟨Ha, HO, HY, Hrest⟩
    imodintro
    isplitl [Ha Hrest HY]
    · isplitl [Ha Hrest]
      · iapply (Entails.of_eq hub.symm)
        isplitl [Ha]
        · iapply hjoin; iexact Ha
        iexact Hrest
      iexact HY
    unfold Pipeline.Dat.owesAt Pipeline.owesWithin
    icases HO with ⟨%W, -, HO⟩; iexists W; iexact HO

end Cert.KernelIdeal.Hand

end
-- ==== Proof.KIRun.lean ====
/-
  The run of the program: the projection kernel's region, then the message-passing kernel's region, from the launch to
  the return. Every weakly fair execution terminates, nothing faulting; the result array ends at what the second
  region's write-backs leave, of the contents the first region leaves; every argument array ends as launched.
-/
import proofs.«142857_j12214886990224_2_alg».proof.Proof.KIReg0
import proofs.«142857_j12214886990224_2_alg».proof.Proof.KIReg1

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

variable (ρ : Dev nD → PrngReg)

/-- The program's two segments in order: a region per kernel call, no host operation between them. -/
abbrev segs : List (Pipeline.Seg (pcfgs (F := F)) adm (pdats m) () defs₀ 𝒱₀ L lv) :=
  [ .region (reg0 m), .region (reg1 m) ]

/-- The program is the run of the two segments. -/
theorem main_run (c : Dev nD) : main (F := F) c = Pipeline.Seg.run (segs m) := (main_chain c).trans (by chain_rfl)

/-! ### The arguments end as launched: neither region writes one -/

theorem W2_main_arg0 (c : Dev nD) : W2 m c (Proc.devRef .tc main_arg0) = m ((c : Thread nD τ).loc main_arg0) :=
  (W2_of_ne m c main_arg0 (by decide)).trans (entry1_main_arg0 m c)
theorem W2_main_arg1 (c : Dev nD) : W2 m c (Proc.devRef .tc main_arg1) = m ((c : Thread nD τ).loc main_arg1) :=
  (W2_of_ne m c main_arg1 (by decide)).trans (entry1_main_arg1 m c)
theorem W2_main_arg2 (c : Dev nD) : W2 m c (Proc.devRef .tc main_arg2) = m ((c : Thread nD τ).loc main_arg2) :=
  (W2_of_ne m c main_arg2 (by decide)).trans (entry1_main_arg2 m c)
theorem W2_main_arg3 (c : Dev nD) : W2 m c (Proc.devRef .tc main_arg3) = m ((c : Thread nD τ).loc main_arg3) :=
  (W2_of_ne m c main_arg3 (by decide)).trans (entry1_main_arg3 m c)
theorem W2_main_arg4 (c : Dev nD) : W2 m c (Proc.devRef .tc main_arg4) = m ((c : Thread nD τ).loc main_arg4) :=
  (W2_of_ne m c main_arg4 (by decide)).trans (entry1_main_arg4 m c)
theorem W2_main_arg5 (c : Dev nD) : W2 m c (Proc.devRef .tc main_arg5) = m ((c : Thread nD τ).loc main_arg5) :=
  (W2_of_ne m c main_arg5 (by decide)).trans (entry1_main_arg5 m c)
theorem W2_main_arg6 (c : Dev nD) : W2 m c (Proc.devRef .tc main_arg6) = m ((c : Thread nD τ).loc main_arg6) :=
  (W2_of_ne m c main_arg6 (by decide)).trans (entry1_main_arg6 m c)

set_option backward.isDefEq.respectTransparency.types false in
/-- THE RUN: from any memory with zero counters, every weakly fair execution of the program on the TensorCores
    terminates, nothing faulting, and every final state has the result array at what region 1's write-backs leave and
    the argument arrays as launched. -/
theorem run_main : θ_run defs (onTc (τ := τ) (main (F := F))) ⟨m, fun _ => 0, ρ⟩ (fun r => ∀ c : Dev nD,
      r.2.mem ((c.tc : Thread nD τ).loc main_v1) = (dat1 (entry1 m) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_uc main_v1 (by decide))).trans (W2_main_v1 m c),
       (h c _ (mem_uc main_arg0 (by decide))).trans (W2_main_arg0 m c),
       (h c _ (mem_uc main_arg1 (by decide))).trans (W2_main_arg1 m c),
       (h c _ (mem_uc main_arg2 (by decide))).trans (W2_main_arg2 m c),
       (h c _ (mem_uc main_arg3 (by decide))).trans (W2_main_arg3 m c),
       (h c _ (mem_uc main_arg4 (by decide))).trans (W2_main_arg4 m c),
       (h c _ (mem_uc main_arg5 (by decide))).trans (W2_main_arg5 m c),
       (h c _ (mem_uc main_arg6 (by decide))).trans (W2_main_arg6 m c)⟩)

end Cert.KernelIdeal.Hand

end
-- ==== Proof.KISpec.lean ====
/-
  The mathematics both programs compute, as functions of plain coordinates over the extended reals.

  With x the edge features (8192 rows of 256), the two projections are e = relu(x·W + b); the unscaled similarity of rows i
  and j is the dot product of e(i,·) and e(j,·); the aggregate is agg(i,d) = Σ_j sim(i,j)·(x(j,d)·s) with s the scale; the result
  is relu(x·W⁰ + agg₁·W¹ + agg₂·W² + b) with W⁰, W¹, W² the three 256-row slices of the output weights. Every function here
  depends on its row argument only through that row of its row-indexed operands, so restricting the operands to a block of
  rows and evaluating inside the block is evaluating the whole-array function at the block's row.
-/
import Idealize.ShloMosaic.PureOps.Ideal
import Idealize.ShloMosaic.Lib.ValueIdx

noncomputable section

namespace Cert.Spec

open Idealize.ShloMosaic Idealize.ShloMosaic.ValueIdx

/-- A rank-2 array as a function of its two coordinates. -/
abbrev cur2 {n0 n1 : Nat} (v : (⟨2, ![n0, n1]⟩ : Shape).Idx → EReal) : Fin n0 → Fin n1 → EReal := fun a b => v (ix2 a b)
/-- A rank-1 array as a function of its coordinate. -/
abbrev cur1 {n : Nat} (v : (⟨1, ![n]⟩ : Shape).Idx → EReal) : Fin n → EReal := fun a => v (ix1 a)

/-- relu(x·W + b) at row `i`, column `o`. -/
def proj {n : Nat} (x : Fin n → Fin 256 → EReal) (w : Fin 256 → Fin 256 → EReal) (b : Fin 256 → EReal) (i : Fin n) (o : Fin 256) : EReal :=
  max ((∑ k : Fin 256, x i k * w k o) + b o) 0

/-- The unscaled similarity of row `i` of `eq` and row `j` of `ek`. -/
def sim {n m : Nat} (eq : Fin n → Fin 256 → EReal) (ek : Fin m → Fin 256 → EReal) (i : Fin n) (j : Fin m) : EReal :=
  ∑ c : Fin 256, eq i c * ek j c

/-- The aggregate Σ_j sim(i,j)·(x(j,d)·s). -/
def agg (s : EReal) {n : Nat} (eq : Fin n → Fin 256 → EReal) (ek : Fin 8192 → Fin 256 → EReal) (x : Fin 8192 → Fin 256 → EReal)
    (i : Fin n) (d : Fin 256) : EReal :=
  ∑ j : Fin 8192, sim eq ek i j * (x j d * s)

/-- Row `256·a + c` of the output weights. -/
def wrow (a : Fin 3) (c : Fin 256) : Fin 768 := ⟨256 * a.val + c.val, by have := a.isLt; have := c.isLt; omega⟩

/-- relu(x·W⁰ + a₁·W¹ + a₂·W² + b) at row `i`, column `o`. -/
def out {n : Nat} (xq a1 a2 : Fin n → Fin 256 → EReal) (w : Fin 768 → Fin 256 → EReal) (b : Fin 256 → EReal) (i : Fin n) (o : Fin 256) : EReal :=
  max ((((∑ c : Fin 256, xq i c * w (wrow 0 c) o) + ∑ c : Fin 256, a1 i c * w (wrow 1 c) o) + ∑ c : Fin 256, a2 i c * w (wrow 2 c) o) + b o) 0

/-- The whole result from the seven argument arrays, with the scale `s` applied to the features inside the aggregate. -/
def result (s : EReal) (x : Fin 8192 → Fin 256 → EReal) (w1 : Fin 256 → Fin 256 → EReal) (b1 : Fin 256 → EReal)
    (w2 : Fin 256 → Fin 256 → EReal) (b2 : Fin 256 → EReal) (wo : Fin 768 → Fin 256 → EReal) (bo : Fin 256 → EReal) : Fin 8192 → Fin 256 → EReal :=
  out x (agg s (proj x w1 b1) (proj x w1 b1) x) (agg s (proj x w2 b2) (proj x w2 b2) x) wo bo

/-- Row `1024·t + p`: the `p`-th row of the `t`-th block of 1024 rows. -/
def brow (t : Fin 8) (p : Fin 1024) : Fin 8192 := ⟨1024 * t.val + p.val, by have := t.isLt; have := p.isLt; omega⟩

theorem proj_block {x : Fin 8192 → Fin 256 → EReal} (w : Fin 256 → Fin 256 → EReal) (b : Fin 256 → EReal) (t : Fin 8) (p : Fin 1024) (o : Fin 256) :
    proj (fun p k => x (brow t p) k) w b p o = proj x w b (brow t p) o := rfl

theorem agg_block (s : EReal) {eq : Fin 8192 → Fin 256 → EReal} (ek x : Fin 8192 → Fin 256 → EReal) (t : Fin 8) (p : Fin 1024) (d : Fin 256) :
    agg s (fun p k => eq (brow t p) k) ek x p d = agg s eq ek x (brow t p) d := rfl

theorem out_block {xq a1 a2 : Fin 8192 → Fin 256 → EReal} (w : Fin 768 → Fin 256 → EReal) (b : Fin 256 → EReal) (t : Fin 8) (p : Fin 1024) (o : Fin 256) :
    out (fun p k => xq (brow t p) k) (fun p k => a1 (brow t p) k) (fun p k => a2 (brow t p) k) w b p o = out xq a1 a2 w b (brow t p) o := rfl

end Cert.Spec

end
-- ==== Proof.LibPlainDot.lean ====
/-
  A matrix product with the plain dimension numbers — an n×a operand times an a×b operand, contracted over the one
  shared axis, no batch axis — read at an entry, at the ideal values, for any extents n, a, b.

  At the ideal values a `tpu.matmul` into the zero accumulator and the host's `dot_general` are both the sum, over the
  contraction index, of the products of the two operands' entries. The contraction index of the plain dimension numbers
  is a rank-1 index of extent a; re-indexing the sum by its one coordinate k gives

      (L · R)(p, o) = ∑ k < a, L(p, k) · R(k, o).

  A dimension-number record of a printed program that lists the same six axis lists IS `DotDims.plain n a b` (the
  record's other field is a proof), by `rfl`.
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {n a b : ℕ}

/-- The plain dimension numbers contract one axis … -/
theorem contr_rank : (DotDims.plain n a b).contr.rank = 1 := rfl

/-- … of extent `a`. -/
theorem contr_size : (DotDims.plain n a b).contr.size ⟨0, by rw [contr_rank]; exact Nat.one_pos⟩ = a := rfl

/-- The left operand is read at row `i 0` … -/
theorem lhs_row (i : (⟨2, ![n, b]⟩ : Shape).Idx) (q : (DotDims.plain n a b).contr.Idx) :
    ((DotDims.plain n a b).lhsIdx i q (0 : Fin 2)).val = (i 0).val := rfl

/-- … and at the contraction position's column; -/
theorem lhs_col (i : (⟨2, ![n, b]⟩ : Shape).Idx) (q : (DotDims.plain n a b).contr.Idx) :
    ((DotDims.plain n a b).lhsIdx i q (1 : Fin 2)).val = (q ⟨0, by rw [contr_rank]; exact Nat.one_pos⟩).val :=
  (DotDims.plain n a b).lhsIdx_val_of_single rfl i q

/-- the right operand at the contraction position's row … -/
theorem rhs_row (i : (⟨2, ![n, b]⟩ : Shape).Idx) (q : (DotDims.plain n a b).contr.Idx) :
    ((DotDims.plain n a b).rhsIdx i q (0 : Fin 2)).val = (q ⟨0, by rw [contr_rank]; exact Nat.one_pos⟩).val :=
  (DotDims.plain n a b).rhsIdx_val_of_single rfl i q

/-- … and at column `i 1`. -/
theorem rhs_col (i : (⟨2, ![n, b]⟩ : Shape).Idx) (q : (DotDims.plain n a b).contr.Idx) :
    ((DotDims.plain n a b).rhsIdx i q (1 : Fin 2)).val = (i 1).val := rfl

/-- The sum over the contraction index of the plain dimension numbers, re-indexed by its one coordinate. -/
theorem sum_contr (L : FVec Ideal ⟨2, ![n, a]⟩ .f32) (R : FVec Ideal ⟨2, ![a, b]⟩ .f32) (p : Fin n) (o : Fin b) :
    (∑ q : (DotDims.plain n a b).contr.Idx,
        L ((DotDims.plain n a b).lhsIdx (ix2 p o) q) * R ((DotDims.plain n a b).rhsIdx (ix2 p o) q))
      = ∑ k : Fin a, L (ix2 p k) * R (ix2 k o) := by
  rw [← Equiv.sum_comp (contrEquiv1 (DotDims.plain n a b) a contr_rank contr_size).symm]
  refine Finset.sum_congr rfl fun k _ => ?_
  have hk := contrEquiv1_symm_val (DotDims.plain n a b) a contr_rank contr_size k
  have el : (DotDims.plain n a b).lhsIdx (ix2 p o) ((contrEquiv1 (DotDims.plain n a b) a contr_rank contr_size).symm k)
      = ix2 p k := funext fun c => Fin.ext (by
    match c with
    | ⟨0, _⟩ => exact lhs_row _ _
    | ⟨1, _⟩ => exact (lhs_col _ _).trans hk)
  have er : (DotDims.plain n a b).rhsIdx (ix2 p o) ((contrEquiv1 (DotDims.plain n a b) a contr_rank contr_size).symm k)
      = ix2 k o := funext fun c => Fin.ext (by
    match c with
    | ⟨0, _⟩ => exact (rhs_row _ _).trans hk
    | ⟨1, _⟩ => exact rhs_col _ _)
  rw [el, er]

/-- A `tpu.matmul` with the plain dimension numbers into the zero accumulator, at entry (p, o). -/
theorem matmul_zero_apply (prec : Option ContractPrecision) (L : FVec Ideal ⟨2, ![n, a]⟩ .f32)
    (R : FVec Ideal ⟨2, ![a, b]⟩ .f32) (p : Fin n) (o : Fin b) :
    matmul (DotDims.plain n a b) prec L R (constant ⟨2, ![n, b]⟩ .f32 0x00000000#32) (ix2 p o)
      = ∑ k : Fin a, L (ix2 p k) * R (ix2 k o) :=
  (Ideal.matmul_constant_zero_apply (DotDims.plain n a b) prec L R (ix2 p o)).trans (sum_contr L R p o)

/-- The host's `dot_general` with the plain dimension numbers, at entry (p, o). -/
theorem dotGeneral_apply (prec : Option ContractPrecision) (L : FVec Ideal ⟨2, ![n, a]⟩ .f32)
    (R : FVec Ideal ⟨2, ![a, b]⟩ .f32) (p : Fin n) (o : Fin b) :
    Host.dotGeneral (DotDims.plain n a b) prec L R (ix2 p o) = ∑ k : Fin a, L (ix2 p k) * R (ix2 k o) := by
  simp only [Host.dotGeneral]
  exact (Ideal.dotGeneral_apply (DotDims.plain n a b) prec _ L R (ix2 p o)).trans (sum_contr L R p o)

end Cert.LibPlainDot

end
-- ==== Proof.KIPayLib.lean ====
/-
  The arithmetic of the kernel's building blocks at the ideal values, entry by entry: the two matrix products it uses
  (rows by columns, and rows by rows — the right operand transposed), the bias row spread over the block's rows, the
  512-row slab and the three 256-row slices read through their rectangles. Over the extended reals a matrix product
  into the zero accumulator is the plain finite sum of products, rounding to bf16 is the identity, and the zero splat
  is 0.
-/
import proofs.«142857_j12214886990224_2_alg».proof.Proof.KIDefs
import proofs.«142857_j12214886990224_2_alg».proof.Proof.KISpec
import proofs.«142857_j12214886990224_2_alg».proof.Proof.LibPlainDot
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.Pay

open Idealize.ShloMosaic Idealize.ShloMosaic.ValueIdx
open Cert.Spec Cert.KernelIdeal Cert.KernelIdeal.Gen Cert.KernelIdeal.Hand

/-- The kernel's scale 2⁻⁸, as its printed word. -/
abbrev scale : EReal := Ideal.ofBits .f32 0x3B800000#32

/-! ## The rows-by-columns products -/

theorem dotA_eq : dot_S1024x256_S256x256_S1024x256_1_0_0_1_n_n = DotDims.plain 1024 256 256 := rfl
theorem dotC_eq : dot_S1024x512_S512x256_S1024x256_1_0_0_1_n_n = DotDims.plain 1024 512 256 := rfl

/-- A 1024x256 by 256x256 product into the zero accumulator, at entry (p, o). -/
theorem mmA_apply {φ₁ φ₂ : FTy} (L : FVec Ideal S1024x256 φ₁) (R : FVec Ideal S256x256 φ₂) (p : Fin 1024) (o : Fin 256) :
    matmul (F := Ideal) dot_S1024x256_S256x256_S1024x256_1_0_0_1_n_n none L R (constant S1024x256 .f32 0x00000000#32) (ix2 p o)
      = ∑ k : Fin 256, L (ix2 p k) * R (ix2 k o) :=
  Cert.LibPlainDot.matmul_zero_apply (n := 1024) (a := 256) (b := 256) none L R p o

/-- A 1024x512 by 512x256 product into the zero accumulator, at entry (p, o). -/
theorem mmC_apply {φ₁ φ₂ : FTy} (L : FVec Ideal S1024x512 φ₁) (R : FVec Ideal S512x256 φ₂) (p : Fin 1024) (o : Fin 256) :
    matmul (F := Ideal) dot_S1024x512_S512x256_S1024x256_1_0_0_1_n_n none L R (constant S1024x256 .f32 0x00000000#32) (ix2 p o)
      = ∑ k : Fin 512, L (ix2 p k) * R (ix2 k o) :=
  Cert.LibPlainDot.matmul_zero_apply (n := 1024) (a := 512) (b := 256) none L R p o

/-! ## The rows-by-rows product (the right operand transposed) -/

/-- A 1024x256 by (512x256)ᵀ product into the zero accumulator, at entry (p, j): row p against row j. -/
theorem mmT_apply {φ₁ φ₂ : FTy} (L : FVec Ideal S1024x256 φ₁) (R : FVec Ideal S512x256 φ₂) (p : Fin 1024) (j : Fin 512) :
    matmul (F := Ideal) dot_S1024x256_S512x256_S1024x512_1_1_0_0_n_n none L R (constant S1024x512 .f32 0x00000000#32) (ix2 p j)
      = ∑ c : Fin 256, L (ix2 p c) * R (ix2 j c) := by
  refine (Ideal.matmul_constant_zero_apply dot_S1024x256_S512x256_S1024x512_1_1_0_0_n_n none L R (ix2 p j)).trans ?_
  rw [← Equiv.sum_comp (contrEquiv1 dot_S1024x256_S512x256_S1024x512_1_1_0_0_n_n 256 rfl rfl).symm]
  refine Finset.sum_congr rfl fun c _ => ?_
  have hc := contrEquiv1_symm_val dot_S1024x256_S512x256_S1024x512_1_1_0_0_n_n 256 rfl rfl c
  have el : dot_S1024x256_S512x256_S1024x512_1_1_0_0_n_n.lhsIdx (ix2 p j)
      ((contrEquiv1 dot_S1024x256_S512x256_S1024x512_1_1_0_0_n_n 256 rfl rfl).symm c) = ix2 p c := funext fun a => Fin.ext (by
    match a with
    | ⟨0, _⟩ => rfl
    | ⟨1, _⟩ => exact (dot_S1024x256_S512x256_S1024x512_1_1_0_0_n_n.lhsIdx_val_of_single (cl := 1) rfl _ _).trans hc)
  have er : dot_S1024x256_S512x256_S1024x512_1_1_0_0_n_n.rhsIdx (ix2 p j)
      ((contrEquiv1 dot_S1024x256_S512x256_S1024x512_1_1_0_0_n_n 256 rfl rfl).symm c) = ix2 j c := funext fun a => Fin.ext (by
    match a with
    | ⟨0, _⟩ => rfl
    | ⟨1, _⟩ => exact (dot_S1024x256_S512x256_S1024x512_1_1_0_0_n_n.rhsIdx_val_of_single (cr := 1) rfl _ _).trans hc)
  rw [el, er]

/-! ## The bias row -/

/-- The bias vector viewed as one row and spread over the block's 1024 rows reads b(o) at (p, o). -/
theorem biasRow_apply {α : Type} (b : S256.Idx → α) (p : Fin 1024) (o : Fin 256) :
    broadcastTo S1024x256 (shapeCast S1x256 b shapeCasts_S256_S1x256) broadcasts_S1x256_S1024x256 (ix2 p o) = b (ix1 o) := by
  refine (broadcastTo_apply _ broadcasts_S1x256_S1024x256 (ix2 p o) (ix2 (0 : Fin 1) o) (fun a => ?_)).trans ?_
  · match a with
    | ⟨0, _⟩ => rfl
    | ⟨1, _⟩ => rfl
  · refine (shapeCast_addUnit_apply ![256] b shapeCasts_S256_S1x256 (ix2 (0 : Fin 1) o)).trans (congrArg b ?_)
    funext a
    match a with
    | ⟨0, _⟩ => rfl

/-! ## Reads through the rectangles -/

/-- Row 512·k + j: the j-th row of the k-th slab of 512 rows. -/
def srow (k : Fin k1_t1_loop.trips) (j : Fin 512) : Fin 8192 :=
  ⟨512 * k.val + j.val, by have := k.isLt; have := j.isLt; have : k1_t1_loop.trips = 16 := rfl; omega⟩

/-- The k-th slab read at (j, c) is the array at (512·k + j, c). -/
theorem slab_apply {Val : EltTy → Type} {e : EltTy} (v : S8192x256.Idx → Val e) (k : Fin k1_t1_loop.trips) (j : Fin 512) (c : Fin 256) :
    View.ld v (slab k) (ix2 j c) = v (ix2 (srow k j) c) := by
  show v ((slab k).idx (ix2 j c)) = v (ix2 (srow k j) c)
  refine congrArg v (funext fun a => Fin.ext ?_)
  show k1_off1 k a + 1 * (ix2 j c a).val = _
  rw [k1_off1_eq k]
  match a with
  | ⟨0, _⟩ => show 512 * k.val + 1 * j.val = 512 * k.val + j.val; omega
  | ⟨1, _⟩ => show 0 + 1 * c.val = c.val; omega

theorem wrows0_apply {Val : EltTy → Type} {e : EltTy} (w : S768x256.Idx → Val e) (c o : Fin 256) : View.ld w wrows0 (ix2 c o) = w (ix2 (wrow 0 c) o) := by
  show w (wrows0.idx (ix2 c o)) = _
  refine congrArg w (funext fun a => Fin.ext ?_)
  match a with
  | ⟨0, _⟩ => show 0 + 1 * c.val = 256 * 0 + c.val; omega
  | ⟨1, _⟩ => show 0 + 1 * o.val = o.val; omega

theorem wrows1_apply {Val : EltTy → Type} {e : EltTy} (w : S768x256.Idx → Val e) (c o : Fin 256) : View.ld w wrows1 (ix2 c o) = w (ix2 (wrow 1 c) o) := by
  show w (wrows1.idx (ix2 c o)) = _
  refine congrArg w (funext fun a => Fin.ext ?_)
  match a with
  | ⟨0, _⟩ => show 256 + 1 * c.val = 256 * 1 + c.val; omega
  | ⟨1, _⟩ => show 0 + 1 * o.val = o.val; omega

theorem wrows2_apply {Val : EltTy → Type} {e : EltTy} (w : S768x256.Idx → Val e) (c o : Fin 256) : View.ld w wrows2 (ix2 c o) = w (ix2 (wrow 2 c) o) := by
  show w (wrows2.idx (ix2 c o)) = _
  refine congrArg w (funext fun a => Fin.ext ?_)
  match a with
  | ⟨0, _⟩ => show 512 + 1 * c.val = 256 * 2 + c.val; omega
  | ⟨1, _⟩ => show 0 + 1 * o.val = o.val; omega

end Cert.KernelIdeal.Pay

end
-- ==== Proof.KIPay0.lean ====
/-
  The projection kernel's two output blocks at the ideal values, entry by entry: relu(x·W + b) with the product the
  plain sum over the 256 columns of x.
-/
import proofs.«142857_j12214886990224_2_alg».proof.Proof.KIPayLib

noncomputable section

open scoped BigOperators

namespace Cert.KernelIdeal.Pay

open Idealize.ShloMosaic Idealize.ShloMosaic.ValueIdx
open Cert.Spec Cert.KernelIdeal Cert.KernelIdeal.Gen Cert.KernelIdeal.Hand

/-! ## The projection kernel's two outputs -/

/-- The first projection block at (p, o): relu(x·W₁ + b₁). -/
theorem k0_pay2_apply (x : Vec Ideal S1024x256 .f32) (w : Vec Ideal S256x256 .f32) (b : Vec Ideal S256 .f32) (p : Fin 1024) (o : Fin 256) :
    k0_pay2 (F := Ideal) x w b (ix2 p o) = proj (cur2 x) (cur2 w) (cur1 b) p o := by
  unfold k0_pay2 k0_pay1
  show max ((matmul (F := Ideal) dot_S1024x256_S256x256_S1024x256_1_0_0_1_n_n none (truncf .bf16 x bitsLt_bf16_f32) (truncf .bf16 w bitsLt_bf16_f32)
        (constant S1024x256 .f32 0x00000000#32) (ix2 p o))
      + (broadcastTo S1024x256 (shapeCast S1x256 b shapeCasts_S256_S1x256) broadcasts_S1x256_S1024x256 (ix2 p o)))
      (Ideal.ofBits .f32 0x00000000#32) = _
  rw [mmA_apply, biasRow_apply, Ideal.ofBits_zero_f32]
  rfl

/-- The second projection block at (p, o): relu(x·W₂ + b₂). -/
theorem k0_pay3_apply (x : Vec Ideal S1024x256 .f32) (w : Vec Ideal S256x256 .f32) (b : Vec Ideal S256 .f32) (p : Fin 1024) (o : Fin 256) :
    k0_pay3 (F := Ideal) x w b (ix2 p o) = proj (cur2 x) (cur2 w) (cur1 b) p o := by
  unfold k0_pay3 k0_pay1
  show max ((matmul (F := Ideal) dot_S1024x256_S256x256_S1024x256_1_0_0_1_n_n none (truncf .bf16 x bitsLt_bf16_f32) (truncf .bf16 w bitsLt_bf16_f32)
        (constant S1024x256 .f32 0x00000000#32) (ix2 p o))
      + (broadcastTo S1024x256 (shapeCast S1x256 b shapeCasts_S256_S1x256) broadcasts_S1x256_S1024x256 (ix2 p o)))
      (Ideal.ofBits .f32 0x00000000#32) = _
  rw [mmA_apply, biasRow_apply, Ideal.ofBits_zero_f32]
  rfl

end Cert.KernelIdeal.Pay

end
-- ==== Proof.LibGroupedDot.lean ====
import Idealize.ShloMosaic.PureOps.Ideal

/-!
# A grouped dot product with the group's scale outside equals one scaled dot product

A long dot product `∑ k, A k * (W k * S (k / J))`, whose weight at row `k` carries the scale of
the group `k / J` that row lies in, can be computed group by group: inside a group the scale is a
common factor, so it may multiply the group's partial dot product once, afterwards. Over the
extended reals multiplication distributes over a sum only away from the infinities, so the
statement assumes that every factor is (the image of) a real number; the proof moves to the reals,
where the identity is distributivity plus a re-indexing of `k = N * p + J * g + j`.

Everything here is general (no program is involved): `coe_sum`, `sum_range_mul`,
`grouped_dot_semiring` and `grouped_dot_range` hold for every block count `P`, group count `G`
and group length `J`; `grouped_dot` is the instance `P = 4`, `G = 8`, `J = 128`.
-/

noncomputable section
namespace Cert.GroupedDot

open Finset

/-- The coercion of a finite real sum is the sum of the
coercions (the coercion `ℝ → EReal` is additive and sends `0` to `0`). -/
theorem coe_sum {ι : Type*} (s : Finset ι) (f : ι → ℝ) :
    ((∑ i ∈ s, f i : ℝ) : EReal) = ∑ i ∈ s, (f i : EReal) :=
  map_sum (⟨⟨Real.toEReal, EReal.coe_zero⟩, EReal.coe_add⟩ : ℝ →+ EReal) f s

/-- A sum over `k < m * n` is the double sum over `i < m` and `j < n` of the term at
`k = n * i + j` (the indices below `m * n` are listed row by row, `n` to a row). -/
theorem sum_range_mul {M : Type*} [AddCommMonoid M] (f : ℕ → M) (m n : ℕ) :
    ∑ k ∈ range (m * n), f k = ∑ i ∈ range m, ∑ j ∈ range n, f (n * i + j) := by
  induction m with
  | zero => simp
  | succ m ih =>
    rw [Nat.add_one_mul, Finset.sum_range_add, ih, Finset.sum_range_succ, Nat.mul_comm m n]

/-- In a commutative semiring: `P` blocks of `G` groups of `J` rows, block stride `N = G * J`.
Summing, group by group, the group's scale `s (G * p + g)` times the group's dot product
`∑ j < J, a k * w k` (`k = N * p + J * g + j`) gives the single dot product over all `k < P * N` of
`a k` with the scaled weight `w k * s (k / J)`: the scale is a common factor of its group
(distributivity), `k` runs through `N * p + J * g + j` exactly once, and `k / J = G * p + g`. -/
theorem grouped_dot_semiring {R : Type*} [CommSemiring R] (a w s : ℕ → R) (P G J N : ℕ)
    (hN : N = G * J) :
    ∑ p ∈ range P, ∑ g ∈ range G,
        s (G * p + g) * ∑ j ∈ range J, a (N * p + J * g + j) * w (N * p + J * g + j)
      = ∑ k ∈ range (P * N), a k * (w k * s (k / J)) := by
  subst hN
  -- split the long sum into blocks, then each block into groups
  rw [sum_range_mul]
  refine Finset.sum_congr rfl fun p _ => ?_
  rw [sum_range_mul]
  refine Finset.sum_congr rfl fun g _ => ?_
  -- the scale is a common factor of the group's terms
  rw [Finset.mul_sum]
  refine Finset.sum_congr rfl fun j hj => ?_
  have hjJ : j < J := Finset.mem_range.mp hj
  have hJ : 0 < J := Nat.lt_of_le_of_lt (Nat.zero_le j) hjJ
  -- the row `k = G * J * p + (J * g + j)` lies in group `k / J = G * p + g`
  have hdiv : (G * J * p + (J * g + j)) / J = G * p + g := by
    have e : G * J * p + (J * g + j) = J * (G * p + g) + j := by ring
    rw [e, Nat.mul_add_div hJ, Nat.div_eq_of_lt hjJ, Nat.add_zero]
  have hx : G * J * p + J * g + j = G * J * p + (J * g + j) := Nat.add_assoc _ _ _
  rw [hx, hdiv]
  ring

/-- The same over the extended reals, for factors that are all real numbers: there the products and
finite sums are the images of the real ones (`EReal.coe_mul`, `coe_sum`), so the identity is the
image of `grouped_dot_semiring` at `ℝ`. (Without the hypotheses it can fail: `x * (y + z)` need
not be `x * y + x * z` when infinities of both signs meet.) -/
theorem grouped_dot_range (A W S : ℕ → EReal)
    (hA : ∀ k, ∃ x : ℝ, A k = (x : EReal)) (hW : ∀ k, ∃ x : ℝ, W k = (x : EReal))
    (hS : ∀ g, ∃ x : ℝ, S g = (x : EReal)) (P G J N : ℕ) (hN : N = G * J) :
    ∑ p ∈ range P, ∑ g ∈ range G,
        S (G * p + g) * ∑ j ∈ range J, A (N * p + J * g + j) * W (N * p + J * g + j)
      = ∑ k ∈ range (P * N), A k * (W k * S (k / J)) := by
  choose a ha using hA
  choose w hw using hW
  choose s hs using hS
  simp only [ha, hw, hs, ← EReal.coe_mul, ← coe_sum]
  exact congrArg Real.toEReal (grouped_dot_semiring a w s P G J N hN)

/-- Four blocks of eight groups of 128 rows (4096 rows, block stride 1024), all factors real:
`0 + ∑ s < 4, ∑ g < 8, S (8 s + g) * ∑ j < 128, A k * W k` with `k = 1024 s + 128 g + j` equals the
single dot product `∑ k < 4096, A k * (W k * S (k / 128))`. The instance `P = 4`, `G = 8`,
`J = 128`, `N = 1024` of `grouped_dot_range`, with the sums over `Fin n` read as sums over
`range n`. -/
theorem grouped_dot (A W S : ℕ → EReal)
    (hA : ∀ k, ∃ x : ℝ, A k = (x : EReal)) (hW : ∀ k, ∃ x : ℝ, W k = (x : EReal)) (hS : ∀ g, ∃ x : ℝ, S g = (x : EReal)) :
    (0 : EReal) + ∑ s ∈ Finset.range 4, ∑ g : Fin 8, S (8 * s + g.val) * ∑ j : Fin 128, A (1024 * s + 128 * g.val + j.val) * W (1024 * s + 128 * g.val + j.val)
      = ∑ k : Fin 4096, A k.val * (W k.val * S (k.val / 128)) := by
  have h := grouped_dot_range A W S hA hW hS 4 8 128 1024 (by norm_num)
  rw [show (4 : ℕ) * 1024 = 4096 from by norm_num] at h
  rw [zero_add, Fin.sum_univ_eq_sum_range (fun k => A k * (W k * S (k / 128))) 4096, ← h]
  refine Finset.sum_congr rfl fun s _ => ?_
  rw [Fin.sum_univ_eq_sum_range
    (fun g => S (8 * s + g) *
      ∑ j : Fin 128, A (1024 * s + 128 * g + j.val) * W (1024 * s + 128 * g + j.val)) 8]
  refine Finset.sum_congr rfl fun g _ => ?_
  rw [Fin.sum_univ_eq_sum_range
    (fun j => A (1024 * s + 128 * g + j) * W (1024 * s + 128 * g + j)) 128]

end Cert.GroupedDot
end
-- ==== Proof.KIPay1.lean ====
/-
  The message-passing kernel's two accumulators at the ideal values: each trip adds one 512-row slab's contribution
  Σ_j (e_q(p,·)·e_k(j,·)) · (x_k(j,d)·2⁻⁸), and the sixteen slabs' rows 512·k + j are the 8192 rows once each, so after the
  sixteen trips an accumulator holds the aggregate Σ_m sim(p,m)·(x(m,d)·2⁻⁸), the additions made in the order of the rows.
-/
import proofs.«142857_j12214886990224_2_alg».proof.Proof.KIPayLib
import proofs.«142857_j12214886990224_2_alg».proof.Proof.LibGroupedDot

noncomputable section

open scoped BigOperators

namespace Cert.KernelIdeal.Pay

open Idealize.ShloMosaic Idealize.ShloMosaic.ValueIdx
open Cert.Spec Cert.KernelIdeal Cert.KernelIdeal.Gen Cert.KernelIdeal.Hand

/-! ## One slab's contribution to an accumulator -/

/-- The cleared accumulator is 0 everywhere. -/
theorem k1_pay2_apply (i : S1024x256.Idx) : k1_pay2 (F := Ideal) i = 0 := by
  unfold k1_pay2
  show shapeCast S1024x256 (broadcast S1024x256 (Scalar.ofBits (F := Ideal) .f32 0x00000000#32)) shapeCasts_S1024x256_S1024x256 i = 0
  rw [shapeCast_self]
  exact Ideal.ofBits_zero_f32

theorem k1_pay3_apply (i : S1024x256.Idx) : k1_pay3 (F := Ideal) i = 0 := by
  unfold k1_pay3
  show shapeCast S1024x256 (broadcast S1024x256 (Scalar.ofBits (F := Ideal) .f32 0x00000000#32)) shapeCasts_S1024x256_S1024x256 i = 0
  rw [shapeCast_self]
  exact Ideal.ofBits_zero_f32

/-- The slab of features, scaled: x(j, d) · 2⁻⁸. -/
theorem k1_pay4_apply (v48 : Vec Ideal S512x256 .f32) (i : S512x256.Idx) : k1_pay4 (F := Ideal) v48 i = v48 i * scale := rfl

/-- The first accumulator after a trip: what it held plus Σ_j (Σ_c e_q(p,c)·e_k(j,c)) · (x_k(j,d)·2⁻⁸) over the slab's rows j. -/
theorem k1_pay5_apply (v8 : Vec Ideal S1024x256 .bf16) (v42 : Vec Ideal S512x256 .bf16) (v48 : Vec Ideal S512x256 .f32)
    (v56 : Vec Ideal S1024x256 .f32) (p : Fin 1024) (d : Fin 256) :
    k1_pay5 (F := Ideal) v8 v42 v48 v56 (ix2 p d)
      = v56 (ix2 p d) + ∑ j : Fin 512, (∑ c : Fin 256, v8 (ix2 p c) * v42 (ix2 j c)) * (v48 (ix2 j d) * scale) := by
  unfold k1_pay5
  show shapeCast S1024x256 (addf v56 (matmul (F := Ideal) dot_S1024x512_S512x256_S1024x256_1_0_0_1_n_n none
      (truncf .bf16 (matmul (F := Ideal) dot_S1024x256_S512x256_S1024x512_1_1_0_0_n_n none
        (shapeCast S1024x256 v8 shapeCasts_S1024x256_S1024x256) (shapeCast S512x256 v42 shapeCasts_S512x256_S512x256)
        (constant S1024x512 .f32 0x00000000#32)) bitsLt_bf16_f32)
      (k1_pay4 v48) (constant S1024x256 .f32 0x00000000#32))) shapeCasts_S1024x256_S1024x256 (ix2 p d) = _
  rw [shapeCast_self, shapeCast_self, shapeCast_self]
  show v56 (ix2 p d) + matmul (F := Ideal) dot_S1024x512_S512x256_S1024x256_1_0_0_1_n_n none
      (truncf .bf16 (matmul (F := Ideal) dot_S1024x256_S512x256_S1024x512_1_1_0_0_n_n none v8 v42
        (constant S1024x512 .f32 0x00000000#32)) bitsLt_bf16_f32)
      (k1_pay4 v48) (constant S1024x256 .f32 0x00000000#32) (ix2 p d) = _
  rw [mmC_apply]
  refine congrArg (v56 (ix2 p d) + ·) (Finset.sum_congr rfl fun j _ => ?_)
  exact congrArg (· * (v48 (ix2 j d) * scale)) (mmT_apply (φ₁ := .bf16) (φ₂ := .bf16) v8 v42 p j)

/-- The second accumulator after a trip. -/
theorem k1_pay6_apply (v10 : Vec Ideal S1024x256 .bf16) (v45 : Vec Ideal S512x256 .bf16) (v48 : Vec Ideal S512x256 .f32)
    (v62 : Vec Ideal S1024x256 .f32) (p : Fin 1024) (d : Fin 256) :
    k1_pay6 (F := Ideal) v10 v45 v48 v62 (ix2 p d)
      = v62 (ix2 p d) + ∑ j : Fin 512, (∑ c : Fin 256, v10 (ix2 p c) * v45 (ix2 j c)) * (v48 (ix2 j d) * scale) := by
  unfold k1_pay6
  show shapeCast S1024x256 (addf v62 (matmul (F := Ideal) dot_S1024x512_S512x256_S1024x256_1_0_0_1_n_n none
      (truncf .bf16 (matmul (F := Ideal) dot_S1024x256_S512x256_S1024x512_1_1_0_0_n_n none
        (shapeCast S1024x256 v10 shapeCasts_S1024x256_S1024x256) (shapeCast S512x256 v45 shapeCasts_S512x256_S512x256)
        (constant S1024x512 .f32 0x00000000#32)) bitsLt_bf16_f32)
      (k1_pay4 v48) (constant S1024x256 .f32 0x00000000#32))) shapeCasts_S1024x256_S1024x256 (ix2 p d) = _
  rw [shapeCast_self, shapeCast_self, shapeCast_self]
  show v62 (ix2 p d) + matmul (F := Ideal) dot_S1024x512_S512x256_S1024x256_1_0_0_1_n_n none
      (truncf .bf16 (matmul (F := Ideal) dot_S1024x256_S512x256_S1024x512_1_1_0_0_n_n none v10 v45
        (constant S1024x512 .f32 0x00000000#32)) bitsLt_bf16_f32)
      (k1_pay4 v48) (constant S1024x256 .f32 0x00000000#32) (ix2 p d) = _
  rw [mmC_apply]
  refine congrArg (v62 (ix2 p d) + ·) (Finset.sum_congr rfl fun j _ => ?_)
  exact congrArg (· * (v48 (ix2 j d) * scale)) (mmT_apply (φ₁ := .bf16) (φ₂ := .bf16) v10 v45 p j)

/-! ## Sixteen slabs make the whole aggregate -/

/-- The aggregate's term at row m (0 past the array's last row). -/
def term (eq : Vec Ideal S1024x256 .bf16) (ek : Vec Ideal S8192x256 .bf16) (xk : Vec Ideal S8192x256 .f32) (p : Fin 1024) (d : Fin 256)
    (m : ℕ) : EReal :=
  if h : m < 8192 then sim (cur2 eq) (cur2 ek) p ⟨m, h⟩ * (xk (ix2 ⟨m, h⟩ d) * scale) else 0

/-- A sequence of blocks that starts at 0 and gains, at trip k, slab k's contribution, holds after the sixteen trips the
    aggregate: the rows 512·k + j, k < 16, j < 512, are the rows m < 8192 once each, and the additions are made in the
    order of the rows. -/
theorem acc_sum (A : ℕ → Vec Ideal S1024x256 .f32) (eq : Vec Ideal S1024x256 .bf16) (ek : Vec Ideal S8192x256 .bf16)
    (xk : Vec Ideal S8192x256 .f32) (p : Fin 1024) (d : Fin 256)
    (h0 : A 0 (ix2 p d) = 0)
    (hs : ∀ (k : ℕ) (h : k < k1_t1_loop.trips), A (k + 1) (ix2 p d)
      = A k (ix2 p d) + ∑ j : Fin 512, (∑ c : Fin 256, eq (ix2 p c) * ek (ix2 (srow ⟨k, h⟩ j) c))
          * (xk (ix2 (srow ⟨k, h⟩ j) d) * scale)) :
    A k1_t1_loop.trips (ix2 p d) = agg scale (cur2 eq) (cur2 ek) (cur2 xk) p d := by
  have ht : k1_t1_loop.trips = 16 := rfl
  have key : ∀ n, n ≤ k1_t1_loop.trips →
      A n (ix2 p d) = ∑ k ∈ Finset.range n, ∑ j ∈ Finset.range 512, term eq ek xk p d (512 * k + j) := by
    intro n
    induction n with
    | zero => intro _; rw [h0, Finset.sum_range_zero]
    | succ n ih =>
      intro hn
      have hlt : n < k1_t1_loop.trips := hn
      have hlt' : n < 16 := ht ▸ hlt
      rw [hs n hlt, ih (Nat.le_of_lt hlt), Finset.sum_range_succ]
      refine congrArg (_ + ·) ?_
      rw [← Fin.sum_univ_eq_sum_range (fun j => term eq ek xk p d (512 * n + j)) 512]
      refine Finset.sum_congr rfl fun j _ => ?_
      have hb : 512 * n + j.val < 8192 := by have := j.isLt; omega
      unfold term
      rw [dif_pos hb]
      rfl
  rw [key _ le_rfl, ht, ← Cert.GroupedDot.sum_range_mul (term eq ek xk p d) 16 512,
    show (16 : ℕ) * 512 = 8192 from by norm_num, ← Fin.sum_univ_eq_sum_range (term eq ek xk p d) 8192]
  unfold agg
  refine Finset.sum_congr rfl fun m _ => ?_
  unfold term
  rw [dif_pos m.isLt]

/-- The first accumulator after the sixteen trips is the first aggregate. -/
theorem accA_apply (e1q : Vec Ideal S1024x256 .bf16) (e1k : Vec Ideal S8192x256 .bf16) (xk : Vec Ideal S8192x256 .f32) (p : Fin 1024) (d : Fin 256) :
    accA (F := Ideal) e1q e1k xk k1_t1_loop.trips (ix2 p d) = agg scale (cur2 e1q) (cur2 e1k) (cur2 xk) p d := by
  refine acc_sum (accA (F := Ideal) e1q e1k xk) e1q e1k xk p d (k1_pay2_apply _) (fun k h => ?_)
  have e : accA (F := Ideal) e1q e1k xk (k + 1)
      = k1_pay5 e1q (View.ld e1k (slab ⟨k, h⟩)) (View.ld xk (slab ⟨k, h⟩)) (accA e1q e1k xk k) := by
    rw [accA, dif_pos h]
  rw [e]
  refine (k1_pay5_apply _ _ _ _ p d).trans (congrArg (_ + ·) (Finset.sum_congr rfl fun j _ => ?_))
  rw [slab_apply xk ⟨k, h⟩ j d]
  refine congrArg (· * _) (Finset.sum_congr rfl fun c _ => ?_)
  rw [slab_apply e1k ⟨k, h⟩ j c]

/-- The second accumulator after the sixteen trips is the second aggregate. -/
theorem accB_apply (e2q : Vec Ideal S1024x256 .bf16) (e2k : Vec Ideal S8192x256 .bf16) (xk : Vec Ideal S8192x256 .f32) (p : Fin 1024) (d : Fin 256) :
    accB (F := Ideal) e2q e2k xk k1_t1_loop.trips (ix2 p d) = agg scale (cur2 e2q) (cur2 e2k) (cur2 xk) p d := by
  refine acc_sum (accB (F := Ideal) e2q e2k xk) e2q e2k xk p d (k1_pay3_apply _) (fun k h => ?_)
  have e : accB (F := Ideal) e2q e2k xk (k + 1)
      = k1_pay6 e2q (View.ld e2k (slab ⟨k, h⟩)) (View.ld xk (slab ⟨k, h⟩)) (accB e2q e2k xk k) := by
    rw [accB, dif_pos h]
  rw [e]
  refine (k1_pay6_apply _ _ _ _ p d).trans (congrArg (_ + ·) (Finset.sum_congr rfl fun j _ => ?_))
  rw [slab_apply xk ⟨k, h⟩ j d]
  refine congrArg (· * _) (Finset.sum_congr rfl fun c _ => ?_)
  rw [slab_apply e2k ⟨k, h⟩ j c]

end Cert.KernelIdeal.Pay

end
-- ==== Proof.KIPay2.lean ====
/-
  The message-passing kernel's output block at the ideal values, entry by entry: relu of the block's own features times
  the first slice of the output weights, plus each aggregate times its slice, plus the bias — the result formula of the
  block's rows, with the two aggregates taken over all 8192 rows.
-/
import proofs.«142857_j12214886990224_2_alg».proof.Proof.KIPay1

noncomputable section

open scoped BigOperators

namespace Cert.KernelIdeal.Pay

open Idealize.ShloMosaic Idealize.ShloMosaic.ValueIdx
open Cert.Spec Cert.KernelIdeal Cert.KernelIdeal.Gen Cert.KernelIdeal.Hand

/-! ## The message-passing kernel's output block -/

theorem k1_pay7_apply (v : Vec Ideal S1024x256 .f32) (i : S1024x256.Idx) : k1_pay7 (F := Ideal) v i = v i := rfl
theorem k1_pay8_apply (v : Vec Ideal S1024x256 .f32) (i : S1024x256.Idx) : k1_pay8 (F := Ideal) v i = v i := rfl
theorem k1_pay9_apply (v : Vec Ideal S256x256 .f32) (i : S256x256.Idx) : k1_pay9 (F := Ideal) v i = v i := rfl
theorem k1_pay10_apply (v : Vec Ideal S256x256 .f32) (i : S256x256.Idx) : k1_pay10 (F := Ideal) v i = v i := rfl

/-- The block's own features times the first slice of the output weights, at (p, o). -/
theorem k1_pay11_apply (v13 : Vec Ideal S1024x256 .f32) (v20 : Vec Ideal S256x256 .f32) (p : Fin 1024) (o : Fin 256) :
    k1_pay11 (F := Ideal) v13 v20 (ix2 p o) = ∑ c : Fin 256, v13 (ix2 p c) * v20 (ix2 c o) := by
  unfold k1_pay11
  show matmul (F := Ideal) dot_S1024x256_S256x256_S1024x256_1_0_0_1_n_n none (truncf .bf16 v13 bitsLt_bf16_f32) (truncf .bf16 v20 bitsLt_bf16_f32)
      (constant S1024x256 .f32 0x00000000#32) (ix2 p o) = _
  rw [mmA_apply]
  rfl

/-- The stored block at (p, o): relu of the three products' sum plus the bias, the sum associated as the kernel adds. -/
theorem k1_pay1_apply (v16 v18 : FVec Ideal S1024x256 .bf16) (v19 : Vec Ideal S256 .f32) (v23 v25 : FVec Ideal S256x256 .bf16)
    (v26 : FVec Ideal S1024x256 .f32) (p : Fin 1024) (o : Fin 256) :
    k1_pay1 (F := Ideal) v16 v18 v19 v23 v25 v26 (constant S1024x256 .f32 0x00000000#32) (ix2 p o)
      = max (((v26 (ix2 p o) + ∑ c : Fin 256, v16 (ix2 p c) * v23 (ix2 c o)) + ∑ c : Fin 256, v18 (ix2 p c) * v25 (ix2 c o))
          + v19 (ix1 o)) 0 := by
  unfold k1_pay1
  show max (((v26 (ix2 p o)
        + matmul (F := Ideal) dot_S1024x256_S256x256_S1024x256_1_0_0_1_n_n none v16 v23 (constant S1024x256 .f32 0x00000000#32) (ix2 p o))
        + matmul (F := Ideal) dot_S1024x256_S256x256_S1024x256_1_0_0_1_n_n none v18 v25 (constant S1024x256 .f32 0x00000000#32) (ix2 p o))
      + broadcastTo S1024x256 (shapeCast S1x256 v19 shapeCasts_S256_S1x256) broadcasts_S1x256_S1024x256 (ix2 p o))
      (Ideal.ofBits .f32 0x00000000#32) = _
  rw [mmA_apply, mmA_apply, biasRow_apply, Ideal.ofBits_zero_f32]

/-- The output block at (p, o) is the result formula of the block's rows, with the two aggregates over all 8192 rows. -/
theorem out1_8_apply (e1q e2q : Vec Ideal S1024x256 .bf16) (e1k e2k : Vec Ideal S8192x256 .bf16) (xk : Vec Ideal S8192x256 .f32)
    (xq : Vec Ideal S1024x256 .f32) (wout : Vec Ideal S768x256 .f32) (bout : Vec Ideal S256 .f32) (p : Fin 1024) (o : Fin 256) :
    out1_8 (F := Ideal) e1q e2q e1k e2k xk xq wout bout (ix2 p o)
      = out (cur2 xq) (agg scale (cur2 e1q) (cur2 e1k) (cur2 xk)) (agg scale (cur2 e2q) (cur2 e2k) (cur2 xk)) (cur2 wout) (cur1 bout) p o := by
  unfold out1_8
  rw [k1_pay1_apply]
  simp only [k1_pay11_apply, k1_pay7_apply, k1_pay8_apply, k1_pay9_apply, k1_pay10_apply, accA_apply, accB_apply]
  unfold out
  refine congrArg (max · 0) (congrArg (· + bout (ix1 o)) (congrArg₂ (· + ·) (congrArg₂ (· + ·) ?_ ?_) ?_))
  · exact Finset.sum_congr rfl fun c _ => congrArg (_ * ·) (wrows0_apply wout c o)
  · exact Finset.sum_congr rfl fun c _ => congrArg (_ * ·) (wrows1_apply wout c o)
  · exact Finset.sum_congr rfl fun c _ => congrArg (_ * ·) (wrows2_apply wout c o)

end Cert.KernelIdeal.Pay

end
-- ==== Proof.KIPay.lean ====
/-
  The kernels' payloads at the ideal values, entry by entry: the projection kernel's two output blocks and the
  message-passing kernel's output block, each as the mathematical formula of the blocks it reads.
-/
import proofs.«142857_j12214886990224_2_alg».proof.Proof.KIPay0
import proofs.«142857_j12214886990224_2_alg».proof.Proof.KIPay2
-- ==== Proof.KIVal0.lean ====
/-
  Region 0's two output arrays as whole-array functions of the argument arrays, at the extended reals.

  Output block t of the first output is relu(x_t·W₁ + b₁) with x_t rows 1024t … 1024t+1023 of the edge features, and
  relu(x·W + b) at a row depends on x only through that row; so block t is the restriction to those rows of the one function
  E1 = relu(x·W₁ + b₁) of the whole arrays. The eight blocks tile the 8192 rows (row r lies in block r / 1024), hence after the
  region the array holds E1. The second output likewise with W₂, b₂.
-/
import proofs.«142857_j12214886990224_2_alg».proof.Proof.KIDefs
import proofs.«142857_j12214886990224_2_alg».proof.Proof.KISpec
import proofs.«142857_j12214886990224_2_alg».proof.Proof.KIPay
import Idealize.ShloMosaic.Lib.Pipeline.Value
import Idealize.ShloMosaic.Lib.ValueIdx

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand Cert.Spec

variable (V : Entry Ideal) (c : Dev nD)

/-- A grid point of region 0 as a block number. -/
def pt0 (t : Fin cfg0.N) : Fin 8 := ⟨t.val, by have h : cfg0.N = 8 := N_0; have := t.isLt; omega⟩

/-- The printed index maps of region 0, decided over the grid: the three row-blocked windows sit at block `t`, every
    other window at its whole array. -/
theorem idx0 : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0 ∧ win0_4.index t (0 : Fin 1) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem iblk0_0_apply (t : Fin cfg0.N) (p : Fin 1024) (k : Fin 256) :
    iblk0 V c 0 t (ix2 p k) = V c main_arg0 (ix2 (brow (pt0 t) p) k) := by
  obtain ⟨e0, e1, -⟩ := idx0 t
  show V c main_arg0 (((cfg0.win 0).blk t).view.emb (ix2 p k)) = _
  refine congrArg _ ?_
  funext a; apply Fin.ext
  match a with
  | ⟨0, _⟩ => show win0_0.index t (0 : Fin 2) * 1024 + 1 * p.val = 1024 * t.val + p.val; omega
  | ⟨1, _⟩ => show win0_0.index t (1 : Fin 2) * 256 + 1 * k.val = k.val; omega

theorem iblk0_1_apply (t : Fin cfg0.N) (p : Fin 256) (k : Fin 256) :
    iblk0 V c 1 t (ix2 p k) = V c main_arg1 (ix2 p k) := by
  obtain ⟨-, -, e0, e1, -⟩ := idx0 t
  show V c main_arg1 (((cfg0.win 1).blk t).view.emb (ix2 p k)) = _
  refine congrArg _ ?_
  funext a; apply Fin.ext
  match a with
  | ⟨0, _⟩ => show win0_1.index t (0 : Fin 2) * 256 + 1 * p.val = p.val; omega
  | ⟨1, _⟩ => show win0_1.index t (1 : Fin 2) * 256 + 1 * k.val = k.val; omega

theorem iblk0_2_apply (t : Fin cfg0.N) (k : Fin 256) :
    iblk0 V c 2 t (ix1 k) = V c main_arg2 (ix1 k) := by
  obtain ⟨-, -, -, -, e0, -⟩ := idx0 t
  show V c main_arg2 (((cfg0.win 2).blk t).view.emb (ix1 k)) = _
  refine congrArg _ ?_
  funext a; apply Fin.ext
  match a with
  | ⟨0, _⟩ => show win0_2.index t (0 : Fin 1) * 256 + 1 * k.val = k.val; omega

theorem iblk0_3_apply (t : Fin cfg0.N) (p : Fin 256) (k : Fin 256) :
    iblk0 V c 3 t (ix2 p k) = V c main_arg3 (ix2 p k) := by
  obtain ⟨-, -, -, -, -, e0, e1, -⟩ := idx0 t
  show V c main_arg3 (((cfg0.win 3).blk t).view.emb (ix2 p k)) = _
  refine congrArg _ ?_
  funext a; apply Fin.ext
  match a with
  | ⟨0, _⟩ => show win0_3.index t (0 : Fin 2) * 256 + 1 * p.val = p.val; omega
  | ⟨1, _⟩ => show win0_3.index t (1 : Fin 2) * 256 + 1 * k.val = k.val; omega

theorem iblk0_4_apply (t : Fin cfg0.N) (k : Fin 256) :
    iblk0 V c 4 t (ix1 k) = V c main_arg4 (ix1 k) := by
  obtain ⟨-, -, -, -, -, -, -, e0, -⟩ := idx0 t
  show V c main_arg4 (((cfg0.win 4).blk t).view.emb (ix1 k)) = _
  refine congrArg _ ?_
  funext a; apply Fin.ext
  match a with
  | ⟨0, _⟩ => show win0_4.index t (0 : Fin 1) * 256 + 1 * k.val = k.val; omega

/-- Where an element of output block `t` sits in the output array (both outputs have the same layout). -/
theorem emb0_5 (t : Fin cfg0.N) (p : Fin 1024) (o : Fin 256) :
    ((cfg0.win 5).blk t).view.emb (ix2 p o) = ix2 (brow (pt0 t) p) o := by
  obtain ⟨-, -, -, -, -, -, -, -, e0, e1, -⟩ := idx0 t
  funext a; apply Fin.ext
  match a with
  | ⟨0, _⟩ => show win0_5.index t (0 : Fin 2) * 1024 + 1 * p.val = 1024 * t.val + p.val; omega
  | ⟨1, _⟩ => show win0_5.index t (1 : Fin 2) * 256 + 1 * o.val = o.val; omega
theorem emb0_6 (t : Fin cfg0.N) (p : Fin 1024) (o : Fin 256) :
    ((cfg0.win 6).blk t).view.emb (ix2 p o) = ix2 (brow (pt0 t) p) o := by
  obtain ⟨-, -, -, -, -, -, -, -, -, -, e0, e1⟩ := idx0 t
  funext a; apply Fin.ext
  match a with
  | ⟨0, _⟩ => show win0_6.index t (0 : Fin 2) * 1024 + 1 * p.val = 1024 * t.val + p.val; omega
  | ⟨1, _⟩ => show win0_6.index t (1 : Fin 2) * 256 + 1 * o.val = o.val; omega

/-- The first projection as one function of the argument arrays as region 0 finds them. -/
def E1 : S8192x256.Idx → Elt Ideal .bf16 := fun i =>
  proj (cur2 (V c main_arg0)) (cur2 (V c main_arg1)) (cur1 (V c main_arg2)) (i 0) (i 1)
/-- The second projection likewise. -/
def E2 : S8192x256.Idx → Elt Ideal .bf16 := fun i =>
  proj (cur2 (V c main_arg0)) (cur2 (V c main_arg3)) (cur1 (V c main_arg4)) (i 0) (i 1)

/-- What point `t` writes back into the first output is block `t` of `E1`. -/
theorem flushed0_5 (t : Fin cfg0.N) :
    (dat0 V c).flushed 5 t = ((cfg0.win 5).blk t).view.read (Elt Ideal) (E1 V c) := by
  show (cfg0.win 5).cut (grid0.coords t) ((dat0 V c).after 5 t) = _
  rw [after0_5]
  funext j
  obtain ⟨p, o, rfl⟩ : ∃ (p : Fin 1024) (o : Fin 256), j = ix2 p o := ⟨j 0, j 1, eq_ix2 j⟩
  show k0_pay2 (iblk0 V c 0 t) (iblk0 V c 1 t) (iblk0 V c 2 t) (ix2 p o) = E1 V c (((cfg0.win 5).blk t).view.emb (ix2 p o))
  rw [Pay.k0_pay2_apply, emb0_5]
  have h0 : cur2 (iblk0 V c 0 t) = fun p k => cur2 (V c main_arg0) (brow (pt0 t) p) k :=
    funext fun p => funext fun k => iblk0_0_apply V c t p k
  have h1 : cur2 (iblk0 V c 1 t) = cur2 (V c main_arg1) := funext fun p => funext fun k => iblk0_1_apply V c t p k
  have h2 : cur1 (iblk0 V c 2 t) = cur1 (V c main_arg2) := funext fun k => iblk0_2_apply V c t k
  rw [h0, h1, h2, proj_block]
  rfl

theorem flushed0_6 (t : Fin cfg0.N) :
    (dat0 V c).flushed 6 t = ((cfg0.win 6).blk t).view.read (Elt Ideal) (E2 V c) := by
  show (cfg0.win 6).cut (grid0.coords t) ((dat0 V c).after 6 t) = _
  rw [after0_6]
  funext j
  obtain ⟨p, o, rfl⟩ : ∃ (p : Fin 1024) (o : Fin 256), j = ix2 p o := ⟨j 0, j 1, eq_ix2 j⟩
  show k0_pay3 (iblk0 V c 0 t) (iblk0 V c 3 t) (iblk0 V c 4 t) (ix2 p o) = E2 V c (((cfg0.win 6).blk t).view.emb (ix2 p o))
  rw [Pay.k0_pay3_apply, emb0_6]
  have h0 : cur2 (iblk0 V c 0 t) = fun p k => cur2 (V c main_arg0) (brow (pt0 t) p) k :=
    funext fun p => funext fun k => iblk0_0_apply V c t p k
  have h1 : cur2 (iblk0 V c 3 t) = cur2 (V c main_arg3) := funext fun p => funext fun k => iblk0_3_apply V c t p k
  have h2 : cur1 (iblk0 V c 4 t) = cur1 (V c main_arg4) := funext fun k => iblk0_4_apply V c t k
  rw [h0, h1, h2, proj_block]
  rfl

/-- An index of the output array is in point `t`'s block iff each coordinate is in the block's range. -/
theorem mem_blk0_5 (t : Fin cfg0.N) (i : S8192x256.Idx) :
    i ∈ ((cfg0.win 5).blk t).view.set ↔ ∀ a : Fin 2, win0_5.index t a * S1024x256.size a ≤ (i a).val ∧ (i a).val < win0_5.index t a * S1024x256.size a + S1024x256.size a := by
  show i ∈ ((View.whole main_v0_0).slice (win0_5.rect t)).set ↔ _
  rw [View.set_slice_whole, Rect.mem_set_unit]
  exact Iff.rfl
theorem mem_blk0_6 (t : Fin cfg0.N) (i : S8192x256.Idx) :
    i ∈ ((cfg0.win 6).blk t).view.set ↔ ∀ a : Fin 2, win0_6.index t a * S1024x256.size a ≤ (i a).val ∧ (i a).val < win0_6.index t a * S1024x256.size a + S1024x256.size a := by
  show i ∈ ((View.whole main_v0_1).slice (win0_6.rect t)).set ↔ _
  rw [View.set_slice_whole, Rect.mem_set_unit]
  exact Iff.rfl

/-- Row `r` of the output lies in the block of point `r / 1024`. -/
theorem cover0_5 (i : S8192x256.Idx) : ∃ t : Fin cfg0.N, (cfg0.win 5).flush t = true ∧ i ∈ ((cfg0.win 5).blk t).view.set := by
  have hi0 : (i 0).val < 8192 := (i 0).isLt
  have hi1 : (i 1).val < 256 := (i 1).isLt
  have hN : cfg0.N = 8 := N_0
  refine ⟨⟨(i 0).val / 1024, by omega⟩, flush0_5 _, ?_⟩
  rw [mem_blk0_5]
  obtain ⟨-, -, -, -, -, -, -, -, e0, e1, -⟩ := idx0 ⟨(i 0).val / 1024, by omega⟩
  intro a
  match a with
  | ⟨0, _⟩ => show win0_5.index _ (0 : Fin 2) * 1024 ≤ (i 0).val ∧ (i 0).val < win0_5.index _ (0 : Fin 2) * 1024 + 1024; rw [e0]; show (i 0).val / 1024 * 1024 ≤ _ ∧ _ < (i 0).val / 1024 * 1024 + 1024; omega
  | ⟨1, _⟩ => show win0_5.index _ (1 : Fin 2) * 256 ≤ (i 1).val ∧ (i 1).val < win0_5.index _ (1 : Fin 2) * 256 + 256; rw [e1]; omega
theorem cover0_6 (i : S8192x256.Idx) : ∃ t : Fin cfg0.N, (cfg0.win 6).flush t = true ∧ i ∈ ((cfg0.win 6).blk t).view.set := by
  have hi0 : (i 0).val < 8192 := (i 0).isLt
  have hi1 : (i 1).val < 256 := (i 1).isLt
  have hN : cfg0.N = 8 := N_0
  refine ⟨⟨(i 0).val / 1024, by omega⟩, flush0_6 _, ?_⟩
  rw [mem_blk0_6]
  obtain ⟨-, -, -, -, -, -, -, -, -, -, e0, e1⟩ := idx0 ⟨(i 0).val / 1024, by omega⟩
  intro a
  match a with
  | ⟨0, _⟩ => show win0_6.index _ (0 : Fin 2) * 1024 ≤ (i 0).val ∧ (i 0).val < win0_6.index _ (0 : Fin 2) * 1024 + 1024; rw [e0]; show (i 0).val / 1024 * 1024 ≤ _ ∧ _ < (i 0).val / 1024 * 1024 + 1024; omega
  | ⟨1, _⟩ => show win0_6.index _ (1 : Fin 2) * 256 ≤ (i 1).val ∧ (i 1).val < win0_6.index _ (1 : Fin 2) * 256 + 256; rw [e1]; omega

/-- After region 0 its two output arrays hold the two projections of the argument arrays. -/
theorem final0_5 : (dat0 V c).arrAt 5 cfg0.N = E1 V c :=
  (dat0 V c).arrAt_eq_of_cover 5 (E1 V c) (fun t _ => flushed0_5 V c t) cover0_5
theorem final0_6 : (dat0 V c).arrAt 6 cfg0.N = E2 V c :=
  (dat0 V c).arrAt_eq_of_cover 6 (E2 V c) (fun t _ => flushed0_6 V c t) cover0_6

end Cert.KernelIdeal.Val

end
-- ==== Proof.KIVal1.lean ====
/-
  Region 1's output array as one function of the arrays the region is entered with, at the extended reals.

  At point t the body leaves relu(x_q·W⁰ + agg₁·W¹ + agg₂·W² + b) for the rows 1024t … 1024t+1023, where the aggregates sum over
  ALL 8192 rows j the similarity of row i of a projection with its row j times the scaled feature x(j,d). Each term depends on
  the row-blocked operands only through the row, so block t is the restriction of the whole-array function R; the eight blocks
  tile the rows, hence after the region the array holds R.
-/
import proofs.«142857_j12214886990224_2_alg».proof.Proof.KIDefs
import proofs.«142857_j12214886990224_2_alg».proof.Proof.KISpec
import proofs.«142857_j12214886990224_2_alg».proof.Proof.KIPay
import Idealize.ShloMosaic.Lib.Pipeline.Value
import Idealize.ShloMosaic.Lib.ValueIdx

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand Cert.Spec

variable (V : Entry Ideal) (c : Dev nD)

/-- A grid point of region 1 as a block number. -/
def pt1 (t : Fin cfg1.N) : Fin 8 := ⟨t.val, by have h : cfg1.N = 8 := N_1; have := t.isLt; omega⟩

/-- The printed index maps of region 1, decided over the grid: the four row-blocked windows sit at block `t`, every
    other window at its whole array. -/
theorem idx1 : ∀ t : Fin cfg1.N, (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = t.val ∧ win1_5.index t (1 : Fin 2) = 0)
    ∧ (win1_6.index t (0 : Fin 2) = 0 ∧ win1_6.index t (1 : Fin 2) = 0)
    ∧ win1_7.index t (0 : Fin 1) = 0
    ∧ (win1_8.index t (0 : Fin 2) = t.val ∧ win1_8.index t (1 : Fin 2) = 0) :=
  (by decide +kernel : ∀ t : Fin grid1.N, _)

theorem iblk1_0_apply (t : Fin cfg1.N) (p : Fin 1024) (k : Fin 256) :
    iblk1 V c 0 t (ix2 p k) = V c main_v0_0 (ix2 (brow (pt1 t) p) k) := by
  obtain ⟨e0, e1⟩ := (idx1 t).1
  show V c main_v0_0 (((cfg1.win 0).blk t).view.emb (ix2 p k)) = _
  refine congrArg _ ?_
  funext a; apply Fin.ext
  match a with
  | ⟨0, _⟩ => show win1_0.index t (0 : Fin 2) * 1024 + 1 * p.val = 1024 * t.val + p.val; omega
  | ⟨1, _⟩ => show win1_0.index t (1 : Fin 2) * 256 + 1 * k.val = k.val; omega

theorem iblk1_1_apply (t : Fin cfg1.N) (p : Fin 1024) (k : Fin 256) :
    iblk1 V c 1 t (ix2 p k) = V c main_v0_1 (ix2 (brow (pt1 t) p) k) := by
  obtain ⟨e0, e1⟩ := (idx1 t).2.1
  show V c main_v0_1 (((cfg1.win 1).blk t).view.emb (ix2 p k)) = _
  refine congrArg _ ?_
  funext a; apply Fin.ext
  match a with
  | ⟨0, _⟩ => show win1_1.index t (0 : Fin 2) * 1024 + 1 * p.val = 1024 * t.val + p.val; omega
  | ⟨1, _⟩ => show win1_1.index t (1 : Fin 2) * 256 + 1 * k.val = k.val; omega

theorem iblk1_2_apply (t : Fin cfg1.N) (p : Fin 8192) (k : Fin 256) :
    iblk1 V c 2 t (ix2 p k) = V c main_v0_0 (ix2 p k) := by
  obtain ⟨e0, e1⟩ := (idx1 t).2.2.1
  show V c main_v0_0 (((cfg1.win 2).blk t).view.emb (ix2 p k)) = _
  refine congrArg _ ?_
  funext a; apply Fin.ext
  match a with
  | ⟨0, _⟩ => show win1_2.index t (0 : Fin 2) * 8192 + 1 * p.val = p.val; omega
  | ⟨1, _⟩ => show win1_2.index t (1 : Fin 2) * 256 + 1 * k.val = k.val; omega

theorem iblk1_3_apply (t : Fin cfg1.N) (p : Fin 8192) (k : Fin 256) :
    iblk1 V c 3 t (ix2 p k) = V c main_v0_1 (ix2 p k) := by
  obtain ⟨e0, e1⟩ := (idx1 t).2.2.2.1
  show V c main_v0_1 (((cfg1.win 3).blk t).view.emb (ix2 p k)) = _
  refine congrArg _ ?_
  funext a; apply Fin.ext
  match a with
  | ⟨0, _⟩ => show win1_3.index t (0 : Fin 2) * 8192 + 1 * p.val = p.val; omega
  | ⟨1, _⟩ => show win1_3.index t (1 : Fin 2) * 256 + 1 * k.val = k.val; omega

theorem iblk1_4_apply (t : Fin cfg1.N) (p : Fin 8192) (k : Fin 256) :
    iblk1 V c 4 t (ix2 p k) = V c main_arg0 (ix2 p k) := by
  obtain ⟨e0, e1⟩ := (idx1 t).2.2.2.2.1
  show V c main_arg0 (((cfg1.win 4).blk t).view.emb (ix2 p k)) = _
  refine congrArg _ ?_
  funext a; apply Fin.ext
  match a with
  | ⟨0, _⟩ => show win1_4.index t (0 : Fin 2) * 8192 + 1 * p.val = p.val; omega
  | ⟨1, _⟩ => show win1_4.index t (1 : Fin 2) * 256 + 1 * k.val = k.val; omega

theorem iblk1_5_apply (t : Fin cfg1.N) (p : Fin 1024) (k : Fin 256) :
    iblk1 V c 5 t (ix2 p k) = V c main_arg0 (ix2 (brow (pt1 t) p) k) := by
  obtain ⟨e0, e1⟩ := (idx1 t).2.2.2.2.2.1
  show V c main_arg0 (((cfg1.win 5).blk t).view.emb (ix2 p k)) = _
  refine congrArg _ ?_
  funext a; apply Fin.ext
  match a with
  | ⟨0, _⟩ => show win1_5.index t (0 : Fin 2) * 1024 + 1 * p.val = 1024 * t.val + p.val; omega
  | ⟨1, _⟩ => show win1_5.index t (1 : Fin 2) * 256 + 1 * k.val = k.val; omega

theorem iblk1_6_apply (t : Fin cfg1.N) (p : Fin 768) (k : Fin 256) :
    iblk1 V c 6 t (ix2 p k) = V c main_arg5 (ix2 p k) := by
  obtain ⟨e0, e1⟩ := (idx1 t).2.2.2.2.2.2.1
  show V c main_arg5 (((cfg1.win 6).blk t).view.emb (ix2 p k)) = _
  refine congrArg _ ?_
  funext a; apply Fin.ext
  match a with
  | ⟨0, _⟩ => show win1_6.index t (0 : Fin 2) * 768 + 1 * p.val = p.val; omega
  | ⟨1, _⟩ => show win1_6.index t (1 : Fin 2) * 256 + 1 * k.val = k.val; omega

theorem iblk1_7_apply (t : Fin cfg1.N) (k : Fin 256) :
    iblk1 V c 7 t (ix1 k) = V c main_arg6 (ix1 k) := by
  have e0 := (idx1 t).2.2.2.2.2.2.2.1
  show V c main_arg6 (((cfg1.win 7).blk t).view.emb (ix1 k)) = _
  refine congrArg _ ?_
  funext a; apply Fin.ext
  match a with
  | ⟨0, _⟩ => show win1_7.index t (0 : Fin 1) * 256 + 1 * k.val = k.val; omega

/-- Where an element of output block `t` sits in the output array. -/
theorem emb1_8 (t : Fin cfg1.N) (p : Fin 1024) (o : Fin 256) :
    ((cfg1.win 8).blk t).view.emb (ix2 p o) = ix2 (brow (pt1 t) p) o := by
  obtain ⟨e0, e1⟩ := (idx1 t).2.2.2.2.2.2.2.2
  funext a; apply Fin.ext
  match a with
  | ⟨0, _⟩ => show win1_8.index t (0 : Fin 2) * 1024 + 1 * p.val = 1024 * t.val + p.val; omega
  | ⟨1, _⟩ => show win1_8.index t (1 : Fin 2) * 256 + 1 * o.val = o.val; omega

/-- The result as one function of the arrays as region 1 finds them: the edge features, the two projections, the
    output weights and bias. -/
def R : S8192x256.Idx → Elt Ideal .f32 := fun i =>
  out (cur2 (V c main_arg0))
    (agg Pay.scale (cur2 (V c main_v0_0)) (cur2 (V c main_v0_0)) (cur2 (V c main_arg0)))
    (agg Pay.scale (cur2 (V c main_v0_1)) (cur2 (V c main_v0_1)) (cur2 (V c main_arg0)))
    (cur2 (V c main_arg5)) (cur1 (V c main_arg6)) (i 0) (i 1)

/-- What point `t` writes back is block `t` of `R`. -/
theorem flushed1_8 (t : Fin cfg1.N) :
    (dat1 V c).flushed 8 t = ((cfg1.win 8).blk t).view.read (Elt Ideal) (R V c) := by
  show (cfg1.win 8).cut (grid1.coords t) ((dat1 V c).after 8 t) = _
  rw [after1_8]
  funext j
  obtain ⟨p, o, rfl⟩ : ∃ (p : Fin 1024) (o : Fin 256), j = ix2 p o := ⟨j 0, j 1, eq_ix2 j⟩
  show out1_8 (iblk1 V c 0 t) (iblk1 V c 1 t) (iblk1 V c 2 t) (iblk1 V c 3 t) (iblk1 V c 4 t) (iblk1 V c 5 t) (iblk1 V c 6 t) (iblk1 V c 7 t) (ix2 p o)
    = R V c (((cfg1.win 8).blk t).view.emb (ix2 p o))
  rw [Pay.out1_8_apply, emb1_8]
  have h0 : cur2 (iblk1 V c 0 t) = fun p k => cur2 (V c main_v0_0) (brow (pt1 t) p) k :=
    funext fun p => funext fun k => iblk1_0_apply V c t p k
  have h1 : cur2 (iblk1 V c 1 t) = fun p k => cur2 (V c main_v0_1) (brow (pt1 t) p) k :=
    funext fun p => funext fun k => iblk1_1_apply V c t p k
  have h2 : cur2 (iblk1 V c 2 t) = cur2 (V c main_v0_0) := funext fun p => funext fun k => iblk1_2_apply V c t p k
  have h3 : cur2 (iblk1 V c 3 t) = cur2 (V c main_v0_1) := funext fun p => funext fun k => iblk1_3_apply V c t p k
  have h4 : cur2 (iblk1 V c 4 t) = cur2 (V c main_arg0) := funext fun p => funext fun k => iblk1_4_apply V c t p k
  have h5 : cur2 (iblk1 V c 5 t) = fun p k => cur2 (V c main_arg0) (brow (pt1 t) p) k :=
    funext fun p => funext fun k => iblk1_5_apply V c t p k
  have h6 : cur2 (iblk1 V c 6 t) = cur2 (V c main_arg5) := funext fun p => funext fun k => iblk1_6_apply V c t p k
  have h7 : cur1 (iblk1 V c 7 t) = cur1 (V c main_arg6) := funext fun k => iblk1_7_apply V c t k
  rw [h0, h1, h2, h3, h4, h5, h6, h7]
  rfl

/-- An index of the output array is in point `t`'s block iff each coordinate is in the block's range. -/
theorem mem_blk1_8 (t : Fin cfg1.N) (i : S8192x256.Idx) :
    i ∈ ((cfg1.win 8).blk t).view.set ↔ ∀ a : Fin 2, win1_8.index t a * S1024x256.size a ≤ (i a).val ∧ (i a).val < win1_8.index t a * S1024x256.size a + S1024x256.size a := by
  show i ∈ ((View.whole main_v1).slice (win1_8.rect t)).set ↔ _
  rw [View.set_slice_whole, Rect.mem_set_unit]
  exact Iff.rfl

/-- Row `r` of the output lies in the block of point `r / 1024`. -/
theorem cover1_8 (i : S8192x256.Idx) : ∃ t : Fin cfg1.N, (cfg1.win 8).flush t = true ∧ i ∈ ((cfg1.win 8).blk t).view.set := by
  have hi0 : (i 0).val < 8192 := (i 0).isLt
  have hi1 : (i 1).val < 256 := (i 1).isLt
  have hN : cfg1.N = 8 := N_1
  refine ⟨⟨(i 0).val / 1024, by omega⟩, flush1_8 _, ?_⟩
  rw [mem_blk1_8]
  obtain ⟨e0, e1⟩ := (idx1 ⟨(i 0).val / 1024, by omega⟩).2.2.2.2.2.2.2.2
  intro a
  match a with
  | ⟨0, _⟩ => show win1_8.index _ (0 : Fin 2) * 1024 ≤ (i 0).val ∧ (i 0).val < win1_8.index _ (0 : Fin 2) * 1024 + 1024; rw [e0]; show (i 0).val / 1024 * 1024 ≤ _ ∧ _ < (i 0).val / 1024 * 1024 + 1024; omega
  | ⟨1, _⟩ => show win1_8.index _ (1 : Fin 2) * 256 ≤ (i 1).val ∧ (i 1).val < win1_8.index _ (1 : Fin 2) * 256 + 256; rw [e1]; omega

/-- After region 1 its output array holds `R` of the arrays the region was entered with. -/
theorem final1_8 : (dat1 V c).arrAt 8 cfg1.N = R V c :=
  (dat1 V c).arrAt_eq_of_cover 8 (R V c) (fun t _ => flushed1_8 V c t) cover1_8

end Cert.KernelIdeal.Val

end
-- ==== Proof.KIFinal.lean ====
/-
  The idealized kernel's result as one function of its seven argument arrays, at the extended reals.

  Region 1 leaves R of the arrays it is entered with; of those, the two projections are what region 0 left, the two
  functions E1, E2 of the launch arrays, and the edge features, output weights and bias are the launch arrays themselves.
  Substituting gives the specification's `result` of the seven launch arrays with the kernel's scale 2⁻⁸.
-/
import proofs.«142857_j12214886990224_2_alg».proof.Proof.KIRun
import proofs.«142857_j12214886990224_2_alg».proof.Proof.KIVal0
import proofs.«142857_j12214886990224_2_alg».proof.Proof.KIVal1

noncomputable section

namespace Cert.KernelIdeal.Val

open Idealize.ShloMosaic Idealize.ShloMosaic.TcCoe Idealize.ShloMosaic.ValueIdx
open Idealize.SL Idealize.SL.Sem
open Cert.KernelIdeal Cert.KernelIdeal.Gen Cert.KernelIdeal.Hand Cert.Spec

variable (m : (ℓ : Loc nD τ sig) → Buf (Elt Ideal) ℓ) (ρ : Dev nD → PrngReg)

/-- The specification's result of the launch memory's seven argument arrays on core `c`. -/
def G (c : Dev nD) : S8192x256.Idx → Elt Ideal .f32 := fun i =>
  result Pay.scale (cur2 (m ((c : Thread nD τ).loc main_arg0))) (cur2 (m ((c : Thread nD τ).loc main_arg1))) (cur1 (m ((c : Thread nD τ).loc main_arg2)))
    (cur2 (m ((c : Thread nD τ).loc main_arg3))) (cur1 (m ((c : Thread nD τ).loc main_arg4)))
    (cur2 (m ((c : Thread nD τ).loc main_arg5))) (cur1 (m ((c : Thread nD τ).loc main_arg6))) (i 0) (i 1)

/-- After the two regions the result array holds `G`. -/
theorem final (c : Dev nD) : (dat1 (entry1 m) c).arrAt 8 cfg1.N = G m c := by
  rw [final1_8]
  unfold R G result
  rw [entry1_main_v0_0, entry1_main_v0_1, entry1_main_arg0, entry1_main_arg5, entry1_main_arg6, final0_5, final0_6]
  rfl

/-- The idealized kernel runs, its result array ends at `G` and its arguments end unchanged. -/
theorem run : θ_run defs (onTc (τ := τ) (main (F := Ideal))) ⟨m, fun _ => 0, ρ⟩ (fun r => ∀ c : Dev nD,
      r.2.mem ((c.tc : Thread nD τ).loc main_v1) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (final m c), (h c).2⟩) (run_main (F := Ideal) m ρ)

end Cert.KernelIdeal.Val

end
-- ==== Proof.KIRefProj.lean ====
/-
  The reference's two projections at an index.

  Each projection is a matrix product of the features with a weight matrix, plus a bias broadcast along the rows,
  clamped below at zero. Read entry by entry it is the specification's `proj`.
-/
import proofs.«142857_j12214886990224_2_alg».proof.Proof.Gen.ReferenceIdeal.Read
import proofs.«142857_j12214886990224_2_alg».proof.Proof.KISpec

noncomputable section

namespace Cert.ReferenceIdeal.RefValue

open Cert.Spec Idealize.ShloMosaic Idealize.ShloMosaic.ValueIdx Cert.ReferenceIdeal Cert.ReferenceIdeal.Read

/-- The left operand of a product with 256 contracted columns is read at (row, k). -/
theorem lidx_proj (a : Fin 8192) (o : Fin 256) (k : Fin 256) : lidx_main_v0 (ix2 a o) k = ix2 a k :=
  funext fun c => Fin.ext (by match c with | ⟨0, _⟩ => rfl | ⟨1, _⟩ => rfl)

/-- The right operand is read at (k, column). -/
theorem ridx_proj (a : Fin 8192) (o : Fin 256) (k : Fin 256) : ridx_main_v0 (ix2 a o) k = ix2 k o :=
  funext fun c => Fin.ext (by match c with | ⟨0, _⟩ => rfl | ⟨1, _⟩ => rfl)

/-- The bias, broadcast twice, is read at the column. -/
theorem idx_bias (a : Fin 8192) (o : Fin 256) : idx_main_v1 (idx_main_v2 (ix2 a o)) = ix1 o :=
  funext fun c => Fin.ext (by match c with | ⟨0, _⟩ => rfl)

/-- The same three readings for the second projection's operations. -/
theorem lidx_proj2 (a : Fin 8192) (o : Fin 256) (k : Fin 256) : lidx_main_v9 (ix2 a o) k = ix2 a k :=
  funext fun c => Fin.ext (by match c with | ⟨0, _⟩ => rfl | ⟨1, _⟩ => rfl)

theorem ridx_proj2 (a : Fin 8192) (o : Fin 256) (k : Fin 256) : ridx_main_v9 (ix2 a o) k = ix2 k o :=
  funext fun c => Fin.ext (by match c with | ⟨0, _⟩ => rfl | ⟨1, _⟩ => rfl)

theorem idx_bias2 (a : Fin 8192) (o : Fin 256) : idx_main_v10 (idx_main_v11 (ix2 a o)) = ix1 o :=
  funext fun c => Fin.ext (by match c with | ⟨0, _⟩ => rfl)

/-- The first projection at (a, o). -/
theorem e1_apply (x0 : (⟨S8192x256, .f32⟩ : BufTy).Contents (Elt Ideal)) (x1 : (⟨S256x256, .f32⟩ : BufTy).Contents (Elt Ideal))
    (x2 : (⟨S256, .f32⟩ : BufTy).Contents (Elt Ideal)) (a : Fin 8192) (o : Fin 256) :
    val_main_v4 (F := Ideal) x0 x1 x2 (ix2 a o) = proj (cur2 x0) (cur2 x1) (cur1 x2) a o := by
  rw [val_main_v4_apply, val_main_v3_apply, val_main_v0_apply, val_main_v2_apply, val_main_v1_apply,
    val_main_call0_v0_apply, val_main_call0_cst_apply]
  simp only [Ideal.maximumf_def, Ideal.addf_def, Ideal.ofBits_def, Ideal.ofBits_zero_f32, lidx_proj, ridx_proj, idx_bias]
  rfl

/-- The second projection at (a, o). -/
theorem e2_apply (x0 : (⟨S8192x256, .f32⟩ : BufTy).Contents (Elt Ideal)) (x3 : (⟨S256x256, .f32⟩ : BufTy).Contents (Elt Ideal))
    (x4 : (⟨S256, .f32⟩ : BufTy).Contents (Elt Ideal)) (a : Fin 8192) (o : Fin 256) :
    val_main_v13 (F := Ideal) x0 x3 x4 (ix2 a o) = proj (cur2 x0) (cur2 x3) (cur1 x4) a o := by
  rw [val_main_v13_apply, val_main_v12_apply, val_main_v9_apply, val_main_v11_apply, val_main_v10_apply,
    val_main_call1_v0_apply, val_main_call1_cst_apply]
  simp only [Ideal.maximumf_def, Ideal.addf_def, Ideal.ofBits_def, Ideal.ofBits_zero_f32, lidx_proj2, ridx_proj2, idx_bias2]
  rfl

end Cert.ReferenceIdeal.RefValue

end
-- ==== Proof.KIRefConsts.lean ====
/-
  The two float constants joining the two programs, as the extended reals their words denote.

  The reference divides a similarity by the word of 256.0; the other program multiplies a feature by the word of 2⁻⁸.
  Both words denote reals, one the reciprocal of the other, so dividing by the first is multiplying by the second.
-/
import Idealize.ShloMosaic.PureOps.Ideal
import Idealize.ShloMosaic.PureOps.Ideal.Laws

noncomputable section

namespace Cert.ReferenceIdeal.RefValue

open Idealize.ShloMosaic

/-- The word of `256.0` denotes the real 256. -/
theorem ofBits_256 : Ideal.ofBits .f32 0x43800000#32 = ((256 : ℝ) : EReal) := by
  simp [Ideal.ofBits, Ideal.ieee, -EReal.coe_mul]; norm_num

/-- The word of `2⁻⁸` denotes the real 1/256. -/
theorem ofBits_inv256 : Ideal.ofBits .f32 0x3B800000#32 = ((1 / 256 : ℝ) : EReal) := by
  simp [Ideal.ofBits, Ideal.ieee, -EReal.coe_mul]; norm_num

/-- Dividing by the word of 256.0 is multiplying by the word of 2⁻⁸. -/
theorem div_256 (x : EReal) :
    Ideal.div x (Ideal.ofBits .f32 0x43800000#32) = x * Ideal.ofBits .f32 0x3B800000#32 := by
  rw [ofBits_256, ofBits_inv256]
  exact Ideal.div_coe (by norm_num) x

end Cert.ReferenceIdeal.RefValue

end
-- ==== Proof.KIRefAgg.lean ====
/-
  The reference's scaled similarities and aggregates at an index.

  The similarity of rows a and j is the product of a projection with its own transpose, Σ_c e(a,c)·e(j,c), divided by
  256, which is the product with 2⁻⁸. The aggregate contracts the scaled similarity with the features over all rows:
  Σ_j (sim(a,j)·s)·x(j,d) = Σ_j sim(a,j)·(x(j,d)·s), by associativity and commutativity of the product alone.
-/
import proofs.«142857_j12214886990224_2_alg».proof.Proof.KIRefProj
import proofs.«142857_j12214886990224_2_alg».proof.Proof.KIRefConsts

noncomputable section

namespace Cert.ReferenceIdeal.RefValue

open Cert.Spec Idealize.ShloMosaic Idealize.ShloMosaic.ValueIdx Cert.ReferenceIdeal Cert.ReferenceIdeal.Read

/-- The scale: the word of 2⁻⁸. -/
abbrev scale : EReal := Ideal.ofBits .f32 0x3B800000#32

/-! ### Where the similarity product reads its operands -/

theorem lidx_sim1 (a j : Fin 8192) (k : Fin 256) : lidx_main_v6 (ix2 a j) k = ix2 a k :=
  funext fun c => Fin.ext (by match c with | ⟨0, _⟩ => rfl | ⟨1, _⟩ => rfl)

theorem ridx_sim1 (a j : Fin 8192) (k : Fin 256) : idx_main_v5 (ridx_main_v6 (ix2 a j) k) = ix2 j k :=
  funext fun c => Fin.ext (by match c with | ⟨0, _⟩ => rfl | ⟨1, _⟩ => rfl)

theorem lidx_sim2 (a j : Fin 8192) (k : Fin 256) : lidx_main_v15 (ix2 a j) k = ix2 a k :=
  funext fun c => Fin.ext (by match c with | ⟨0, _⟩ => rfl | ⟨1, _⟩ => rfl)

theorem ridx_sim2 (a j : Fin 8192) (k : Fin 256) : idx_main_v14 (ridx_main_v15 (ix2 a j) k) = ix2 j k :=
  funext fun c => Fin.ext (by match c with | ⟨0, _⟩ => rfl | ⟨1, _⟩ => rfl)

/-- The first scaled similarity at (a, j). -/
theorem s1_apply (x0 : (⟨S8192x256, .f32⟩ : BufTy).Contents (Elt Ideal)) (x1 : (⟨S256x256, .f32⟩ : BufTy).Contents (Elt Ideal))
    (x2 : (⟨S256, .f32⟩ : BufTy).Contents (Elt Ideal)) (a j : Fin 8192) :
    val_main_v8 (F := Ideal) x0 x1 x2 (ix2 a j)
      = sim (proj (cur2 x0) (cur2 x1) (cur1 x2)) (proj (cur2 x0) (cur2 x1) (cur1 x2)) a j * scale := by
  rw [val_main_v8_apply, val_main_v6_apply, val_main_v7_apply, val_main_cst_apply]
  simp only [Ideal.hostDivf_def, Ideal.ofBits_def, div_256]
  refine congrArg (· * scale) ?_
  unfold sim
  refine Finset.sum_congr rfl fun k _ => ?_
  rw [val_main_v5_apply, lidx_sim1, ridx_sim1, e1_apply, e1_apply]

/-- The second scaled similarity at (a, j). -/
theorem s2_apply (x0 : (⟨S8192x256, .f32⟩ : BufTy).Contents (Elt Ideal)) (x3 : (⟨S256x256, .f32⟩ : BufTy).Contents (Elt Ideal))
    (x4 : (⟨S256, .f32⟩ : BufTy).Contents (Elt Ideal)) (a j : Fin 8192) :
    val_main_v17 (F := Ideal) x0 x3 x4 (ix2 a j)
      = sim (proj (cur2 x0) (cur2 x3) (cur1 x4)) (proj (cur2 x0) (cur2 x3) (cur1 x4)) a j * scale := by
  rw [val_main_v17_apply, val_main_v15_apply, val_main_v16_apply, val_main_cst_0_apply]
  simp only [Ideal.hostDivf_def, Ideal.ofBits_def, div_256]
  refine congrArg (· * scale) ?_
  unfold sim
  refine Finset.sum_congr rfl fun k _ => ?_
  rw [val_main_v14_apply, lidx_sim2, ridx_sim2, e2_apply, e2_apply]

/-! ### Where the aggregate product reads its operands -/

theorem lidx_agg1 (a : Fin 8192) (d : Fin 256) (k : Fin 8192) : lidx_main_v18 (ix2 a d) k = ix2 a k :=
  funext fun c => Fin.ext (by match c with | ⟨0, _⟩ => rfl | ⟨1, _⟩ => rfl)

theorem ridx_agg1 (a : Fin 8192) (d : Fin 256) (k : Fin 8192) : ridx_main_v18 (ix2 a d) k = ix2 k d :=
  funext fun c => Fin.ext (by match c with | ⟨0, _⟩ => rfl | ⟨1, _⟩ => rfl)

theorem lidx_agg2 (a : Fin 8192) (d : Fin 256) (k : Fin 8192) : lidx_main_v19 (ix2 a d) k = ix2 a k :=
  funext fun c => Fin.ext (by match c with | ⟨0, _⟩ => rfl | ⟨1, _⟩ => rfl)

theorem ridx_agg2 (a : Fin 8192) (d : Fin 256) (k : Fin 8192) : ridx_main_v19 (ix2 a d) k = ix2 k d :=
  funext fun c => Fin.ext (by match c with | ⟨0, _⟩ => rfl | ⟨1, _⟩ => rfl)

/-- (S·c)·x = S·(x·c): the scale moves from the similarity to the feature. -/
theorem scale_move (S c x : EReal) : S * c * x = S * (x * c) := by
  rw [mul_assoc, mul_comm c x]

/-- The first aggregate at (a, d). -/
theorem agg1_apply (x0 : (⟨S8192x256, .f32⟩ : BufTy).Contents (Elt Ideal)) (x1 : (⟨S256x256, .f32⟩ : BufTy).Contents (Elt Ideal))
    (x2 : (⟨S256, .f32⟩ : BufTy).Contents (Elt Ideal)) (a : Fin 8192) (d : Fin 256) :
    val_main_v18 (F := Ideal) x0 x1 x2 (ix2 a d)
      = agg scale (proj (cur2 x0) (cur2 x1) (cur1 x2)) (proj (cur2 x0) (cur2 x1) (cur1 x2)) (cur2 x0) a d := by
  rw [val_main_v18_apply]
  unfold agg
  refine Finset.sum_congr rfl fun k _ => ?_
  rw [lidx_agg1, ridx_agg1, s1_apply, scale_move]

/-- The second aggregate at (a, d). -/
theorem agg2_apply (x0 : (⟨S8192x256, .f32⟩ : BufTy).Contents (Elt Ideal)) (x3 : (⟨S256x256, .f32⟩ : BufTy).Contents (Elt Ideal))
    (x4 : (⟨S256, .f32⟩ : BufTy).Contents (Elt Ideal)) (a : Fin 8192) (d : Fin 256) :
    val_main_v19 (F := Ideal) x0 x3 x4 (ix2 a d)
      = agg scale (proj (cur2 x0) (cur2 x3) (cur1 x4)) (proj (cur2 x0) (cur2 x3) (cur1 x4)) (cur2 x0) a d := by
  rw [val_main_v19_apply]
  unfold agg
  refine Finset.sum_congr rfl fun k _ => ?_
  rw [lidx_agg2, ridx_agg2, s2_apply, scale_move]

end Cert.ReferenceIdeal.RefValue

end
-- ==== Proof.KIRefOut.lean ====
/-
  The reference's result at an index, and the reference as the specification's function of its arguments.

  The joined array h = [x, agg₁, agg₂] has 768 columns; column 256·t + c is column c of operand t. The last product
  contracts those 768 columns against the output weights; a sum over the 768 columns is the sum of the three sums over
  256 columns each, in the order the specification adds them. Adding the bias and clamping below at zero is the
  specification's `out`.
-/
import proofs.«142857_j12214886990224_2_alg».proof.Proof.KIRefAgg

noncomputable section

namespace Cert.ReferenceIdeal.RefValue

open Cert.Spec Idealize.ShloMosaic Idealize.ShloMosaic.ValueIdx Cert.ReferenceIdeal Cert.ReferenceIdeal.Read

/-! ### Columns of the joined array -/

theorem wrow0_val (c : Fin 256) : (wrow 0 c).val = c.val := by
  show 256 * 0 + c.val = c.val; omega

theorem wrow1_val (c : Fin 256) : (wrow 1 c).val = 256 + c.val := by
  show 256 * 1 + c.val = 256 + c.val; omega

theorem wrow2_val (c : Fin 256) : (wrow 2 c).val = 512 + c.val := by
  show 256 * 2 + c.val = 512 + c.val; omega

/-- A sum over the 768 joined columns is the sum of the three sums over 256 columns. -/
theorem sum_three {M : Type} [AddCommMonoid M] (f : Fin 768 → M) :
    ∑ k, f k = ((∑ c : Fin 256, f (wrow 0 c)) + ∑ c : Fin 256, f (wrow 1 c)) + ∑ c : Fin 256, f (wrow 2 c) := by
  have h1 := Fin.sum_univ_add (a := 256) (b := 256 + 256) (M := M) f
  have h2 := Fin.sum_univ_add (a := 256) (b := 256) (M := M) (fun i => f (Fin.natAdd 256 i))
  rw [h2] at h1
  refine (h1.trans (add_assoc _ _ _).symm).trans ?_
  have e0 : ∀ c : Fin 256, f (Fin.castAdd (256 + 256) c) = f (wrow 0 c) := fun c =>
    congrArg f (Fin.ext (by rw [wrow0_val]; rfl))
  have e1 : ∀ c : Fin 256, f (Fin.natAdd 256 (Fin.castAdd 256 c)) = f (wrow 1 c) := fun c =>
    congrArg f (Fin.ext (by rw [wrow1_val]; rfl))
  have e2 : ∀ c : Fin 256, f (Fin.natAdd 256 (Fin.natAdd 256 c)) = f (wrow 2 c) := fun c =>
    congrArg f (Fin.ext (by rw [wrow2_val]; show 256 + (256 + c.val) = 512 + c.val; omega))
  simp only [e0, e1, e2]

/-! ### The joined array at a column of each operand -/

/-- Column c of the first operand. -/
theorem h_apply0 (x0 : (⟨S8192x256, .f32⟩ : BufTy).Contents (Elt Ideal)) (x1 : (⟨S256x256, .f32⟩ : BufTy).Contents (Elt Ideal))
    (x2 : (⟨S256, .f32⟩ : BufTy).Contents (Elt Ideal)) (x3 : (⟨S256x256, .f32⟩ : BufTy).Contents (Elt Ideal))
    (x4 : (⟨S256, .f32⟩ : BufTy).Contents (Elt Ideal)) (a : Fin 8192) (c : Fin 256) :
    val_main_v20 (F := Ideal) x0 x1 x2 x3 x4 (ix2 a (wrow 0 c)) = x0 (ix2 a c) := by
  unfold val_main_v20
  refine concatenate_apply_piece 1 _ _ (ix2 a (wrow 0 c)) 0 ?_ S8192x256 x0 ?_ rfl 0 ?_ (ix2 a c) ?_ ?_
  · show (0 : ℕ) < 3; omega
  · rfl
  · rfl
  · intro b hb
    match b with
    | ⟨0, _⟩ => rfl
    | ⟨1, _⟩ => exact absurd rfl hb
  · show 0 + c.val = (wrow 0 c).val
    rw [wrow0_val]; omega

/-- Column 256 + c is column c of the second operand. -/
theorem h_apply1 (x0 : (⟨S8192x256, .f32⟩ : BufTy).Contents (Elt Ideal)) (x1 : (⟨S256x256, .f32⟩ : BufTy).Contents (Elt Ideal))
    (x2 : (⟨S256, .f32⟩ : BufTy).Contents (Elt Ideal)) (x3 : (⟨S256x256, .f32⟩ : BufTy).Contents (Elt Ideal))
    (x4 : (⟨S256, .f32⟩ : BufTy).Contents (Elt Ideal)) (a : Fin 8192) (c : Fin 256) :
    val_main_v20 (F := Ideal) x0 x1 x2 x3 x4 (ix2 a (wrow 1 c)) = val_main_v18 (F := Ideal) x0 x1 x2 (ix2 a c) := by
  unfold val_main_v20
  refine concatenate_apply_piece 1 _ _ (ix2 a (wrow 1 c)) 1 ?_ S8192x256 (val_main_v18 (F := Ideal) x0 x1 x2) ?_ rfl 256 ?_ (ix2 a c) ?_ ?_
  · show (1 : ℕ) < 3; omega
  · rfl
  · rfl
  · intro b hb
    match b with
    | ⟨0, _⟩ => rfl
    | ⟨1, _⟩ => exact absurd rfl hb
  · show 256 + c.val = (wrow 1 c).val
    rw [wrow1_val]

/-- Column 512 + c is column c of the third operand. -/
theorem h_apply2 (x0 : (⟨S8192x256, .f32⟩ : BufTy).Contents (Elt Ideal)) (x1 : (⟨S256x256, .f32⟩ : BufTy).Contents (Elt Ideal))
    (x2 : (⟨S256, .f32⟩ : BufTy).Contents (Elt Ideal)) (x3 : (⟨S256x256, .f32⟩ : BufTy).Contents (Elt Ideal))
    (x4 : (⟨S256, .f32⟩ : BufTy).Contents (Elt Ideal)) (a : Fin 8192) (c : Fin 256) :
    val_main_v20 (F := Ideal) x0 x1 x2 x3 x4 (ix2 a (wrow 2 c)) = val_main_v19 (F := Ideal) x0 x3 x4 (ix2 a c) := by
  unfold val_main_v20
  refine concatenate_apply_piece 1 _ _ (ix2 a (wrow 2 c)) 2 ?_ S8192x256 (val_main_v19 (F := Ideal) x0 x3 x4) ?_ rfl 512 ?_ (ix2 a c) ?_ ?_
  · show (2 : ℕ) < 3; omega
  · rfl
  · rfl
  · intro b hb
    match b with
    | ⟨0, _⟩ => rfl
    | ⟨1, _⟩ => exact absurd rfl hb
  · show 512 + c.val = (wrow 2 c).val
    rw [wrow2_val]

/-! ### The last product, the bias and the clamp -/

theorem lidx_out (a : Fin 8192) (o : Fin 256) (k : Fin 768) : lidx_main_v21 (ix2 a o) k = ix2 a k :=
  funext fun c => Fin.ext (by match c with | ⟨0, _⟩ => rfl | ⟨1, _⟩ => rfl)

theorem ridx_out (a : Fin 8192) (o : Fin 256) (k : Fin 768) : ridx_main_v21 (ix2 a o) k = ix2 k o :=
  funext fun c => Fin.ext (by match c with | ⟨0, _⟩ => rfl | ⟨1, _⟩ => rfl)

theorem idx_bias3 (a : Fin 8192) (o : Fin 256) : idx_main_v22 (idx_main_v23 (ix2 a o)) = ix1 o :=
  funext fun c => Fin.ext (by match c with | ⟨0, _⟩ => rfl)

/-- The reference's result at (a, o). -/
theorem ref_apply (x0 : (⟨S8192x256, .f32⟩ : BufTy).Contents (Elt Ideal)) (x1 : (⟨S256x256, .f32⟩ : BufTy).Contents (Elt Ideal))
    (x2 : (⟨S256, .f32⟩ : BufTy).Contents (Elt Ideal)) (x3 : (⟨S256x256, .f32⟩ : BufTy).Contents (Elt Ideal))
    (x4 : (⟨S256, .f32⟩ : BufTy).Contents (Elt Ideal)) (x5 : (⟨S768x256, .f32⟩ : BufTy).Contents (Elt Ideal))
    (x6 : (⟨S256, .f32⟩ : BufTy).Contents (Elt Ideal)) (a : Fin 8192) (o : Fin 256) :
    val_main_v25 (F := Ideal) x0 x1 x2 x3 x4 x5 x6 (ix2 a o)
      = result scale (cur2 x0) (cur2 x1) (cur1 x2) (cur2 x3) (cur1 x4) (cur2 x5) (cur1 x6) a o := by
  rw [val_main_v25_apply, val_main_v24_apply, val_main_v21_apply, val_main_v23_apply, val_main_v22_apply,
    val_main_call2_v0_apply, val_main_call2_cst_apply]
  simp only [Ideal.maximumf_def, Ideal.addf_def, Ideal.ofBits_def, Ideal.ofBits_zero_f32, lidx_out, ridx_out, idx_bias3]
  rw [sum_three]
  simp only [h_apply0, h_apply1, h_apply2, agg1_apply, agg2_apply]
  rfl

/-- The reference's result is the specification's function of the seven arguments. -/
theorem ref_eq (x0 : (⟨S8192x256, .f32⟩ : BufTy).Contents (Elt Ideal)) (x1 : (⟨S256x256, .f32⟩ : BufTy).Contents (Elt Ideal))
    (x2 : (⟨S256, .f32⟩ : BufTy).Contents (Elt Ideal)) (x3 : (⟨S256x256, .f32⟩ : BufTy).Contents (Elt Ideal))
    (x4 : (⟨S256, .f32⟩ : BufTy).Contents (Elt Ideal)) (x5 : (⟨S768x256, .f32⟩ : BufTy).Contents (Elt Ideal))
    (x6 : (⟨S256, .f32⟩ : BufTy).Contents (Elt Ideal)) :
    val_main_v25 (F := Ideal) x0 x1 x2 x3 x4 x5 x6
      = fun i => result (Ideal.ofBits .f32 0x3B800000#32) (cur2 x0) (cur2 x1) (cur1 x2) (cur2 x3) (cur1 x4) (cur2 x5) (cur1 x6) (i 0) (i 1) := by
  funext i
  exact (congrArg (val_main_v25 (F := Ideal) x0 x1 x2 x3 x4 x5 x6) (eq_ix2 i)).trans
    (ref_apply x0 x1 x2 x3 x4 x5 x6 (i 0) (i 1))

end Cert.ReferenceIdeal.RefValue

end
-- ==== Proof.lean ====
/-
  The certificate of a two-stage message-passing kernel against its jnp reference, over the extended reals.

  With x the 8192×256 edge features, both programs compute e₁ = relu(x·W₁ + b₁), e₂ = relu(x·W₂ + b₂), the aggregates
  aggₐ(i,d) = Σ_j (eₐ(i,·)·eₐ(j,·)) · x(j,d) / 256 and the result relu(x·W⁰ + agg₁·W¹ + agg₂·W² + b), W⁰, W¹, W² the three 256-row
  slices of the output weights. The kernel does it in two grid regions — the projections, stored in half precision, then per
  block of 1024 rows the aggregates accumulated over sixteen slabs of 512 rows with the factor 2⁻⁸ applied to the features,
  and the output product as three partial products — where the reference divides the similarity by 256 and multiplies the
  concatenation [x, agg₁, agg₂] by the whole weight matrix. At the extended reals a change of float format is the identity,
  division by 256 is multiplication by 2⁻⁸, and the two arrangements differ only by the association and order of sums and
  products, so the two results are one function (`Cert.Spec.result`) of the seven arguments: no finiteness is used.

  The three frames: each kernel region's body is run once at a symbolic grid point (the second one's loop by an invariant
  over the two accumulators), the regions are chained by the launch theorem for several regions — three arrays of the
  second region are each read through two windows, which hold half of the array's share each —, and the reference's run is
  its operations' composed term.
-/
import proofs.«142857_j12214886990224_2_alg».proof.Defs
import proofs.«142857_j12214886990224_2_alg».proof.Proof.Gen.Kernel
import proofs.«142857_j12214886990224_2_alg».proof.Proof.Gen.KernelIdeal
import proofs.«142857_j12214886990224_2_alg».proof.Proof.Gen.ReferenceIdeal
import proofs.«142857_j12214886990224_2_alg».proof.Proof.Gen.Pre_finite_inputs
import proofs.«142857_j12214886990224_2_alg».proof.Proof.Gen.ReferenceIdeal.Read
import proofs.«142857_j12214886990224_2_alg».proof.Proof.KRun
import proofs.«142857_j12214886990224_2_alg».proof.Proof.KIFinal
import proofs.«142857_j12214886990224_2_alg».proof.Proof.KIRefOut
import Idealize.ShloMosaic.Adequacy
import Idealize.ShloMosaic.Init

noncomputable section

namespace Cert.Proof

open Idealize.ShloMosaic Idealize.ShloMosaic.TcCoe Idealize.SL.Sem

/-- The word-level kernel runs and leaves its arguments unchanged: the two regions' run with the result dropped. -/
theorem frame_k : Cert.frame_Kernel := fun m ρ _ =>
  (θ_run Cert.Kernel.defs _ _).mono (fun _ h c => (h c).2) (Cert.Kernel.Hand.run_main (F := Bits) m ρ)

/-- The idealized kernel likewise. -/
theorem frame_ki : Cert.frame_KernelIdeal := fun m ρ _ =>
  (θ_run Cert.KernelIdeal.defs _ _).mono (fun _ h c => (h c).2) (Cert.KernelIdeal.Val.run m ρ)

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with their result at the specification's function of the (agreeing) arguments. -/
theorem algebraic : Cert.algebraic_KernelIdeal_ReferenceIdeal := by
  intro m ρ m' ρ' _ hagree
  refine ⟨fun c => Cert.KernelIdeal.Val.G m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v25_eq (F := Ideal) _ _ _ _ _ _ _).trans ?_
  rw [Cert.ReferenceIdeal.RefValue.ref_eq, (hagree c).1, (hagree c).2.1, (hagree c).2.2.1, (hagree c).2.2.2.1,
    (hagree c).2.2.2.2.1, (hagree c).2.2.2.2.2.1, (hagree c).2.2.2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
